-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩
abbrev S_ : Shape := ⟨0, ![]⟩

abbrev nBuf : Space → Nat
  | .hbm => 18
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_call0_v0 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v85 : BitVec 1 := Scalar.cmpi .eq arg1 c15_i32
  let v86 : BitVec 32 := Scalar.extui v85
  let c0_i32_43 : BitVec 32 := 0#32
  let v87 : BitVec 1 := Scalar.cmpi .ne v86 c0_i32_43
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  natLt_1_32 : 1 < 32
  reducesTo_S8192x1_S_d0_1 : S8192x1.ReducesTo [0, 1] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .i1⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192x8192, .i32⟩
  | .hbm, ⟨54, _⟩ => ⟨S_, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i1⟩
  | .hbm, ⟨60, _⟩ => ⟨S8192, .i1⟩
  | .hbm, ⟨61, _⟩ => ⟨S8192, .i1⟩
  | .hbm, ⟨62, _⟩ => ⟨S_, .i1⟩
  | .hbm, ⟨63, _⟩ => ⟨S8192, .i1⟩
  | .hbm, ⟨64, _⟩ => ⟨S8192, .i1⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_call3_v0 : Ref sig .tc := ⟨.hbm, 48, rfl⟩
abbrev main_call3_v1 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_c_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_call4_cst : Ref sig .tc := ⟨.hbm, 69, rfl⟩
abbrev main_call4_v0 : Ref sig .tc := ⟨.hbm, 70, rfl⟩
abbrev main_v43 : Ref sig .tc := ⟨.hbm, 71, rfl⟩
abbrev main_cst_14 : Ref sig .tc := ⟨.hbm, 72, rfl⟩
abbrev main_call5_v0 : Ref sig .tc := ⟨.hbm, 73, rfl⟩
abbrev main_call5_v1 : Ref sig .tc := ⟨.hbm, 74, rfl⟩
abbrev main_v44 : Ref sig .tc := ⟨.hbm, 75, rfl⟩
abbrev main_v45 : Ref sig .tc := ⟨.hbm, 76, rfl⟩
abbrev main_cst_15 : Ref sig .tc := ⟨.hbm, 77, rfl⟩
abbrev main_v46 : Ref sig .tc := ⟨.hbm, 78, rfl⟩
abbrev main_cst_16 : Ref sig .tc := ⟨.hbm, 79, rfl⟩
abbrev main_v47 : Ref sig .tc := ⟨.hbm, 80, rfl⟩
abbrev main_cst_17 : Ref sig .tc := ⟨.hbm, 81, rfl⟩
abbrev main_v48 : Ref sig .tc := ⟨.hbm, 82, rfl⟩
abbrev main_cst_18 : Ref sig .tc := ⟨.hbm, 83, rfl⟩
abbrev main_v49 : Ref sig .tc := ⟨.hbm, 84, rfl⟩
abbrev main_v50 : Ref sig .tc := ⟨.hbm, 85, rfl⟩
abbrev main_cst_19 : Ref sig .tc := ⟨.hbm, 86, rfl⟩
abbrev main_call6_v0 : Ref sig .tc := ⟨.hbm, 87, rfl⟩
abbrev main_v51 : Ref sig .tc := ⟨.hbm, 88, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  natLt_1_32 : 1 < 32
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Entry.lean ====
/- The contents of a core's buffers when the kernel region is entered, and each window's block read off them.
   Before the region @main reshapes the labels to a column and to a row; the embeddings array is untouched. -/
import proofs.«162495_j16088947491301_1_alg».proof.Proof.Gen.KernelIdeal.Launch
import proofs.«162495_j16088947491301_1_alg».proof.Proof.Gen.KernelIdeal.Skeleton
import proofs.«162495_j16088947491301_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffer contents when the region is entered: the launch contents after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Entry

end
-- ==== Proof.SharedLaunch.lean ====
/- The run of @main for a pallas_call that stages one array through two windows.

   The embeddings array is read through window 0 (a row tile) and window 1 (a column tile), so the windows' arrays are not
   distinct buffers. The launch deals the array's full share to the two windows as its two halves; every other array is
   held whole. After the region twelve host lines reduce the two results to the loss; they touch only the two results and
   buffers that bypass the region, so they run within that set, the four input arrays framed out. The final state then
   has every array at the contents the pipeline library computes from the proof data, the labels as launched, and the
   last line's buffer at the composed term of the two results. -/
import proofs.«162495_j16088947491301_1_alg».proof.Proof.Gen.KernelIdeal.Launch
import proofs.«162495_j16088947491301_1_alg».proof.Proof.Entry
import Idealize.ShloMosaic.Lib.Pipeline.FrameSuffix
import Idealize.ShloMosaic.Lib.StableHlo.Run
import Idealize.ShloMosaic.Lib.Tactic

noncomputable section

namespace Cert.KernelIdeal.SharedLaunch

open Cert.KernelIdeal Cert.KernelIdeal.Gen
open Cert.KernelIdeal.Entry (V0 V)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The pipeline's six arrays one by one, at the shares the proof datum holds them: the first argument's two halves
    for windows 0 and 1, every other array whole. -/
theorem arrays0_eq {c : Dev nD} (dat : Pipeline.Dat τ (Elt F) Unit ℕ (UR sig nD τ) ℕ cfg0 c)
    (hq : dat.q 0 = fullShare.left ∧ dat.q 1 = fullShare.right ∧ dat.q 2 = fullShare ∧ dat.q 3 = fullShare)
    (A : (w : Fin cfg0.W) → Buf (Elt F) ((cfg0.win w).arr.view.loc (c : Thread nD τ))) :
    (dat.arrays A : sProp 𝕄) = iprop((((c : Thread nD τ).loc main_arg0) ↦{fullShare.left} A 0) ∗ (((c : Thread nD τ).loc main_arg0) ↦{fullShare.right} A 1)
      ∗ (((c : Thread nD τ).loc main_v0) ↦{fullShare} A 2) ∗ (((c : Thread nD τ).loc main_v1) ↦{fullShare} A 3)
      ∗ (((c : Thread nD τ).loc main_v2_0) ↦{fullShare} A 4) ∗ (((c : Thread nD τ).loc main_v2_1) ↦{fullShare} A 5)) := by
  obtain ⟨h0, h1, h2, h3⟩ := hq
  have s0 : dat.share 0 = fullShare.left := (if_neg (by decide)).trans h0
  have s1 : dat.share 1 = fullShare.right := (if_neg (by decide)).trans h1
  have s2 : dat.share 2 = fullShare := (if_neg (by decide)).trans h2
  have s3 : dat.share 3 = fullShare := (if_neg (by decide)).trans h3
  have s4 : dat.share 4 = fullShare := if_pos (by decide)
  have s5 : dat.share 5 = fullShare := if_pos (by decide)
  have hpt : ∀ (w : Fin 6) (q : PosShare TreeShare),
      ((cfg0.win w).arr.view.loc (c : Thread nD τ) ↦[(cfg0.win w).arr.view.set]{q} A w : sProp 𝕄)
        = (((c : Thread nD τ).loc (Pipeline.arrRef spec0 w)) ↦{q} A w) := fun w q => by
    rw [(arr_whole0 w).set_eq_univ]
  unfold Pipeline.Dat.arrays
  rw [bigSep_W0, s0, s1, s2, s3, s4, s5, hpt 0, hpt 1, hpt 2, hpt 3, hpt 4, hpt 5]

/-- The distinct buffers behind the six windows' arrays, listed. -/
theorem arrImage_eq : Finset.univ.image (Pipeline.arrRef spec0) = [main_arg0, main_v0, main_v1, main_v2_0, main_v2_1].toFinset := by decide

/-- The buffers behind the windows' arrays, each whole at contents `V`, one by one. -/
theorem arrBufs0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.arrBufs (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2_0) ↦{fullShare} V main_v2_0) ∗ (((c : Thread nD τ).loc main_v2_1) ↦{fullShare} V main_v2_1)) := by
  unfold Pipeline.arrBufs
  exact bigSep_eq_bigSepL_of_eq [main_arg0, main_v0, main_v1, main_v2_0, main_v2_1] arrImage_eq (by decide) _

/-- The five buffers behind the windows' arrays, each whole at the full share, are the pipeline's six arrays: the
    first argument's full share is dealt to windows 0 and 1 as its two halves. -/
theorem hsplit (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q 0 = fullShare.left ∧ (dats 0 c).q 1 = fullShare.right ∧ (dats 0 c).q 2 = fullShare ∧ (dats 0 c).q 3 = fullShare)
    (c : Dev nD) :
    (Pipeline.arrBufs spec0 c (V m c) : sProp 𝕄) ⊢ (dats 0 c).arrays ((dats 0 c).arrAt · 0) := by
  rw [arrBufs0_eq, arrays0_eq (dats 0 c) (hq c),
    show (dats 0 c).arrAt 0 0 = _ from hA c 0, show (dats 0 c).arrAt 1 0 = _ from hA c 1, show (dats 0 c).arrAt 2 0 = _ from hA c 2,
    show (dats 0 c).arrAt 3 0 = _ from hA c 3, show (dats 0 c).arrAt 4 0 = _ from hA c 4, show (dats 0 c).arrAt 5 0 = _ from hA c 5]
  iintro ⟨H0, Hv0, Hv1, H20, H21⟩
  ihave H0' := (pointsTo_share (PosShare.mem_left_op_right fullShare)).1 $$ H0
  icases H0' with ⟨Ha, Hb⟩
  isplitl [Ha]; · iexact Ha
  isplitl [Hb]; · iexact Hb
  isplitl [Hv0]; · iexact Hv0
  isplitl [Hv1]; · iexact Hv1
  isplitl [H20]; · iexact H20
  iexact H21

theorem hostOps0_fresh : (hostOps0 : List (HloOp τ sig (Elt F))).Forall fun op => op.fresh = ∅ := by
  simp only [List.Forall]; repeat' constructor

/-- @main around the region: the two reshapes, the region, then the twelve host lines (`Pipeline.hmain_around` off
    `main_chain`): it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-! ## The lines after the region -/

/-- The buffers the lines after the region touch: the pipeline's two results and every buffer that bypasses the region. -/
abbrev tailSet : Finset (Ref sig .tc) :=
  insert main_v2_0 (insert main_v2_1 ((Finset.univ.filter fun b : Ref sig .tc => ¬ b.isScoped) \ Finset.univ.image (Pipeline.arrRef spec0)))
/-- The same as device buffers. -/
def tailDev : Finset (DevRef τ sig) := tailSet.map ⟨Proc.devRef (sig := sig) .tc, Proc.devRef_injective _⟩

theorem mem_tailDev {b : Ref sig .tc} (h : b ∈ tailSet) : Proc.devRef (τ := τ) .tc b ∈ tailDev := Finset.mem_map_of_mem _ h

theorem sub1 {y : Ref sig .tc} (hy : y ∈ tailSet) : ({Proc.devRef .tc y} : Finset (DevRef τ sig)) ⊆ tailDev :=
  Finset.singleton_subset_iff.mpr (mem_tailDev hy)
theorem sub2 {x y : Ref sig .tc} (hx : x ∈ tailSet) (hy : y ∈ tailSet) : ({Proc.devRef .tc x, Proc.devRef .tc y} : Finset (DevRef τ sig)) ⊆ tailDev :=
  Finset.insert_subset_iff.mpr ⟨mem_tailDev hx, sub1 hy⟩
theorem sub3 {a b y : Ref sig .tc} (ha : a ∈ tailSet) (hb : b ∈ tailSet) (hy : y ∈ tailSet) :
    ({Proc.devRef .tc a, Proc.devRef .tc b, Proc.devRef .tc y} : Finset (DevRef τ sig)) ⊆ tailDev :=
  Finset.insert_subset_iff.mpr ⟨mem_tailDev ha, sub2 hb hy⟩
theorem sub4 {c a b y : Ref sig .tc} (hc : c ∈ tailSet) (ha : a ∈ tailSet) (hb : b ∈ tailSet) (hy : y ∈ tailSet) :
    ({Proc.devRef .tc c, Proc.devRef .tc a, Proc.devRef .tc b, Proc.devRef .tc y} : Finset (DevRef τ sig)) ⊆ tailDev :=
  Finset.insert_subset_iff.mpr ⟨mem_tailDev hc, sub3 ha hb hy⟩

/-- The set held at a valuation: the two results, then the bypassing buffers. -/
theorem held_tail (c : Dev nD) (W : Valuation τ sig (Elt F)) :
    (StableHlo.held (c : Thread nD τ) tailDev W : sProp 𝕄)
      = iprop((((c : Thread nD τ).loc main_v2_0) ↦{fullShare} W (Proc.devRef .tc main_v2_0)) ∗ (((c : Thread nD τ).loc main_v2_1) ↦{fullShare} W (Proc.devRef .tc main_v2_1))
          ∗ Pipeline.unscopedRest spec0 c (fun b => W (Proc.devRef .tc b))) := by
  unfold StableHlo.held tailDev Pipeline.unscopedRest
  rw [bigSep_map, bigSep_insert (by decide), bigSep_insert (by decide)]
  rfl

/-- Each line touches only buffers of that set. -/
theorem tail_sub : ∀ ops ∈ ([hostOps1, hostOps1_1] : List (List (HloOp τ sig (Elt F)))), ∀ op ∈ ops, op.bufs ⊆ tailDev := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl
    all_goals first | exact sub1 (by decide) | exact sub3 (by decide) (by decide) (by decide)
  · simp only [hostOps1_1, List.mem_cons, List.mem_nil_iff, or_false] at hop
    rcases hop with rfl | rfl
    all_goals first | exact sub2 (by decide) (by decide) | exact sub4 (by decide) (by decide) (by decide) (by decide)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- They allocate nothing. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The host tail's composed pure term over the pipeline's two results. -/
def tailResult (pa valid : (⟨S8192x1, .f32⟩ : BufTy).Contents (Elt F)) : (⟨S_, .f32⟩ : BufTy).Contents (Elt F) :=
  select (cmpf .ogt (Host.reduceAdd valid (constant S_ .f32 0x00000000#32) reducesTo_S8192x1_S_d0_1 h_S_) (constant S_ .f32 0x00000000#32))
    (Host.divf (Host.reduceAdd pa (constant S_ .f32 0x00000000#32) reducesTo_S8192x1_S_d0_1 h_S_)
      (maximumf (Host.reduceAdd valid (constant S_ .f32 0x00000000#32) reducesTo_S8192x1_S_d0_1 h_S_) (constant S_ .f32 0x3F800000#32)))
    (id (constant S_ .f32 0x00000000#32))

open Classical in
/-- The core's buffer contents at the region's exit: the two results at `pa`, `valid`, every other buffer as the region
    found it. -/
def exitVal (c : Dev nD) (pa valid : (⟨S8192x1, .f32⟩ : BufTy).Contents (Elt F)) : Valuation τ sig (Elt F) :=
  Function.update (Function.update (V0 m c) (Proc.devRef .tc main_v2_0) pa) (Proc.devRef .tc main_v2_1) valid

theorem exitVal_v2_1 (c : Dev nD) (pa valid) : exitVal m c pa valid (Proc.devRef .tc main_v2_1) = valid := by
  unfold exitVal; exact Function.update_self ..
theorem exitVal_v2_0 (c : Dev nD) (pa valid) : exitVal m c pa valid (Proc.devRef .tc main_v2_0) = pa := by
  unfold exitVal
  rw [Function.update_of_ne (StableHlo.devRef_ne_of_ne (by decide))]; exact Function.update_self ..
theorem exitVal_of_ne (c : Dev nD) (pa valid) (b : Ref sig .tc) (h0 : b ≠ main_v2_0) (h1 : b ≠ main_v2_1) :
    exitVal m c pa valid (Proc.devRef .tc b) = V0 m c (Proc.devRef .tc b) := by
  unfold exitVal
  rw [Function.update_of_ne (StableHlo.devRef_ne_of_ne h1), Function.update_of_ne (StableHlo.devRef_ne_of_ne h0)]

/-- No line after the region writes the first result, -/
theorem after_tail_v2_0 (W : Valuation τ sig (Elt F)) :
    StableHlo.after (List.flatten [hostOps1, hostOps1_1]) W (Proc.devRef .tc main_v2_0) = W (Proc.devRef .tc main_v2_0) := by
  simp only [List.flatten_cons, List.flatten_nil, List.append_nil, hostOps1, hostOps1_1, List.cons_append, List.nil_append]
  after_results
/-- nor the second, -/
theorem after_tail_v2_1 (W : Valuation τ sig (Elt F)) :
    StableHlo.after (List.flatten [hostOps1, hostOps1_1]) W (Proc.devRef .tc main_v2_1) = W (Proc.devRef .tc main_v2_1) := by
  simp only [List.flatten_cons, List.flatten_nil, List.append_nil, hostOps1, hostOps1_1, List.cons_append, List.nil_append]
  after_results
/-- nor the labels. -/
theorem after_tail_arg1 (W : Valuation τ sig (Elt F)) :
    StableHlo.after (List.flatten [hostOps1, hostOps1_1]) W (Proc.devRef .tc main_arg1) = W (Proc.devRef .tc main_arg1) := by
  simp only [List.flatten_cons, List.flatten_nil, List.append_nil, hostOps1, hostOps1_1, List.cons_append, List.nil_append]
  after_results
/-- The last line's buffer holds the composed term of the two results. -/
theorem after_tail_v8 (W : Valuation τ sig (Elt F)) :
    StableHlo.after (List.flatten [hostOps1, hostOps1_1]) W (Proc.devRef .tc main_v8)
      = tailResult (W (Proc.devRef .tc main_v2_0)) (W (Proc.devRef .tc main_v2_1)) := by
  simp only [List.flatten_cons, List.flatten_nil, List.append_nil, hostOps1, hostOps1_1, List.cons_append, List.nil_append]
  after_results
  rfl
/-- The reshapes before the region do not write the labels. -/
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil, hostOps0]
  after_results

/-- The bypassing buffers at the exit contents are at the contents the region found. -/
theorem unscopedRest_exit (c : Dev nD) (pa valid : (⟨S8192x1, .f32⟩ : BufTy).Contents (Elt F)) :
    (Pipeline.unscopedRest spec0 c (fun b => exitVal m c pa valid (Proc.devRef .tc b)) : sProp 𝕄) = Pipeline.unscopedRest spec0 c (V m c) := by
  unfold Pipeline.unscopedRest
  exact bigSep_congr fun b hb => by
    dsimp only
    rw [exitVal_of_ne m c pa valid b (fun e => (Finset.mem_sdiff.mp hb).2 (by rw [e]; decide)) (fun e => (Finset.mem_sdiff.mp hb).2 (by rw [e]; decide))]

set_option backward.isDefEq.respectTransparency.types false in
/-- The twelve lines after the region, run within the set of buffers they touch. -/
theorem tail_core (𝒱₀ : Variants) (c : Dev nD) (W : Valuation τ sig (Elt F)) (Q' : PUnit → sProp 𝕄) :
    iprop(((StableHlo.held (c : Thread nD τ) tailDev (StableHlo.after (List.flatten [hostOps1, hostOps1_1]) W) : sProp 𝕄) -∗ Q' ⟨⟩)
        ∗ boundary (c : Thread nD τ) ∗ (StableHlo.held (c : Thread nD τ) tailDev W : sProp 𝕄))
      ⊢ wp frame (wpE (Pipeline.defs (pcfgs (F := F)) defs₀) (Variants.lift 𝒱₀) (c : Thread nD τ) none) Set.univ
          (Pipeline.chain [StableHlo.seq hostOps1, StableHlo.seq hostOps1_1]) Q' := by
  have h := Pipeline.wp_seqs_then (Ix := Unit) (Name := ℕ) (U := UR sig nD τ) (Lvl := ℕ) (pcfgs (F := F)) defs₀ 𝒱₀ c tailDev [] (K := Q')
    [hostOps1, hostOps1_1] tail_sub tail_fresh W
  simp only [List.map_cons, List.map_nil, List.append_nil] at h
  iintro ⟨Hk, Hb⟩
  iapply h $$ Hb
  iintro Hb
  rw [Pipeline.chain_nil, wp_pure]
  imodintro
  iapply Hk
  icases Hb with ⟨-, H⟩
  iexact H

/-- THE LINES AFTER THE REGION: from the region's exit — the boundary, the six arrays at their final contents, the
    bypassing buffers as the region found them — the twelve lines run within the two results and the bypassing
    buffers, and hand the arrays back with the bypassing buffers at the lines' `StableHlo.after`. -/
theorem htail (𝒱₀ : Variants) (dats : (p : Fin 1) → (c : Dev nD) → Pipeline.Dat τ (Elt F) Unit ℕ (UR sig nD τ) ℕ (cfgs p) c)
    (hq : ∀ c, (dats 0 c).q 0 = fullShare.left ∧ (dats 0 c).q 1 = fullShare.right ∧ (dats 0 c).q 2 = fullShare ∧ (dats 0 c).q 3 = fullShare)
    (c : Dev nD) (Q' : PUnit → sProp 𝕄) :
    iprop((iprop((dats 0 c).arrays ((dats 0 c).arrAt · cfg0.N)
              ∗ Pipeline.unscopedRest spec0 c (fun b => StableHlo.after (List.flatten [hostOps1, hostOps1_1])
                  (exitVal m c ((dats 0 c).arrAt 4 cfg0.N) ((dats 0 c).arrAt 5 cfg0.N)) (Proc.devRef .tc b))) -∗ Q' ⟨⟩)
        ∗ boundary (c : Thread nD τ) ∗ (dats 0 c).arrays ((dats 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain [StableHlo.seq hostOps1, StableHlo.seq hostOps1_1]) Q' := by
  have hW := held_tail c (exitVal m c ((dats 0 c).arrAt 4 cfg0.N) ((dats 0 c).arrAt 5 cfg0.N))
  rw [exitVal_v2_0, exitVal_v2_1, unscopedRest_exit] at hW
  have hW' := held_tail c (StableHlo.after (List.flatten [hostOps1, hostOps1_1]) (exitVal m c ((dats 0 c).arrAt 4 cfg0.N) ((dats 0 c).arrAt 5 cfg0.N)))
  rw [after_tail_v2_0, after_tail_v2_1, exitVal_v2_0, exitVal_v2_1] at hW'
  refine BIBase.Entails.trans ?_ (tail_core 𝒱₀ c (exitVal m c ((dats 0 c).arrAt 4 cfg0.N) ((dats 0 c).arrAt 5 cfg0.N)) Q')
  rw [hW, hW', arrays0_eq (dats 0 c) (hq c)]
  iintro ⟨Hk, Hb, ⟨Ha0, Ha1, Hv0, Hv1, H20, H21⟩, HR⟩
  isplitl [Hk Ha0 Ha1 Hv0 Hv1]
  · iintro ⟨H20, H21, HR'⟩
    iapply Hk
    isplitr [HR']
    · isplitl [Ha0]; · iexact Ha0
      isplitl [Ha1]; · iexact Ha1
      isplitl [Hv0]; · iexact Hv0
      isplitl [Hv1]; · iexact Hv1
      isplitl [H20]; · iexact H20
      iexact H21
    · iexact HR'
  · isplitl [Hb]; · iexact Hb
    isplitl [H20]; · iexact H20
    isplitl [H21]; · iexact H21
    iexact HR

/-! ## The run -/

set_option backward.isDefEq.respectTransparency.types false in
/-- THE RUN of @main for a pallas_call whose windows 0 and 1 stage one array: at the compiled mesh, from any memory with
    zero counters, every weakly fair execution of @main on the TensorCores terminates, and every final state has every
    array of the pipeline at what the library computes from the proof data, the labels as launched, and the last
    line's buffer at the host tail's term of the two results. -/
theorem run_shared (ρ : Dev nD → PrngReg)
    (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q 0 = fullShare.left ∧ (dats 0 c).q 1 = fullShare.right ∧ (dats 0 c).q 2 = fullShare ∧ (dats 0 c).q 3 = fullShare)
    (howed : ∀ c t, (dats 0 c).owed t = 0)
    (hbody : ∀ c, Pipeline.BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∀ w : Fin cfg0.W, r.2.mem ((cfg0.win w).arr.view.loc (c : Thread nD τ)) = (dats 0 c).arrAt w cfg0.N)
      ∧ r.2.mem ((c : Thread nD τ).loc main_arg1) = m ((c : Thread nD τ).loc main_arg1)
      ∧ r.2.mem ((c : Thread nD τ).loc main_v8) = tailResult ((dats 0 c).arrAt 4 cfg0.N) ((dats 0 c).arrAt 5 cfg0.N)) := by
  classical
  exact Pipeline.θ_run_region_pf_tail (fun q => (cfgs q).toPCfg (Val := Elt F)) (fun q => (cfgs q).toPCfg_adm) dats () cellOf_inj (0 : Fin 1) winFacts₀0
    (Pipeline.OwnSemFacts.none spec0) (Pipeline.PreFacts.none _) emb₁ defs₀ Variants.none m ρ main
    (fun _ => Pipeline.chain [StableHlo.seq hostOps1, StableHlo.seq hostOps1_1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => StableHlo.after (List.flatten [hostOps1, hostOps1_1])
        (exitVal m c ((dats 0 c).arrAt 4 cfg0.N) ((dats 0 c).arrAt 5 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m Variants.none dats hq)
    (QY := fun c s => s.mem ((c : Thread nD τ).loc main_arg1) = m ((c : Thread nD τ).loc main_arg1)
      ∧ s.mem ((c : Thread nD τ).loc main_v8) = tailResult ((dats 0 c).arrAt 4 cfg0.N) ((dats 0 c).arrAt 5 cfg0.N))
    (hY := fun c s' => by
      rw [unscopedRest0_eq]
      iintro ⟨-, ⟨H1, -, -, -, -, -, -, -, -, -, -, -, H8⟩, HSI⟩
      icombine HSI H1 gives %h1
      icombine HSI H8 gives %h8
      imodintro
      isplitr
      · ipureintro
        refine ⟨(Buf.eq_of_forall_mem_univ h1).trans ?_, (Buf.eq_of_forall_mem_univ h8).trans ?_⟩
        · rw [after_tail_arg1, exitVal_of_ne m c _ _ main_arg1 (by decide) (by decide)]; exact V_arg1 m c
        · rw [after_tail_v8, exitVal_v2_0, exitVal_v2_1]
      iexact HSI)
    (hQ := fun s h c => ⟨(h c).1, (h c).2.2⟩)

end Cert.KernelIdeal.SharedLaunch

end
-- ==== Proof.Cases.lean ====
/- The three control cases of the kernel body over the grid of 16 row tiles by 16 column tiles: at the first column tile the five per-row
   accumulators are reset before the tile is folded in; at the last column tile they are folded and the row tile's two result blocks are
   written; in between the tile is folded in and nothing else. Here: the two conditions in closed form over the 256 grid points, where
   the result windows are idle and where they are written back, the names of each window's staging buffer at a point, and each input
   window's buffer holding its block at every point. -/
import proofs.«162495_j16088947491301_1_alg».proof.Proof.Entry

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two conditions -/

/-- The column-tile coordinate is 0, as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The column-tile coordinate is 15, as the body computes it. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last column tile the result windows are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last column tile they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging buffers at a point, and the scratch -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
/-- One view through which each 512×1 buffer's contents are stated. -/
abbrev VO : View sig .tc .vmem S512x1 .f32 := (Memref.whole cc0_stg4_0 : Memref sig .tc .vmem S512x1 .f32).view

/-- The region's invariant with the five scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## Each input window's buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Cases

end
-- ==== Proof.RunFirst.lean ====
/- The kernel body at the first column tile of a row tile. -/
import proofs.«162495_j16088947491301_1_alg».proof.Proof.Cases

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT THE FIRST COLUMN TILE (the accumulators are reset, then the tile folded in; the result windows untouched): on whole staging memrefs — the four inputs at their contents, the two result buffers at contents handed back untouched, the five scratch buffers at anything — the body runs to the continuation holding the inputs and the result buffers as they were and each scratch buffer with its pieces written (the lists the run finds). -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x256 .f32) (x1 : Vec F S512x256 .f32) (x2 : Vec F S512x1 .i32) (x3 : Vec F S1x512 .i32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Cases

end
-- ==== Proof.RunMiddle.lean ====
/- The kernel body at a column tile that is neither the first nor the last of its row tile. -/
import proofs.«162495_j16088947491301_1_alg».proof.Proof.RunFirst

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT A MIDDLE COLUMN TILE (the tile folded into the accumulators; the result windows untouched): the scratch buffers at the contents the point before left; otherwise as at the first column tile. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x256 .f32) (x1 : Vec F S512x256 .f32) (x2 : Vec F S512x1 .i32) (x3 : Vec F S1x512 .i32)
    (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Cases

end
-- ==== Proof.RunLast.lean ====
/- The kernel body at the last column tile of a row tile. -/
import proofs.«162495_j16088947491301_1_alg».proof.Proof.RunMiddle

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT THE LAST COLUMN TILE (the tile folded in, then the row tile's two result blocks computed from the accumulators and stored): the result buffers at anything, ending with their pieces written; the scratch buffers at the contents the point before left. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x256 .f32) (x1 : Vec F S512x256 .f32) (x2 : Vec F S512x1 .i32) (x3 : Vec F S1x512 .i32)
    (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Cases

end
-- ==== Proof.Carried.lean ====
/- What the body leaves point by point. Within a row tile the five per-row accumulators (hardest positive, hardest negative, count of equal
   labels, any different label, any equal label at a positive distance) are carried in scratch from one column tile to the next: reset and
   folded at the first, folded in between, folded and read out into the two result blocks at the last. `outsAt0` follows them along the
   256 grid points; the region's invariant holds the scratch at what the point before left; the proof datum names what every window's
   staging buffer holds after the body, and the body's three runs discharge the obligation at every point. The embeddings array is read
   through two windows, which hold its two half shares. -/
import proofs.«162495_j16088947491301_1_alg».proof.Proof.RunLast

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-- The pieces case A stores into accumulator 0 tile the buffer, so they cover it. -/
theorem scover0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.1 S512x1.size (by sl_kernel_rfl) y
/-- What case A leaves in accumulator 0: its pieces read back. -/
def sout0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.1)
/-- The pieces case A stores into accumulator 1 tile the buffer, so they cover it. -/
theorem scover0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1 S512x1.size (by sl_kernel_rfl) y
/-- What case A leaves in accumulator 1: its pieces read back. -/
def sout0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1)
/-- The pieces case A stores into accumulator 2 tile the buffer, so they cover it. -/
theorem scover0_A_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1 S512x1.size (by sl_kernel_rfl) y
/-- What case A leaves in accumulator 2: its pieces read back. -/
def sout0_A_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1)
/-- The pieces case A stores into accumulator 3 tile the buffer, so they cover it. -/
theorem scover0_A_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1 S512x1.size (by sl_kernel_rfl) y
/-- What case A leaves in accumulator 3: its pieces read back. -/
def sout0_A_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1)
/-- The pieces case A stores into accumulator 4 tile the buffer, so they cover it. -/
theorem scover0_A_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.2.1 S512x1.size (by sl_kernel_rfl) y
/-- What case A leaves in accumulator 4: its pieces read back. -/
def sout0_A_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.2.1)
/-- The pieces case B stores into accumulator 0 tile the buffer, so they cover it. -/
theorem scover0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1 S512x1.size (by sl_kernel_rfl) y
/-- What case B leaves in accumulator 0: its pieces read back. -/
def sout0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1)
/-- The pieces case B stores into accumulator 1 tile the buffer, so they cover it. -/
theorem scover0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1 S512x1.size (by sl_kernel_rfl) y
/-- What case B leaves in accumulator 1: its pieces read back. -/
def sout0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1)
/-- The pieces case B stores into accumulator 2 tile the buffer, so they cover it. -/
theorem scover0_B_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1 S512x1.size (by sl_kernel_rfl) y
/-- What case B leaves in accumulator 2: its pieces read back. -/
def sout0_B_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1)
/-- The pieces case B stores into accumulator 3 tile the buffer, so they cover it. -/
theorem scover0_B_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1 S512x1.size (by sl_kernel_rfl) y
/-- What case B leaves in accumulator 3: its pieces read back. -/
def sout0_B_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1)
/-- The pieces case B stores into accumulator 4 tile the buffer, so they cover it. -/
theorem scover0_B_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1 S512x1.size (by sl_kernel_rfl) y
/-- What case B leaves in accumulator 4: its pieces read back. -/
def sout0_B_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1)
/-- The pieces case C stores into accumulator 0 tile the buffer, so they cover it. -/
theorem scover0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1 S512x1.size (by sl_kernel_rfl) y
/-- What case C leaves in accumulator 0: its pieces read back. -/
def sout0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1)
/-- The pieces case C stores into accumulator 1 tile the buffer, so they cover it. -/
theorem scover0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1 S512x1.size (by sl_kernel_rfl) y
/-- What case C leaves in accumulator 1: its pieces read back. -/
def sout0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1)
/-- The pieces case C stores into accumulator 2 tile the buffer, so they cover it. -/
theorem scover0_C_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1 S512x1.size (by sl_kernel_rfl) y
/-- What case C leaves in accumulator 2: its pieces read back. -/
def sout0_C_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1)
/-- The pieces case C stores into accumulator 3 tile the buffer, so they cover it. -/
theorem scover0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1 S512x1.size (by sl_kernel_rfl) y
/-- What case C leaves in accumulator 3: its pieces read back. -/
def sout0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1)
/-- The pieces case C stores into accumulator 4 tile the buffer, so they cover it. -/
theorem scover0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1 S512x1.size (by sl_kernel_rfl) y
/-- What case C leaves in accumulator 4: its pieces read back. -/
def sout0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1)
/-- The pieces case C stores into result window 4's block tile it, so they cover it. -/
theorem cover0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).1 S512x1.size (by sl_kernel_rfl) y
/-- What case C leaves in result window 4's staging buffer. -/
def out0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).1)
/-- The pieces case C stores into result window 5's block tile it, so they cover it. -/
theorem cover0_C_5 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.1 S512x1.size (by sl_kernel_rfl) y
/-- What case C leaves in result window 5's staging buffer. -/
def out0_C_5 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.1)

/-! ## The accumulation along the grid -/

/-- What the two result windows' staging buffers (`o4`, `o5`) and the five accumulators (`s0` … `s4`) hold after the body at a point. -/
structure Acc (F : FTy → Type) where
  o4 : Vec F S512x1 .f32
  o5 : Vec F S512x1 .f32
  s0 : Vec F S512x1 .f32
  s1 : Vec F S512x1 .f32
  s2 : Vec F S512x1 .f32
  s3 : Vec F S512x1 .f32
  s4 : Vec F S512x1 .f32

/-- After the body at position `n`: the case the position is in, run at the point's buffers and input blocks, the accumulators it
    carries taken from position `n - 1`. -/
def outsAt0 (c : Dev nD) : (n : ℕ) → n < cfg0.N → Acc F
  | 0, hn => ⟨VO.read (Elt F) VO.junk, VO.read (Elt F) VO.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)⟩
  | n + 1, hn =>
    if h0 : (n + 1) % 16 = 0 then
      if h1 : (n + 1) % 16 = 15 then
        False.elim (by omega)
      else
        ⟨VO.read (Elt F) VO.junk, VO.read (Elt F) VO.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)⟩
    else
      if h1 : (n + 1) % 16 = 15 then
        ⟨out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4⟩
      else
        ⟨VO.read (Elt F) VO.junk, VO.read (Elt F) VO.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4⟩

theorem outsAt0_A (c : Dev nD) (t : Fin cfg0.N) (h0 : t.val % 16 = 0) (h1 : ¬t.val % 16 = 15) :
    outsAt0 m c t.val t.isLt = ⟨VO.read (Elt F) VO.junk, VO.read (Elt F) VO.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)⟩ := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = ⟨VO.read (Elt F) VO.junk, VO.read (Elt F) VO.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4⟩ := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = ⟨out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4⟩ := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulators at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)
      ∗ owns (c : Thread nD τ) scM0_3 fullShare ((outsAt0 m c n hn).s3) ∗ owns (c : Thread nD τ) scM0_4 fullShare ((outsAt0 m c n hn).s4)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)
      ∗ owns (c : Thread nD τ) scM0_3 fullShare ((outsAt0 m c n hn).s3) ∗ owns (c : Thread nD τ) scM0_4 fullShare ((outsAt0 m c n hn).s4)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2)
      ∗ owns (c : Thread nD τ) scM0_3 fullShare ((outsAt0 m c (n - 1) (by omega)).s3) ∗ owns (c : Thread nD τ) scM0_4 fullShare ((outsAt0 m c (n - 1) (by omega)).s4)) ∗ (∃ r, prngReg c r)) := by
  cases n with
  | zero => exact absurd rfl hz
  | succ n => rfl

/-! ## The proof datum -/

/-- On core `c`: the arrays as the region finds them; after the body at point `t` each input's buffer at its block, the result
    windows' at `outsAt0`; the invariant `PhiS`; the embeddings array held as its two half shares by the two windows that read it;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem q_eq (c : Dev nD) : (dats m 0 c).q 0 = fullShare.left ∧ (dats m 0 c).q 1 = fullShare.right ∧ (dats m 0 c).q 2 = fullShare ∧ (dats m 0 c).q 3 = fullShare :=
  ⟨rfl, rfl, rfl, rfl⟩

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Cases

end
-- ==== Proof.SoundBody.lean ====
/- The body obligation at every grid point: the case the point is in decides which run applies; the invariant hands the run the five
   accumulators at what the point before left (at anything before the first point, and at a first column tile the run resets them anyway)
   and takes them back at this point's contents; the input buffers hold their blocks; the result buffers are handed back untouched
   except at a last column tile, where they end at the row tile's results. -/
import proofs.«162495_j16088947491301_1_alg».proof.Proof.Carried

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · have h1 : ¬t.val % 16 = 15 := by omega
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A_0 sout0_A_1 sout0_A_2 sout0_A_3 sout0_A_4; (try dsimp only)
    by_cases hz : t.val = 0
    ·
      rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e0, HS0⟩, ⟨%e1, HS1⟩, ⟨%e2, HS2⟩, ⟨%e3, HS3⟩, ⟨%e4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    ·
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, ⟨%e0, HS0⟩, ⟨%e1, HS1⟩, ⟨%e2, HS2⟩, ⟨%e3, HS3⟩, ⟨%e4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1 sout0_C_2 sout0_C_3 sout0_C_4; (try dsimp only)
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, ⟨%e5, H5⟩, ⟨%e0, HS0⟩, ⟨%e1, HS1⟩, ⟨%e2, HS2⟩, ⟨%e3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_C_4 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1 sout0_B_2 sout0_B_3 sout0_B_4; (try dsimp only)
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e0, HS0⟩, ⟨%e1, HS1⟩, ⟨%e2, HS2⟩, ⟨%e3, HS3⟩, ⟨%e4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_B_4 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Cases

end
-- ==== Proof.WEntry.lean ====
/- The contents of a core's buffers when the kernel region is entered, and each window's block read off them.
   Before the region @main reshapes the labels to a column and to a row; the embeddings array is untouched. -/
import proofs.«162495_j16088947491301_1_alg».proof.Proof.Gen.Kernel.Launch
import proofs.«162495_j16088947491301_1_alg».proof.Proof.Gen.Kernel.Skeleton
import proofs.«162495_j16088947491301_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffer contents when the region is entered: the launch contents after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Entry

end
-- ==== Proof.WSharedLaunch.lean ====
/- The run of @main for a pallas_call that stages one array through two windows.

   The embeddings array is read through window 0 (a row tile) and window 1 (a column tile), so the windows' arrays are not
   distinct buffers. The launch deals the array's full share to the two windows as its two halves; every other array is
   held whole. After the region twelve host lines reduce the two results to the loss; they touch only the two results and
   buffers that bypass the region, so they run within that set, the four input arrays framed out. The final state then
   has every array at the contents the pipeline library computes from the proof data, the labels as launched, and the
   last line's buffer at the composed term of the two results. -/
import proofs.«162495_j16088947491301_1_alg».proof.Proof.Gen.Kernel.Launch
import proofs.«162495_j16088947491301_1_alg».proof.Proof.WEntry
import Idealize.ShloMosaic.Lib.Pipeline.FrameSuffix
import Idealize.ShloMosaic.Lib.StableHlo.Run
import Idealize.ShloMosaic.Lib.Tactic

noncomputable section

namespace Cert.Kernel.SharedLaunch

open Cert.Kernel Cert.Kernel.Gen
open Cert.Kernel.Entry (V0 V)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The pipeline's six arrays one by one, at the shares the proof datum holds them: the first argument's two halves
    for windows 0 and 1, every other array whole. -/
theorem arrays0_eq {c : Dev nD} (dat : Pipeline.Dat τ (Elt F) Unit ℕ (UR sig nD τ) ℕ cfg0 c)
    (hq : dat.q 0 = fullShare.left ∧ dat.q 1 = fullShare.right ∧ dat.q 2 = fullShare ∧ dat.q 3 = fullShare)
    (A : (w : Fin cfg0.W) → Buf (Elt F) ((cfg0.win w).arr.view.loc (c : Thread nD τ))) :
    (dat.arrays A : sProp 𝕄) = iprop((((c : Thread nD τ).loc main_arg0) ↦{fullShare.left} A 0) ∗ (((c : Thread nD τ).loc main_arg0) ↦{fullShare.right} A 1)
      ∗ (((c : Thread nD τ).loc main_v0) ↦{fullShare} A 2) ∗ (((c : Thread nD τ).loc main_v1) ↦{fullShare} A 3)
      ∗ (((c : Thread nD τ).loc main_v2_0) ↦{fullShare} A 4) ∗ (((c : Thread nD τ).loc main_v2_1) ↦{fullShare} A 5)) := by
  obtain ⟨h0, h1, h2, h3⟩ := hq
  have s0 : dat.share 0 = fullShare.left := (if_neg (by decide)).trans h0
  have s1 : dat.share 1 = fullShare.right := (if_neg (by decide)).trans h1
  have s2 : dat.share 2 = fullShare := (if_neg (by decide)).trans h2
  have s3 : dat.share 3 = fullShare := (if_neg (by decide)).trans h3
  have s4 : dat.share 4 = fullShare := if_pos (by decide)
  have s5 : dat.share 5 = fullShare := if_pos (by decide)
  have hpt : ∀ (w : Fin 6) (q : PosShare TreeShare),
      ((cfg0.win w).arr.view.loc (c : Thread nD τ) ↦[(cfg0.win w).arr.view.set]{q} A w : sProp 𝕄)
        = (((c : Thread nD τ).loc (Pipeline.arrRef spec0 w)) ↦{q} A w) := fun w q => by
    rw [(arr_whole0 w).set_eq_univ]
  unfold Pipeline.Dat.arrays
  rw [bigSep_W0, s0, s1, s2, s3, s4, s5, hpt 0, hpt 1, hpt 2, hpt 3, hpt 4, hpt 5]

/-- The distinct buffers behind the six windows' arrays, listed. -/
theorem arrImage_eq : Finset.univ.image (Pipeline.arrRef spec0) = [main_arg0, main_v0, main_v1, main_v2_0, main_v2_1].toFinset := by decide

/-- The buffers behind the windows' arrays, each whole at contents `V`, one by one. -/
theorem arrBufs0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.arrBufs (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2_0) ↦{fullShare} V main_v2_0) ∗ (((c : Thread nD τ).loc main_v2_1) ↦{fullShare} V main_v2_1)) := by
  unfold Pipeline.arrBufs
  exact bigSep_eq_bigSepL_of_eq [main_arg0, main_v0, main_v1, main_v2_0, main_v2_1] arrImage_eq (by decide) _

/-- The five buffers behind the windows' arrays, each whole at the full share, are the pipeline's six arrays: the
    first argument's full share is dealt to windows 0 and 1 as its two halves. -/
theorem hsplit (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q 0 = fullShare.left ∧ (dats 0 c).q 1 = fullShare.right ∧ (dats 0 c).q 2 = fullShare ∧ (dats 0 c).q 3 = fullShare)
    (c : Dev nD) :
    (Pipeline.arrBufs spec0 c (V m c) : sProp 𝕄) ⊢ (dats 0 c).arrays ((dats 0 c).arrAt · 0) := by
  rw [arrBufs0_eq, arrays0_eq (dats 0 c) (hq c),
    show (dats 0 c).arrAt 0 0 = _ from hA c 0, show (dats 0 c).arrAt 1 0 = _ from hA c 1, show (dats 0 c).arrAt 2 0 = _ from hA c 2,
    show (dats 0 c).arrAt 3 0 = _ from hA c 3, show (dats 0 c).arrAt 4 0 = _ from hA c 4, show (dats 0 c).arrAt 5 0 = _ from hA c 5]
  iintro ⟨H0, Hv0, Hv1, H20, H21⟩
  ihave H0' := (pointsTo_share (PosShare.mem_left_op_right fullShare)).1 $$ H0
  icases H0' with ⟨Ha, Hb⟩
  isplitl [Ha]; · iexact Ha
  isplitl [Hb]; · iexact Hb
  isplitl [Hv0]; · iexact Hv0
  isplitl [Hv1]; · iexact Hv1
  isplitl [H20]; · iexact H20
  iexact H21

theorem hostOps0_fresh : (hostOps0 : List (HloOp τ sig (Elt F))).Forall fun op => op.fresh = ∅ := by
  simp only [List.Forall]; repeat' constructor

/-- @main around the region: the two reshapes, the region, then the twelve host lines (`Pipeline.hmain_around` off
    `main_chain`): it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-! ## The lines after the region -/

/-- The buffers the lines after the region touch: the pipeline's two results and every buffer that bypasses the region. -/
abbrev tailSet : Finset (Ref sig .tc) :=
  insert main_v2_0 (insert main_v2_1 ((Finset.univ.filter fun b : Ref sig .tc => ¬ b.isScoped) \ Finset.univ.image (Pipeline.arrRef spec0)))
/-- The same as device buffers. -/
def tailDev : Finset (DevRef τ sig) := tailSet.map ⟨Proc.devRef (sig := sig) .tc, Proc.devRef_injective _⟩

theorem mem_tailDev {b : Ref sig .tc} (h : b ∈ tailSet) : Proc.devRef (τ := τ) .tc b ∈ tailDev := Finset.mem_map_of_mem _ h

theorem sub1 {y : Ref sig .tc} (hy : y ∈ tailSet) : ({Proc.devRef .tc y} : Finset (DevRef τ sig)) ⊆ tailDev :=
  Finset.singleton_subset_iff.mpr (mem_tailDev hy)
theorem sub2 {x y : Ref sig .tc} (hx : x ∈ tailSet) (hy : y ∈ tailSet) : ({Proc.devRef .tc x, Proc.devRef .tc y} : Finset (DevRef τ sig)) ⊆ tailDev :=
  Finset.insert_subset_iff.mpr ⟨mem_tailDev hx, sub1 hy⟩
theorem sub3 {a b y : Ref sig .tc} (ha : a ∈ tailSet) (hb : b ∈ tailSet) (hy : y ∈ tailSet) :
    ({Proc.devRef .tc a, Proc.devRef .tc b, Proc.devRef .tc y} : Finset (DevRef τ sig)) ⊆ tailDev :=
  Finset.insert_subset_iff.mpr ⟨mem_tailDev ha, sub2 hb hy⟩
theorem sub4 {c a b y : Ref sig .tc} (hc : c ∈ tailSet) (ha : a ∈ tailSet) (hb : b ∈ tailSet) (hy : y ∈ tailSet) :
    ({Proc.devRef .tc c, Proc.devRef .tc a, Proc.devRef .tc b, Proc.devRef .tc y} : Finset (DevRef τ sig)) ⊆ tailDev :=
  Finset.insert_subset_iff.mpr ⟨mem_tailDev hc, sub3 ha hb hy⟩

/-- The set held at a valuation: the two results, then the bypassing buffers. -/
theorem held_tail (c : Dev nD) (W : Valuation τ sig (Elt F)) :
    (StableHlo.held (c : Thread nD τ) tailDev W : sProp 𝕄)
      = iprop((((c : Thread nD τ).loc main_v2_0) ↦{fullShare} W (Proc.devRef .tc main_v2_0)) ∗ (((c : Thread nD τ).loc main_v2_1) ↦{fullShare} W (Proc.devRef .tc main_v2_1))
          ∗ Pipeline.unscopedRest spec0 c (fun b => W (Proc.devRef .tc b))) := by
  unfold StableHlo.held tailDev Pipeline.unscopedRest
  rw [bigSep_map, bigSep_insert (by decide), bigSep_insert (by decide)]
  rfl

/-- Each line touches only buffers of that set. -/
theorem tail_sub : ∀ ops ∈ ([hostOps1, hostOps1_1] : List (List (HloOp τ sig (Elt F)))), ∀ op ∈ ops, op.bufs ⊆ tailDev := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl
    all_goals first | exact sub1 (by decide) | exact sub3 (by decide) (by decide) (by decide)
  · simp only [hostOps1_1, List.mem_cons, List.mem_nil_iff, or_false] at hop
    rcases hop with rfl | rfl
    all_goals first | exact sub2 (by decide) (by decide) | exact sub4 (by decide) (by decide) (by decide) (by decide)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- They allocate nothing. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The host tail's composed pure term over the pipeline's two results. -/
def tailResult (pa valid : (⟨S8192x1, .f32⟩ : BufTy).Contents (Elt F)) : (⟨S_, .f32⟩ : BufTy).Contents (Elt F) :=
  select (cmpf .ogt (Host.reduceAdd valid (constant S_ .f32 0x00000000#32) reducesTo_S8192x1_S_d0_1 h_S_) (constant S_ .f32 0x00000000#32))
    (Host.divf (Host.reduceAdd pa (constant S_ .f32 0x00000000#32) reducesTo_S8192x1_S_d0_1 h_S_)
      (maximumf (Host.reduceAdd valid (constant S_ .f32 0x00000000#32) reducesTo_S8192x1_S_d0_1 h_S_) (constant S_ .f32 0x3F800000#32)))
    (id (constant S_ .f32 0x00000000#32))

open Classical in
/-- The core's buffer contents at the region's exit: the two results at `pa`, `valid`, every other buffer as the region
    found it. -/
def exitVal (c : Dev nD) (pa valid : (⟨S8192x1, .f32⟩ : BufTy).Contents (Elt F)) : Valuation τ sig (Elt F) :=
  Function.update (Function.update (V0 m c) (Proc.devRef .tc main_v2_0) pa) (Proc.devRef .tc main_v2_1) valid

theorem exitVal_v2_1 (c : Dev nD) (pa valid) : exitVal m c pa valid (Proc.devRef .tc main_v2_1) = valid := by
  unfold exitVal; exact Function.update_self ..
theorem exitVal_v2_0 (c : Dev nD) (pa valid) : exitVal m c pa valid (Proc.devRef .tc main_v2_0) = pa := by
  unfold exitVal
  rw [Function.update_of_ne (StableHlo.devRef_ne_of_ne (by decide))]; exact Function.update_self ..
theorem exitVal_of_ne (c : Dev nD) (pa valid) (b : Ref sig .tc) (h0 : b ≠ main_v2_0) (h1 : b ≠ main_v2_1) :
    exitVal m c pa valid (Proc.devRef .tc b) = V0 m c (Proc.devRef .tc b) := by
  unfold exitVal
  rw [Function.update_of_ne (StableHlo.devRef_ne_of_ne h1), Function.update_of_ne (StableHlo.devRef_ne_of_ne h0)]

/-- No line after the region writes the first result, -/
theorem after_tail_v2_0 (W : Valuation τ sig (Elt F)) :
    StableHlo.after (List.flatten [hostOps1, hostOps1_1]) W (Proc.devRef .tc main_v2_0) = W (Proc.devRef .tc main_v2_0) := by
  simp only [List.flatten_cons, List.flatten_nil, List.append_nil, hostOps1, hostOps1_1, List.cons_append, List.nil_append]
  after_results
/-- nor the second, -/
theorem after_tail_v2_1 (W : Valuation τ sig (Elt F)) :
    StableHlo.after (List.flatten [hostOps1, hostOps1_1]) W (Proc.devRef .tc main_v2_1) = W (Proc.devRef .tc main_v2_1) := by
  simp only [List.flatten_cons, List.flatten_nil, List.append_nil, hostOps1, hostOps1_1, List.cons_append, List.nil_append]
  after_results
/-- nor the labels. -/
theorem after_tail_arg1 (W : Valuation τ sig (Elt F)) :
    StableHlo.after (List.flatten [hostOps1, hostOps1_1]) W (Proc.devRef .tc main_arg1) = W (Proc.devRef .tc main_arg1) := by
  simp only [List.flatten_cons, List.flatten_nil, List.append_nil, hostOps1, hostOps1_1, List.cons_append, List.nil_append]
  after_results
/-- The last line's buffer holds the composed term of the two results. -/
theorem after_tail_v8 (W : Valuation τ sig (Elt F)) :
    StableHlo.after (List.flatten [hostOps1, hostOps1_1]) W (Proc.devRef .tc main_v8)
      = tailResult (W (Proc.devRef .tc main_v2_0)) (W (Proc.devRef .tc main_v2_1)) := by
  simp only [List.flatten_cons, List.flatten_nil, List.append_nil, hostOps1, hostOps1_1, List.cons_append, List.nil_append]
  after_results
  rfl
/-- The reshapes before the region do not write the labels. -/
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil, hostOps0]
  after_results

/-- The bypassing buffers at the exit contents are at the contents the region found. -/
theorem unscopedRest_exit (c : Dev nD) (pa valid : (⟨S8192x1, .f32⟩ : BufTy).Contents (Elt F)) :
    (Pipeline.unscopedRest spec0 c (fun b => exitVal m c pa valid (Proc.devRef .tc b)) : sProp 𝕄) = Pipeline.unscopedRest spec0 c (V m c) := by
  unfold Pipeline.unscopedRest
  exact bigSep_congr fun b hb => by
    dsimp only
    rw [exitVal_of_ne m c pa valid b (fun e => (Finset.mem_sdiff.mp hb).2 (by rw [e]; decide)) (fun e => (Finset.mem_sdiff.mp hb).2 (by rw [e]; decide))]

set_option backward.isDefEq.respectTransparency.types false in
/-- The twelve lines after the region, run within the set of buffers they touch. -/
theorem tail_core (𝒱₀ : Variants) (c : Dev nD) (W : Valuation τ sig (Elt F)) (Q' : PUnit → sProp 𝕄) :
    iprop(((StableHlo.held (c : Thread nD τ) tailDev (StableHlo.after (List.flatten [hostOps1, hostOps1_1]) W) : sProp 𝕄) -∗ Q' ⟨⟩)
        ∗ boundary (c : Thread nD τ) ∗ (StableHlo.held (c : Thread nD τ) tailDev W : sProp 𝕄))
      ⊢ wp frame (wpE (Pipeline.defs (pcfgs (F := F)) defs₀) (Variants.lift 𝒱₀) (c : Thread nD τ) none) Set.univ
          (Pipeline.chain [StableHlo.seq hostOps1, StableHlo.seq hostOps1_1]) Q' := by
  have h := Pipeline.wp_seqs_then (Ix := Unit) (Name := ℕ) (U := UR sig nD τ) (Lvl := ℕ) (pcfgs (F := F)) defs₀ 𝒱₀ c tailDev [] (K := Q')
    [hostOps1, hostOps1_1] tail_sub tail_fresh W
  simp only [List.map_cons, List.map_nil, List.append_nil] at h
  iintro ⟨Hk, Hb⟩
  iapply h $$ Hb
  iintro Hb
  rw [Pipeline.chain_nil, wp_pure]
  imodintro
  iapply Hk
  icases Hb with ⟨-, H⟩
  iexact H

/-- THE LINES AFTER THE REGION: from the region's exit — the boundary, the six arrays at their final contents, the
    bypassing buffers as the region found them — the twelve lines run within the two results and the bypassing
    buffers, and hand the arrays back with the bypassing buffers at the lines' `StableHlo.after`. -/
theorem htail (𝒱₀ : Variants) (dats : (p : Fin 1) → (c : Dev nD) → Pipeline.Dat τ (Elt F) Unit ℕ (UR sig nD τ) ℕ (cfgs p) c)
    (hq : ∀ c, (dats 0 c).q 0 = fullShare.left ∧ (dats 0 c).q 1 = fullShare.right ∧ (dats 0 c).q 2 = fullShare ∧ (dats 0 c).q 3 = fullShare)
    (c : Dev nD) (Q' : PUnit → sProp 𝕄) :
    iprop((iprop((dats 0 c).arrays ((dats 0 c).arrAt · cfg0.N)
              ∗ Pipeline.unscopedRest spec0 c (fun b => StableHlo.after (List.flatten [hostOps1, hostOps1_1])
                  (exitVal m c ((dats 0 c).arrAt 4 cfg0.N) ((dats 0 c).arrAt 5 cfg0.N)) (Proc.devRef .tc b))) -∗ Q' ⟨⟩)
        ∗ boundary (c : Thread nD τ) ∗ (dats 0 c).arrays ((dats 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain [StableHlo.seq hostOps1, StableHlo.seq hostOps1_1]) Q' := by
  have hW := held_tail c (exitVal m c ((dats 0 c).arrAt 4 cfg0.N) ((dats 0 c).arrAt 5 cfg0.N))
  rw [exitVal_v2_0, exitVal_v2_1, unscopedRest_exit] at hW
  have hW' := held_tail c (StableHlo.after (List.flatten [hostOps1, hostOps1_1]) (exitVal m c ((dats 0 c).arrAt 4 cfg0.N) ((dats 0 c).arrAt 5 cfg0.N)))
  rw [after_tail_v2_0, after_tail_v2_1, exitVal_v2_0, exitVal_v2_1] at hW'
  refine BIBase.Entails.trans ?_ (tail_core 𝒱₀ c (exitVal m c ((dats 0 c).arrAt 4 cfg0.N) ((dats 0 c).arrAt 5 cfg0.N)) Q')
  rw [hW, hW', arrays0_eq (dats 0 c) (hq c)]
  iintro ⟨Hk, Hb, ⟨Ha0, Ha1, Hv0, Hv1, H20, H21⟩, HR⟩
  isplitl [Hk Ha0 Ha1 Hv0 Hv1]
  · iintro ⟨H20, H21, HR'⟩
    iapply Hk
    isplitr [HR']
    · isplitl [Ha0]; · iexact Ha0
      isplitl [Ha1]; · iexact Ha1
      isplitl [Hv0]; · iexact Hv0
      isplitl [Hv1]; · iexact Hv1
      isplitl [H20]; · iexact H20
      iexact H21
    · iexact HR'
  · isplitl [Hb]; · iexact Hb
    isplitl [H20]; · iexact H20
    isplitl [H21]; · iexact H21
    iexact HR

/-! ## The run -/

set_option backward.isDefEq.respectTransparency.types false in
/-- THE RUN of @main for a pallas_call whose windows 0 and 1 stage one array: at the compiled mesh, from any memory with
    zero counters, every weakly fair execution of @main on the TensorCores terminates, and every final state has every
    array of the pipeline at what the library computes from the proof data, the labels as launched, and the last
    line's buffer at the host tail's term of the two results. -/
theorem run_shared (ρ : Dev nD → PrngReg)
    (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q 0 = fullShare.left ∧ (dats 0 c).q 1 = fullShare.right ∧ (dats 0 c).q 2 = fullShare ∧ (dats 0 c).q 3 = fullShare)
    (howed : ∀ c t, (dats 0 c).owed t = 0)
    (hbody : ∀ c, Pipeline.BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∀ w : Fin cfg0.W, r.2.mem ((cfg0.win w).arr.view.loc (c : Thread nD τ)) = (dats 0 c).arrAt w cfg0.N)
      ∧ r.2.mem ((c : Thread nD τ).loc main_arg1) = m ((c : Thread nD τ).loc main_arg1)
      ∧ r.2.mem ((c : Thread nD τ).loc main_v8) = tailResult ((dats 0 c).arrAt 4 cfg0.N) ((dats 0 c).arrAt 5 cfg0.N)) := by
  classical
  exact Pipeline.θ_run_region_pf_tail (fun q => (cfgs q).toPCfg (Val := Elt F)) (fun q => (cfgs q).toPCfg_adm) dats () cellOf_inj (0 : Fin 1) winFacts₀0
    (Pipeline.OwnSemFacts.none spec0) (Pipeline.PreFacts.none _) emb₁ defs₀ Variants.none m ρ main
    (fun _ => Pipeline.chain [StableHlo.seq hostOps1, StableHlo.seq hostOps1_1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => StableHlo.after (List.flatten [hostOps1, hostOps1_1])
        (exitVal m c ((dats 0 c).arrAt 4 cfg0.N) ((dats 0 c).arrAt 5 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m Variants.none dats hq)
    (QY := fun c s => s.mem ((c : Thread nD τ).loc main_arg1) = m ((c : Thread nD τ).loc main_arg1)
      ∧ s.mem ((c : Thread nD τ).loc main_v8) = tailResult ((dats 0 c).arrAt 4 cfg0.N) ((dats 0 c).arrAt 5 cfg0.N))
    (hY := fun c s' => by
      rw [unscopedRest0_eq]
      iintro ⟨-, ⟨H1, -, -, -, -, -, -, -, -, -, -, -, H8⟩, HSI⟩
      icombine HSI H1 gives %h1
      icombine HSI H8 gives %h8
      imodintro
      isplitr
      · ipureintro
        refine ⟨(Buf.eq_of_forall_mem_univ h1).trans ?_, (Buf.eq_of_forall_mem_univ h8).trans ?_⟩
        · rw [after_tail_arg1, exitVal_of_ne m c _ _ main_arg1 (by decide) (by decide)]; exact V_arg1 m c
        · rw [after_tail_v8, exitVal_v2_0, exitVal_v2_1]
      iexact HSI)
    (hQ := fun s h c => ⟨(h c).1, (h c).2.2⟩)

end Cert.Kernel.SharedLaunch

end
-- ==== Proof.WCases.lean ====
/- The three control cases of the kernel body over the grid of 16 row tiles by 16 column tiles: at the first column tile the five per-row
   accumulators are reset before the tile is folded in; at the last column tile they are folded and the row tile's two result blocks are
   written; in between the tile is folded in and nothing else. Here: the two conditions in closed form over the 256 grid points, where
   the result windows are idle and where they are written back, the names of each window's staging buffer at a point, and each input
   window's buffer holding its block at every point. -/
import proofs.«162495_j16088947491301_1_alg».proof.Proof.WEntry

set_option maxRecDepth 16384

noncomputable section

namespace Cert.Kernel.Cases

open Cert.Kernel.Entry
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two conditions -/

/-- The column-tile coordinate is 0, as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The column-tile coordinate is 15, as the body computes it. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last column tile the result windows are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last column tile they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging buffers at a point, and the scratch -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
/-- One view through which each 512×1 buffer's contents are stated. -/
abbrev VO : View sig .tc .vmem S512x1 .f32 := (Memref.whole cc0_stg4_0 : Memref sig .tc .vmem S512x1 .f32).view

/-- The region's invariant with the five scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## Each input window's buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Cases

end
-- ==== Proof.WRunFirst.lean ====
/- The kernel body at the first column tile of a row tile. -/
import proofs.«162495_j16088947491301_1_alg».proof.Proof.WCases

set_option maxRecDepth 16384

noncomputable section

namespace Cert.Kernel.Cases

open Cert.Kernel.Entry
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT THE FIRST COLUMN TILE (the accumulators are reset, then the tile folded in; the result windows untouched): on whole staging memrefs — the four inputs at their contents, the two result buffers at contents handed back untouched, the five scratch buffers at anything — the body runs to the continuation holding the inputs and the result buffers as they were and each scratch buffer with its pieces written (the lists the run finds). -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x256 .f32) (x1 : Vec F S512x256 .f32) (x2 : Vec F S512x1 .i32) (x3 : Vec F S1x512 .i32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.Kernel.Cases

end
-- ==== Proof.WRunMiddle.lean ====
/- The kernel body at a column tile that is neither the first nor the last of its row tile. -/
import proofs.«162495_j16088947491301_1_alg».proof.Proof.WRunFirst

set_option maxRecDepth 16384

noncomputable section

namespace Cert.Kernel.Cases

open Cert.Kernel.Entry
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT A MIDDLE COLUMN TILE (the tile folded into the accumulators; the result windows untouched): the scratch buffers at the contents the point before left; otherwise as at the first column tile. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x256 .f32) (x1 : Vec F S512x256 .f32) (x2 : Vec F S512x1 .i32) (x3 : Vec F S1x512 .i32)
    (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.Kernel.Cases

end
-- ==== Proof.WRunLast.lean ====
/- The kernel body at the last column tile of a row tile. -/
import proofs.«162495_j16088947491301_1_alg».proof.Proof.WRunMiddle

set_option maxRecDepth 16384

noncomputable section

namespace Cert.Kernel.Cases

open Cert.Kernel.Entry
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT THE LAST COLUMN TILE (the tile folded in, then the row tile's two result blocks computed from the accumulators and stored): the result buffers at anything, ending with their pieces written; the scratch buffers at the contents the point before left. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x256 .f32) (x1 : Vec F S512x256 .f32) (x2 : Vec F S512x1 .i32) (x3 : Vec F S1x512 .i32)
    (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _; iexact HS4

end Cert.Kernel.Cases

end
-- ==== Proof.WCarried.lean ====
/- What the body leaves point by point. Within a row tile the five per-row accumulators (hardest positive, hardest negative, count of equal
   labels, any different label, any equal label at a positive distance) are carried in scratch from one column tile to the next: reset and
   folded at the first, folded in between, folded and read out into the two result blocks at the last. `outsAt0` follows them along the
   256 grid points; the region's invariant holds the scratch at what the point before left; the proof datum names what every window's
   staging buffer holds after the body, and the body's three runs discharge the obligation at every point. The embeddings array is read
   through two windows, which hold its two half shares. -/
import proofs.«162495_j16088947491301_1_alg».proof.Proof.WRunLast

set_option maxRecDepth 16384

noncomputable section

namespace Cert.Kernel.Cases

open Cert.Kernel.Entry
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-- The pieces case A stores into accumulator 0 tile the buffer, so they cover it. -/
theorem scover0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.1 S512x1.size (by sl_kernel_rfl) y
/-- What case A leaves in accumulator 0: its pieces read back. -/
def sout0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.1)
/-- The pieces case A stores into accumulator 1 tile the buffer, so they cover it. -/
theorem scover0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1 S512x1.size (by sl_kernel_rfl) y
/-- What case A leaves in accumulator 1: its pieces read back. -/
def sout0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1)
/-- The pieces case A stores into accumulator 2 tile the buffer, so they cover it. -/
theorem scover0_A_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1 S512x1.size (by sl_kernel_rfl) y
/-- What case A leaves in accumulator 2: its pieces read back. -/
def sout0_A_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1)
/-- The pieces case A stores into accumulator 3 tile the buffer, so they cover it. -/
theorem scover0_A_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1 S512x1.size (by sl_kernel_rfl) y
/-- What case A leaves in accumulator 3: its pieces read back. -/
def sout0_A_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1)
/-- The pieces case A stores into accumulator 4 tile the buffer, so they cover it. -/
theorem scover0_A_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.2.1 S512x1.size (by sl_kernel_rfl) y
/-- What case A leaves in accumulator 4: its pieces read back. -/
def sout0_A_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x256 .f32) (x1 : Vec F S512x256 .f32) (x2 : Vec F S512x1 .i32) (x3 : Vec F S1x512 .i32) : Vec F S512x1 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.2.1)
/-- The pieces case B stores into accumulator 0 tile the buffer, so they cover it. -/
theorem scover0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1 S512x1.size (by sl_kernel_rfl) y
/-- What case B leaves in accumulator 0: its pieces read back. -/
def sout0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1)
/-- The pieces case B stores into accumulator 1 tile the buffer, so they cover it. -/
theorem scover0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1 S512x1.size (by sl_kernel_rfl) y
/-- What case B leaves in accumulator 1: its pieces read back. -/
def sout0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1)
/-- The pieces case B stores into accumulator 2 tile the buffer, so they cover it. -/
theorem scover0_B_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1 S512x1.size (by sl_kernel_rfl) y
/-- What case B leaves in accumulator 2: its pieces read back. -/
def sout0_B_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1)
/-- The pieces case B stores into accumulator 3 tile the buffer, so they cover it. -/
theorem scover0_B_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1 S512x1.size (by sl_kernel_rfl) y
/-- What case B leaves in accumulator 3: its pieces read back. -/
def sout0_B_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1)
/-- The pieces case B stores into accumulator 4 tile the buffer, so they cover it. -/
theorem scover0_B_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1 S512x1.size (by sl_kernel_rfl) y
/-- What case B leaves in accumulator 4: its pieces read back. -/
def sout0_B_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1)
/-- The pieces case C stores into accumulator 0 tile the buffer, so they cover it. -/
theorem scover0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1 S512x1.size (by sl_kernel_rfl) y
/-- What case C leaves in accumulator 0: its pieces read back. -/
def sout0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.1)
/-- The pieces case C stores into accumulator 1 tile the buffer, so they cover it. -/
theorem scover0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1 S512x1.size (by sl_kernel_rfl) y
/-- What case C leaves in accumulator 1: its pieces read back. -/
def sout0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.1)
/-- The pieces case C stores into accumulator 2 tile the buffer, so they cover it. -/
theorem scover0_C_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1 S512x1.size (by sl_kernel_rfl) y
/-- What case C leaves in accumulator 2: its pieces read back. -/
def sout0_C_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.1)
/-- The pieces case C stores into accumulator 3 tile the buffer, so they cover it. -/
theorem scover0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1 S512x1.size (by sl_kernel_rfl) y
/-- What case C leaves in accumulator 3: its pieces read back. -/
def sout0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.1)
/-- The pieces case C stores into accumulator 4 tile the buffer, so they cover it. -/
theorem scover0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1 S512x1.size (by sl_kernel_rfl) y
/-- What case C leaves in accumulator 4: its pieces read back. -/
def sout0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.2.2.2.2.2.1)
/-- The pieces case C stores into result window 4's block tile it, so they cover it. -/
theorem cover0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).1 S512x1.size (by sl_kernel_rfl) y
/-- What case C leaves in result window 4's staging buffer. -/
def out0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).1)
/-- The pieces case C stores into result window 5's block tile it, so they cover it. -/
theorem cover0_C_5 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.1 S512x1.size (by sl_kernel_rfl) y
/-- What case C leaves in result window 5's staging buffer. -/
def out0_C_5 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x256 .f32) (x1 : Vec F S512x256 .f32) (x2 : Vec F S512x1 .i32) (x3 : Vec F S1x512 .i32) (xs0 xs1 xs2 xs3 xs4 : Vec F S512x1 .f32) : Vec F S512x1 .f32 :=
  VO.read (Elt F) (VO.writes (Elt F) VO.junk (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4).2.1)

/-! ## The accumulation along the grid -/

/-- What the two result windows' staging buffers (`o4`, `o5`) and the five accumulators (`s0` … `s4`) hold after the body at a point. -/
structure Acc (F : FTy → Type) where
  o4 : Vec F S512x1 .f32
  o5 : Vec F S512x1 .f32
  s0 : Vec F S512x1 .f32
  s1 : Vec F S512x1 .f32
  s2 : Vec F S512x1 .f32
  s3 : Vec F S512x1 .f32
  s4 : Vec F S512x1 .f32

/-- After the body at position `n`: the case the position is in, run at the point's buffers and input blocks, the accumulators it
    carries taken from position `n - 1`. -/
def outsAt0 (c : Dev nD) : (n : ℕ) → n < cfg0.N → Acc F
  | 0, hn => ⟨VO.read (Elt F) VO.junk, VO.read (Elt F) VO.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)⟩
  | n + 1, hn =>
    if h0 : (n + 1) % 16 = 0 then
      if h1 : (n + 1) % 16 = 15 then
        False.elim (by omega)
      else
        ⟨VO.read (Elt F) VO.junk, VO.read (Elt F) VO.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)⟩
    else
      if h1 : (n + 1) % 16 = 15 then
        ⟨out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4⟩
      else
        ⟨VO.read (Elt F) VO.junk, VO.read (Elt F) VO.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4⟩

theorem outsAt0_A (c : Dev nD) (t : Fin cfg0.N) (h0 : t.val % 16 = 0) (h1 : ¬t.val % 16 = 15) :
    outsAt0 m c t.val t.isLt = ⟨VO.read (Elt F) VO.junk, VO.read (Elt F) VO.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)⟩ := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = ⟨VO.read (Elt F) VO.junk, VO.read (Elt F) VO.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4⟩ := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = ⟨out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4⟩ := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulators at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)
      ∗ owns (c : Thread nD τ) scM0_3 fullShare ((outsAt0 m c n hn).s3) ∗ owns (c : Thread nD τ) scM0_4 fullShare ((outsAt0 m c n hn).s4)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)
      ∗ owns (c : Thread nD τ) scM0_3 fullShare ((outsAt0 m c n hn).s3) ∗ owns (c : Thread nD τ) scM0_4 fullShare ((outsAt0 m c n hn).s4)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2)
      ∗ owns (c : Thread nD τ) scM0_3 fullShare ((outsAt0 m c (n - 1) (by omega)).s3) ∗ owns (c : Thread nD τ) scM0_4 fullShare ((outsAt0 m c (n - 1) (by omega)).s4)) ∗ (∃ r, prngReg c r)) := by
  cases n with
  | zero => exact absurd rfl hz
  | succ n => rfl

/-! ## The proof datum -/

/-- On core `c`: the arrays as the region finds them; after the body at point `t` each input's buffer at its block, the result
    windows' at `outsAt0`; the invariant `PhiS`; the embeddings array held as its two half shares by the two windows that read it;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem q_eq (c : Dev nD) : (dats m 0 c).q 0 = fullShare.left ∧ (dats m 0 c).q 1 = fullShare.right ∧ (dats m 0 c).q 2 = fullShare ∧ (dats m 0 c).q 3 = fullShare :=
  ⟨rfl, rfl, rfl, rfl⟩

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Cases

end
-- ==== Proof.WSoundBody.lean ====
/- The body obligation at every grid point: the case the point is in decides which run applies; the invariant hands the run the five
   accumulators at what the point before left (at anything before the first point, and at a first column tile the run resets them anyway)
   and takes them back at this point's contents; the input buffers hold their blocks; the result buffers are handed back untouched
   except at a last column tile, where they end at the row tile's results. -/
import proofs.«162495_j16088947491301_1_alg».proof.Proof.WCarried

set_option maxRecDepth 16384

noncomputable section

namespace Cert.Kernel.Cases

open Cert.Kernel.Entry
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · have h1 : ¬t.val % 16 = 15 := by omega
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A_0 sout0_A_1 sout0_A_2 sout0_A_3 sout0_A_4; (try dsimp only)
    by_cases hz : t.val = 0
    ·
      rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e0, HS0⟩, ⟨%e1, HS1⟩, ⟨%e2, HS2⟩, ⟨%e3, HS3⟩, ⟨%e4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    ·
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, ⟨%e0, HS0⟩, ⟨%e1, HS1⟩, ⟨%e2, HS2⟩, ⟨%e3, HS3⟩, ⟨%e4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1 sout0_C_2 sout0_C_3 sout0_C_4; (try dsimp only)
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, ⟨%e5, H5⟩, ⟨%e0, HS0⟩, ⟨%e1, HS1⟩, ⟨%e2, HS2⟩, ⟨%e3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_C_4 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1 sout0_B_2 sout0_B_3 sout0_B_4; (try dsimp only)
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e0, HS0⟩, ⟨%e1, HS1⟩, ⟨%e2, HS2⟩, ⟨%e3, HS3⟩, ⟨%e4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_B_4 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Cases

end
-- ==== Proof.Frames.lean ====
/- The three frame claims: each program runs and ends with its argument arrays unchanged.

   For the kernel at both instances the run is the launch of the pipeline from the proof data of the body: the embeddings
   array is an input of window 0, so the pipeline leaves it as the region found it, which is as launched since the
   reshapes before the region write only their own results; the labels bypass the region and no line writes them. For the
   reference it is the run of a straight line of host operations. -/
import proofs.«162495_j16088947491301_1_alg».proof.Defs
import proofs.«162495_j16088947491301_1_alg».proof.Proof.SharedLaunch
import proofs.«162495_j16088947491301_1_alg».proof.Proof.SoundBody
import proofs.«162495_j16088947491301_1_alg».proof.Proof.WSharedLaunch
import proofs.«162495_j16088947491301_1_alg».proof.Proof.WSoundBody
import proofs.«162495_j16088947491301_1_alg».proof.Proof.RunP
import proofs.«162495_j16088947491301_1_alg».proof.Proof.Gen.Pre_finite_inputs

noncomputable section

namespace Cert.Proof.Frames

open Idealize.ShloMosaic Idealize.ShloMosaic.TcCoe Idealize.SL.Sem

/-- The reshapes before the region do not write the embeddings array (the idealized program). -/
theorem V_arg0_ideal {F : FTy → Type} [FloatOps F] (m : (ℓ : Loc Cert.KernelIdeal.nD Cert.KernelIdeal.τ Cert.KernelIdeal.sig) → Buf (Elt F) ℓ)
    (c : Dev Cert.KernelIdeal.nD) :
    Cert.KernelIdeal.Entry.V m c Cert.KernelIdeal.main_arg0
      = m ((c.tc : Thread Cert.KernelIdeal.nD Cert.KernelIdeal.τ).loc Cert.KernelIdeal.main_arg0) := by
  dsimp only [Cert.KernelIdeal.Entry.V, Cert.KernelIdeal.Entry.V0]
  simp only [Cert.KernelIdeal.Gen.hostOps0, List.flatten_cons, List.flatten_nil, List.append_nil]
  after_results

/-- The idealized kernel runs and leaves its arguments unchanged. -/
theorem frame_KernelIdeal :
    Cert.frame_KernelIdeal (hKernelIdeal := Cert.KernelIdeal.Gen.facts) (hPre_finite_inputs := Cert.Pre_finite_inputs.Gen.facts) := fun m ρ _ =>
  (θ_run _ _ _).mono (fun _ h c =>
      ⟨((h c).1 0).trans ((((Cert.KernelIdeal.Cases.dats (F := Ideal) m 0 c).arrAt_in 0 rfl _).trans
          ((Cert.KernelIdeal.Cases.A_eq m c 0).trans (V_arg0_ideal m c)))), (h c).2.1⟩)
    (Cert.KernelIdeal.SharedLaunch.run_shared (F := Ideal) m ρ (Cert.KernelIdeal.Cases.dats m) (Cert.KernelIdeal.Cases.A_eq m)
      (Cert.KernelIdeal.Cases.q_eq m) (fun _ _ => rfl) (Cert.KernelIdeal.Cases.body_obligation m) (Cert.KernelIdeal.Cases.hin m)
      (Cert.KernelIdeal.Cases.hout m))

/-- The reshapes before the region do not write the embeddings array (the program as printed). -/
theorem V_arg0_word {F : FTy → Type} [FloatOps F] (m : (ℓ : Loc Cert.Kernel.nD Cert.Kernel.τ Cert.Kernel.sig) → Buf (Elt F) ℓ)
    (c : Dev Cert.Kernel.nD) :
    Cert.Kernel.Entry.V m c Cert.Kernel.main_arg0
      = m ((c.tc : Thread Cert.Kernel.nD Cert.Kernel.τ).loc Cert.Kernel.main_arg0) := by
  dsimp only [Cert.Kernel.Entry.V, Cert.Kernel.Entry.V0]
  simp only [Cert.Kernel.Gen.hostOps0, List.flatten_cons, List.flatten_nil, List.append_nil]
  after_results

/-- The kernel as printed runs and leaves its arguments unchanged. -/
theorem frame_Kernel :
    Cert.frame_Kernel (hKernel := Cert.Kernel.Gen.facts) (hPre_finite_inputs := Cert.Pre_finite_inputs.Gen.facts) := fun m ρ _ =>
  (θ_run _ _ _).mono (fun _ h c =>
      ⟨((h c).1 0).trans ((((Cert.Kernel.Cases.dats (F := Bits) m 0 c).arrAt_in 0 rfl _).trans
          ((Cert.Kernel.Cases.A_eq m c 0).trans (V_arg0_word m c)))), (h c).2.1⟩)
    (Cert.Kernel.SharedLaunch.run_shared (F := Bits) m ρ (Cert.Kernel.Cases.dats m) (Cert.Kernel.Cases.A_eq m)
      (Cert.Kernel.Cases.q_eq m) (fun _ _ => rfl) (Cert.Kernel.Cases.body_obligation m) (Cert.Kernel.Cases.hin m)
      (Cert.Kernel.Cases.hout m))

/-- The idealized reference runs and leaves its arguments unchanged. -/
theorem frame_ReferenceIdeal :
    Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Proof.Frames

end
-- ==== Proof.RowSpec.lean ====
/-
  The batch-hard triplet loss of a labelled family of points, over whole rows, on the extended reals.

  For X : 8192 points with 256 coordinates each and L : their labels (32-bit words):
    sq r        = Σ_k X(r,k)²                    dot r c = Σ_k X(r,k)·X(c,k)
    d2 r c      = max (sq r + sq c − 2·dot r c) 0       (the squared distance, clamped at 0)
    dist r c    = √(d2 r c) where d2 r c > 0, else 0
    hp r        = the greatest dist r c over the c with the label of r and d2 r c > 0 (−∞ if none)
    hn r        = the least dist r c over the c with another label (+∞ if none)
    valid r     : more than one c carries r's label, some c carries another label, some c with r's label has d2 r c > 0
    perAnchor r = max (hp r − hn r + margin) 0 where valid r, else 0
    count       = the number of valid r, total = Σ_r perAnchor r
    loss        = total / max count 1 where count > 0, else 0.
  The constant 2 and the margin are the values of their f32 words and are never evaluated.
-/
import Idealize.ShloMosaic.PureOps.Ideal
import Idealize.ShloMosaic.PureOps.Ideal.Laws

noncomputable section

namespace Cert.RowSpec

open Idealize.ShloMosaic
open scoped BigOperators
open Classical

/-- The value of the f32 word of 2. -/
def two : EReal := Ideal.ofBits .f32 0x40000000#32

/-- The value of the f32 word nearest 0.3. -/
def margin : EReal := Ideal.ofBits .f32 0x3E99999A#32

/-- The clamped squared distance from the two squared norms a, b and the inner product s. -/
def d2s (a b s : EReal) : EReal := max ((a + b) - two * s) 0

/-- The distance from a clamped squared distance: its square root where it is positive, else 0. -/
def dists (e : EReal) : EReal := if 0 < e then Ideal.sqrt e else 0

/-- The hinge of one anchor from its greatest same-label distance p and least other-label distance n. -/
def hinge (p n : EReal) : EReal := max (p - n + margin) 0

variable (X : Fin 8192 → Fin 256 → EReal) (L : Fin 8192 → BitVec 32)

def sq (r : Fin 8192) : EReal := ∑ k : Fin 256, X r k * X r k

def dot (r c : Fin 8192) : EReal := ∑ k : Fin 256, X r k * X c k

def d2 (r c : Fin 8192) : EReal := d2s (sq X r) (sq X c) (dot X r c)

def dist (r c : Fin 8192) : EReal := dists (d2 X r c)

/-- c carries the label of r. -/
def same (r c : Fin 8192) : Prop := L r = L c

/-- The entry of the greatest-same-label-distance maximum at column c. -/
def hpTerm (r c : Fin 8192) : EReal := if same L r c ∧ 0 < d2 X r c then dist X r c else ⊥

/-- The entry of the least-other-label-distance minimum at column c. -/
def hnTerm (r c : Fin 8192) : EReal := if ¬ same L r c then dist X r c else ⊤

def hp (r : Fin 8192) : EReal := Finset.univ.sup fun c : Fin 8192 => hpTerm X L r c

def hn (r : Fin 8192) : EReal := Finset.univ.inf fun c : Fin 8192 => hnTerm X L r c

/-- How many c carry the label of r. -/
def cnt (r : Fin 8192) : ℕ := (Finset.univ.filter fun c : Fin 8192 => same L r c).card

def valid (r : Fin 8192) : Prop :=
  1 < cnt L r ∧ (∃ c, ¬ same L r c) ∧ ∃ c, same L r c ∧ 0 < d2 X r c

def perAnchor (r : Fin 8192) : EReal := if valid X L r then hinge (hp X L r) (hn X L r) else 0

def count : EReal := ∑ r : Fin 8192, if valid X L r then (1 : EReal) else 0

def total : EReal := ∑ r : Fin 8192, perAnchor X L r

def loss : EReal := if 0 < count X L then Ideal.div (total X L) (max (count X L) 1) else 0

/-- The maximum as the fold of max from −∞. -/
theorem hp_eq_fold (r : Fin 8192) :
    hp X L r = (Finset.univ : Finset (Fin 8192)).fold max ⊥ (fun c => hpTerm X L r c) := rfl

/-- The minimum as the fold of min from +∞. -/
theorem hn_eq_fold (r : Fin 8192) :
    hn X L r = (Finset.univ : Finset (Fin 8192)).fold min ⊤ (fun c => hnTerm X L r c) := rfl

end Cert.RowSpec

end
-- ==== Proof.RefRead.lean ====
/- The values the reference program computes, operation by operation: the pairwise entries (squared norms, inner products, clamped squared
   distances, distances, equal labels) of its result, at a row r and a column c. -/
import proofs.«162495_j16088947491301_1_alg».proof.Proof.RunP
import proofs.«162495_j16088947491301_1_alg».proof.Proof.ReadP
import proofs.«162495_j16088947491301_1_alg».proof.Proof.RowSpec

noncomputable section

namespace Cert.ReferenceIdeal.RefValue

open Cert.ReferenceIdeal Cert.ReferenceIdeal.Gen Cert.ReferenceIdeal.ReadP Idealize.ShloMosaic Idealize.ShloMosaic.ValueIdx
open scoped BigOperators

variable (x : FVec Ideal S8192x256 .f32) (l : IVec S8192 32)

/-- The points as a family of coordinate functions. -/
abbrev pts : Fin 8192 → Fin 256 → EReal := fun r k => x (ix2 r k)

/-- The labels as a function of the point. -/
abbrev lbl : Fin 8192 → BitVec 32 := fun r => l (ix1 r)

/-! ## Index equations -/

theorem idx_v1 (r : Fin 8192) (k : Fin 256) : idx_main_v1 (ix1 r) k = ix2 r k :=
  funext fun a => Fin.ext (by match a with | ⟨0, _⟩ => rfl | ⟨1, _⟩ => rfl)

theorem idx_v2 (r : Fin 8192) (u : Fin 1) : idx_main_v2 (ix2 r u) = ix1 r :=
  funext fun a => Fin.ext (by match a with | ⟨0, _⟩ => rfl)

theorem idx_v3 (u : Fin 1) (c : Fin 8192) : idx_main_v3 (ix2 u c) = ix1 c :=
  funext fun a => Fin.ext (by match a with | ⟨0, _⟩ => rfl)

theorem idx_v4 (r c : Fin 8192) : idx_main_v4 (ix2 r c) = ix2 r (0 : Fin 1) :=
  funext fun a => Fin.ext (by match a with | ⟨0, _⟩ => rfl | ⟨1, _⟩ => rfl)

theorem idx_v5 (r c : Fin 8192) : idx_main_v5 (ix2 r c) = ix2 (0 : Fin 1) c :=
  funext fun a => Fin.ext (by match a with | ⟨0, _⟩ => rfl | ⟨1, _⟩ => rfl)

theorem lidx_v8 (r c : Fin 8192) (k : Fin 256) : lidx_main_v8 (ix2 r c) k = ix2 r k :=
  funext fun a => Fin.ext (by match a with | ⟨0, _⟩ => rfl | ⟨1, _⟩ => rfl)

theorem ridx_v8 (r c : Fin 8192) (k : Fin 256) : ridx_main_v8 (ix2 r c) k = ix2 k c :=
  funext fun a => Fin.ext (by match a with | ⟨0, _⟩ => rfl | ⟨1, _⟩ => rfl)

theorem idx_v7 (k : Fin 256) (c : Fin 8192) : idx_main_v7 (ix2 k c) = ix2 c k :=
  funext fun a => Fin.ext (by match a with | ⟨0, _⟩ => rfl | ⟨1, _⟩ => rfl)

/-! ## The squared norm, the inner product -/

theorem sq_apply (r : Fin 8192) : val_main_v1 (F := Ideal) x (ix1 r) = RowSpec.sq (pts x) r := by
  rw [val_main_v1_apply, val_main_cst_apply, Ideal.ofBits_def, Ideal.ofBits_zero_f32, zero_add]
  unfold RowSpec.sq
  refine Finset.sum_congr rfl fun k _ => ?_
  rw [val_main_v0_apply, idx_v1, Ideal.mulf_def]

theorem dot_apply (r c : Fin 8192) : val_main_v8 (F := Ideal) x (ix2 r c) = RowSpec.dot (pts x) r c := by
  rw [val_main_v8_apply]
  unfold RowSpec.dot
  refine Finset.sum_congr rfl fun k _ => ?_
  rw [val_main_v7_apply, lidx_v8, ridx_v8, idx_v7]

/-! ## The clamped squared distance, the distance -/

theorem d2_apply (r c : Fin 8192) : val_main_v13 (F := Ideal) x (ix2 r c) = RowSpec.d2 (pts x) r c := by
  rw [val_main_v13_apply, val_main_v11_apply, val_main_v6_apply, val_main_v4_apply, val_main_v5_apply, val_main_v2_apply,
    val_main_v3_apply, val_main_v10_apply, val_main_v9_apply, val_main_cst_0_apply, val_main_v12_apply, val_main_cst_1_apply,
    idx_v4, idx_v5, idx_v2, idx_v3, sq_apply, sq_apply, dot_apply]
  simp only [Ideal.maximumf_def, Ideal.subf_def, Ideal.addf_def, Ideal.mulf_def, Ideal.ofBits_def, Ideal.ofBits_zero_f32]
  rfl

end Cert.ReferenceIdeal.RefValue

end
-- ==== Proof.LibOneBit.lean ====
/-
  One-bit words as truth values.

  The one-bit word of a proposition P is 1 where P holds and 0 elsewhere. On such words: a comparison of extended reals or
  of words is the word of the order or equality relation; and, or, not are the connectives; a select on the word is the
  case distinction; the fold of or from 0 over a finite family is the word of "some member holds"; the fold of the
  32-bit sum of the words widened to 32 bits is the number of members that hold; that number, at most 2^31 − 1, compared
  signed with 1 is the word of "more than one member holds"; the word read as an unsigned number on the extended reals is
  1 or 0.
-/
import Idealize.ShloMosaic.PureOps.Ideal.Laws
import Idealize.ShloMosaic.PureOps.Reduce
import Idealize.ShloMosaic.Lib.ValueIdx

noncomputable section

namespace Idealize.ShloMosaic.OneBit

open Idealize.ShloMosaic
open Classical

/-- The one-bit word of a proposition. -/
def bit (P : Prop) : BitVec 1 := if P then 1#1 else 0#1

theorem bit_true {P : Prop} (h : P) : bit P = 1#1 := if_pos h

theorem bit_false {P : Prop} (h : ¬P) : bit P = 0#1 := if_neg h

theorem bit_congr {P Q : Prop} (h : P ↔ Q) : bit P = bit Q := by rw [propext h]

theorem bit_eq_one_iff {P : Prop} : bit P = 1#1 ↔ P := by
  by_cases h : P
  · rw [bit_true h]; exact ⟨fun _ => h, fun _ => rfl⟩
  · rw [bit_false h]; exact ⟨fun e => absurd e (by decide), fun p => absurd p h⟩

theorem ofBool_decide (P : Prop) [Decidable P] : BitVec.ofBool (decide P) = bit P := by
  by_cases h : P
  · rw [bit_true h, decide_eq_true h]; rfl
  · rw [bit_false h, decide_eq_false h]; rfl

/-- A select on the word of P is the case distinction on P. -/
theorem select_bit {α : Type} (P : Prop) (a b : α) : Scalar.select (bit P) a b = if P then a else b := by
  by_cases h : P
  · rw [bit_true h, if_pos h]; exact ValueIdx.select_one a b
  · rw [bit_false h, if_neg h]; exact ValueIdx.select_zero a b

theorem andi_bit (P Q : Prop) : IntOp.andi (bit P) (bit Q) = bit (P ∧ Q) := by
  by_cases hP : P <;> by_cases hQ : Q
  · rw [bit_true hP, bit_true hQ, bit_true ⟨hP, hQ⟩]; rfl
  · rw [bit_true hP, bit_false hQ, bit_false fun h => hQ h.2]; rfl
  · rw [bit_false hP, bit_true hQ, bit_false fun h => hP h.1]; rfl
  · rw [bit_false hP, bit_false hQ, bit_false fun h => hP h.1]; rfl

theorem ori_bit (P Q : Prop) : IntOp.ori (bit P) (bit Q) = bit (P ∨ Q) := by
  by_cases hP : P <;> by_cases hQ : Q
  · rw [bit_true hP, bit_true hQ, bit_true (Or.inl hP)]; rfl
  · rw [bit_true hP, bit_false hQ, bit_true (Or.inl hP)]; rfl
  · rw [bit_false hP, bit_true hQ, bit_true (Or.inr hQ)]; rfl
  · rw [bit_false hP, bit_false hQ, bit_false fun h => h.elim hP hQ]; rfl

theorem not_bit (P : Prop) : ~~~(bit P) = bit (¬P) := by
  by_cases hP : P
  · rw [bit_true hP, bit_false (not_not.mpr hP)]; rfl
  · rw [bit_false hP, bit_true hP]; rfl

/-- "Greater than" on the extended reals. -/
theorem cmp_ogt (a b : EReal) : Ideal.cmp .ogt a b = bit (b < a) := ofBool_decide _

/-- Equality of words. -/
theorem cmpi_eq {w : Nat} (a b : BitVec w) : IntOp.cmpi .eq a b = bit (a = b) := by
  show BitVec.ofBool (a == b) = _
  rw [← ofBool_decide]
  exact congrArg BitVec.ofBool (beq_eq_decide a b)

/-- The word read as an unsigned number. -/
theorem uitofp_bit (P : Prop) : FloatOps.uitofp (F := Ideal) .f32 (bit P) = if P then (1 : EReal) else 0 := by
  by_cases h : P
  · rw [bit_true h, if_pos h]; show (((1#1 : BitVec 1).toNat : ℝ) : EReal) = 1; simp
  · rw [bit_false h, if_neg h]; show (((0#1 : BitVec 1).toNat : ℝ) : EReal) = 0; simp

variable {ι : Type}

/-- The fold of or from 0: some member holds. -/
theorem fold_ori (s : Finset ι) (P : ι → Prop) :
    s.fold IntOp.ori 0#1 (fun c => bit (P c)) = bit (∃ c ∈ s, P c) := by
  induction s using Finset.induction_on with
  | empty => rw [Finset.fold_empty, bit_false (by simp)]
  | insert a s ha ih =>
    rw [Finset.fold_insert ha, ih, ori_bit]
    exact bit_congr (by simp [Finset.mem_insert])

/-- The word widened to 32 bits. -/
theorem setWidth_bit (P : Prop) : (bit P).setWidth 32 = if P then 1#32 else 0#32 := by
  by_cases h : P
  · rw [bit_true h, if_pos h]; rfl
  · rw [bit_false h, if_neg h]; rfl

/-- The fold of the 32-bit sum from 0 of the widened words: how many members hold. -/
theorem fold_addi (s : Finset ι) (P : ι → Prop) :
    s.fold IntOp.addi 0#32 (fun c => (bit (P c)).setWidth 32) = BitVec.ofNat 32 (s.filter P).card := by
  induction s using Finset.induction_on with
  | empty => rfl
  | insert a s ha ih =>
    rw [Finset.fold_insert ha, ih, setWidth_bit, Finset.filter_insert]
    by_cases h : P a
    · rw [if_pos h, if_pos h, Finset.card_insert_of_notMem (fun m => ha (Finset.mem_filter.1 m).1)]
      show 1#32 + BitVec.ofNat 32 _ = _
      rw [Nat.add_comm, BitVec.ofNat_add]
    · rw [if_neg h, if_neg h]
      show 0#32 + BitVec.ofNat 32 _ = _
      rw [BitVec.zero_add]

/-- A number below 2^31, as a 32-bit word, is above 1 in the signed order exactly when it is above 1. -/
theorem cmpi_sgt_one (n : ℕ) (hn : n < 2147483648) : IntOp.cmpi .sgt (BitVec.ofNat 32 n) 1#32 = bit (1 < n) := by
  show BitVec.ofBool ((1#32).slt (BitVec.ofNat 32 n)) = _
  rw [← ofBool_decide]
  refine congrArg BitVec.ofBool ?_
  rw [BitVec.slt_eq_decide]
  have e : (BitVec.ofNat 32 n).toInt = (n : Int) := by
    rw [BitVec.toInt_eq_toNat_cond, BitVec.toNat_ofNat]
    have : n % 2 ^ 32 = n := Nat.mod_eq_of_lt (by omega)
    rw [this]
    split
    · rfl
    · omega
  rw [e]
  have e1 : (1#32 : BitVec 32).toInt = 1 := by decide
  rw [e1]
  exact decide_eq_decide.mpr (by omega)

end Idealize.ShloMosaic.OneBit

end
-- ==== Proof.RefRead2.lean ====
/- The values the reference program computes, operation by operation: the distance, the label comparison and the two masked entries
   (the same-label distances with −∞ elsewhere, the other-label distances with +∞ elsewhere) at a row r and a column c. -/
import proofs.«162495_j16088947491301_1_alg».proof.Proof.RefRead
import proofs.«162495_j16088947491301_1_alg».proof.Proof.LibOneBit

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.OneBit
open scoped BigOperators
open Classical

variable (x : FVec Ideal S8192x256 .f32) (l : IVec S8192 32)

/-- The word of −∞ denotes the bottom element, the word of +∞ the top element. -/
theorem ofBits_neg_inf : Ideal.ofBits .f32 0xFF800000#32 = (⊥ : EReal) := by simp [Ideal.ofBits, Ideal.ieee]
theorem ofBits_pos_inf : Ideal.ofBits .f32 0x7F800000#32 = (⊤ : EReal) := by simp [Ideal.ofBits, Ideal.ieee]

/-- The square root of a positive extended real is positive. -/
theorem sqrt_pos {e : EReal} (h : 0 < e) : 0 < Ideal.sqrt e := by
  induction e using EReal.rec with
  | bot => exact absurd h (not_lt.mpr bot_le)
  | top => exact h
  | coe r =>
    have hr : 0 < r := EReal.coe_pos.mp h
    rw [Ideal.sqrt_coe, if_neg (not_lt.mpr hr.le)]
    exact EReal.coe_pos.mpr (Real.sqrt_pos.mpr hr)

/-- The distance is positive exactly where the clamped squared distance is. -/
theorem dists_pos_iff (e : EReal) : 0 < RowSpec.dists e ↔ 0 < e := by
  unfold RowSpec.dists
  by_cases h : 0 < e
  · rw [if_pos h]; exact ⟨fun _ => h, fun _ => sqrt_pos h⟩
  · rw [if_neg h]; exact ⟨fun h0 => absurd h0 (lt_irrefl _), fun h1 => absurd h1 h⟩

/-! ## Index equations -/

theorem idx_v19 (r : Fin 8192) (u : Fin 1) : idx_main_v19 (ix2 r u) = ix1 r :=
  funext fun a => Fin.ext (by match a with | ⟨0, _⟩ => rfl)

theorem idx_v20 (u : Fin 1) (c : Fin 8192) : idx_main_v20 (ix2 u c) = ix1 c :=
  funext fun a => Fin.ext (by match a with | ⟨0, _⟩ => rfl)

theorem idx_v21 (r c : Fin 8192) : idx_main_v21 (ix2 r c) = ix2 r (0 : Fin 1) :=
  funext fun a => Fin.ext (by match a with | ⟨0, _⟩ => rfl | ⟨1, _⟩ => rfl)

theorem idx_v22 (r c : Fin 8192) : idx_main_v22 (ix2 r c) = ix2 (0 : Fin 1) c :=
  funext fun a => Fin.ext (by match a with | ⟨0, _⟩ => rfl | ⟨1, _⟩ => rfl)

/-! ## The entries -/

/-- The mask of positive clamped squared distances. -/
theorem pos_apply (r c : Fin 8192) :
    val_main_v15 (F := Ideal) x (ix2 r c) = bit (0 < RowSpec.d2 (pts x) r c) := by
  rw [val_main_v15_apply, d2_apply, val_main_v14_apply, val_main_cst_2_apply, Ideal.ofBits_def, Ideal.ofBits_zero_f32]
  exact cmp_ogt _ _

/-- The distance. -/
theorem dist_apply (r c : Fin 8192) : val_main_v18 (F := Ideal) x (ix2 r c) = RowSpec.dist (pts x) r c := by
  rw [val_main_v18_apply, val_main_v17_apply, val_main_v16_apply, pos_apply, d2_apply, val_main_call1_v1_apply,
    val_main_call1_v0_apply, val_main_cst_4_apply, Ideal.ofBits_def, Ideal.ofBits_zero_f32, Ideal.hostUnary_sqrt_def,
    select_bit, select_bit]
  unfold RowSpec.dist RowSpec.dists
  by_cases h : 0 < RowSpec.d2 (pts x) r c
  · rw [if_pos h, if_pos h, if_pos h]
  · rw [if_neg h, if_neg h]

/-- The mask of equal labels. -/
theorem same_apply (r c : Fin 8192) :
    val_main_v23 (F := Ideal) l (ix2 r c) = bit (RowSpec.same (lbl l) r c) := by
  rw [val_main_v23_apply, val_main_v21_apply, val_main_v22_apply, val_main_v19_apply, val_main_v20_apply, idx_v21, idx_v22,
    idx_v19, idx_v20]
  exact cmpi_eq _ _

/-- The mask of other labels. -/
theorem other_apply (r c : Fin 8192) :
    val_main_v24 (F := Ideal) l (ix2 r c) = bit (¬ RowSpec.same (lbl l) r c) := by
  rw [val_main_v24_apply, same_apply, not_bit]

/-- The mask of equal labels at a positive distance. -/
theorem posnz_apply (r c : Fin 8192) :
    val_main_v27 (F := Ideal) x l (ix2 r c) = bit (RowSpec.same (lbl l) r c ∧ 0 < RowSpec.d2 (pts x) r c) := by
  rw [val_main_v27_apply, same_apply, val_main_v26_apply, dist_apply, val_main_v25_apply, val_main_cst_5_apply, Ideal.ofBits_def,
    Ideal.ofBits_zero_f32, Ideal.cmpf_def, cmp_ogt, andi_bit]
  exact bit_congr (and_congr_right fun _ => dists_pos_iff _)

/-- The same-label distances, −∞ elsewhere. -/
theorem hpTerm_apply (r c : Fin 8192) :
    val_main_v28 (F := Ideal) x l (ix2 r c) = RowSpec.hpTerm (pts x) (lbl l) r c := by
  rw [val_main_v28_apply, posnz_apply, dist_apply, val_main_call2_v1_apply, val_main_call2_v0_apply, val_main_cst_6_apply,
    Ideal.ofBits_def, ofBits_neg_inf, select_bit]
  unfold RowSpec.hpTerm
  by_cases h : RowSpec.same (lbl l) r c ∧ 0 < RowSpec.d2 (pts x) r c
  · rw [if_pos h, if_pos h]
  · rw [if_neg h, if_neg h]

/-- The other-label distances, +∞ elsewhere. -/
theorem hnTerm_apply (r c : Fin 8192) :
    val_main_v30 (F := Ideal) x l (ix2 r c) = RowSpec.hnTerm (pts x) (lbl l) r c := by
  rw [val_main_v30_apply, other_apply, dist_apply, val_main_call3_v1_apply, val_main_call3_v0_apply, val_main_cst_8_apply,
    Ideal.ofBits_def, ofBits_pos_inf, select_bit]
  unfold RowSpec.hnTerm
  by_cases h : ¬ RowSpec.same (lbl l) r c
  · rw [if_pos h, if_pos h]
  · rw [if_neg h, if_neg h]

end Cert.ReferenceIdeal.RefValue

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.RefRead3.lean ====
/- The values the reference program computes, operation by operation: the five row reductions (the greatest same-label distance, the least
   other-label distance, the number of equal labels, whether another label occurs, whether an equal label occurs at a
   positive distance), the validity of the row and its hinge. -/
import proofs.«162495_j16088947491301_1_alg».proof.Proof.RefRead2
import proofs.«162495_j16088947491301_1_alg».proof.Proof.LibAxisFold

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.OneBit
open scoped BigOperators
open Classical

variable (x : FVec Ideal S8192x256 .f32) (l : IVec S8192 32)

/-- Reducing the second axis of the square array leaves the rows. -/
theorem reduces_rows : S8192x8192.Reduces [1] S8192 := by decide

/-- A row-wise fold of the square array, at row r, is the fold over the columns of its entries in that row. -/
theorem row_fold {α : Type} (f : α → α → α) [Std.Commutative f] [Std.Associative f] (Y : S8192x8192.Idx → α) (init : S_.Idx → α)
    (g : Fin 8192 → α) (r : Fin 8192) (hg : ∀ c, Y (ix2 r c) = g c) :
    Host.reduce f Y init reducesTo_S8192x8192_S8192_d1 h_S_ (ix1 r)
      = (Finset.univ : Finset (Fin 8192)).fold f (init (Shape.Idx.first h_S_)) g := by
  refine (Host.reduce_eq_fold_single f Y init reducesTo_S8192x8192_S8192_d1 reduces_rows h_S_ (ix1 r)).trans ?_
  have e : (Y ∘ reduces_rows.lift (ix1 r)) = g :=
    funext fun c => (congrArg Y (AxisFold.lift_second reduces_rows r c)).trans (hg c)
  rw [e]
  rfl

/-- The greatest same-label distance of row r. -/
theorem hp_apply (r : Fin 8192) : val_main_v29 (F := Ideal) x l (ix1 r) = RowSpec.hp (pts x) (lbl l) r := by
  unfold val_main_v29
  rw [row_fold FloatOps.maximumf _ _ _ r (hpTerm_apply x l r), val_main_cst_7_apply, Ideal.ofBits_def, ofBits_neg_inf,
    RowSpec.hp_eq_fold]
  rfl

/-- The least other-label distance of row r. -/
theorem hn_apply (r : Fin 8192) : val_main_v31 (F := Ideal) x l (ix1 r) = RowSpec.hn (pts x) (lbl l) r := by
  unfold val_main_v31
  rw [row_fold FloatOps.minimumf _ _ _ r (hnTerm_apply x l r), val_main_cst_9_apply, Ideal.ofBits_def, ofBits_pos_inf,
    RowSpec.hn_eq_fold]
  rfl

/-- The number of labels equal to that of row r, as a 32-bit word. -/
theorem cnt_apply (r : Fin 8192) :
    val_main_v33 (F := Ideal) l (ix1 r) = BitVec.ofNat 32 (RowSpec.cnt (lbl l) r) := by
  unfold val_main_v33
  rw [row_fold IntOp.addi _ _ (fun c => (bit (RowSpec.same (lbl l) r c)).setWidth 32) r
    (fun c => by rw [val_main_v32_apply, same_apply]), val_main_c_apply, fold_addi]
  unfold RowSpec.cnt
  congr

theorem cnt_le (r : Fin 8192) : RowSpec.cnt (lbl l) r ≤ 8192 := by
  unfold RowSpec.cnt
  exact (Finset.card_filter_le _ _).trans (by rw [Finset.card_univ, Fintype.card_fin])

/-- More than one label equals that of row r. -/
theorem many_apply (r : Fin 8192) : val_main_v35 (F := Ideal) l (ix1 r) = bit (1 < RowSpec.cnt (lbl l) r) := by
  rw [val_main_v35_apply, cnt_apply, val_main_v34_apply, val_main_c_10_apply]
  exact cmpi_sgt_one _ (by have := cnt_le l r; omega)

/-- Another label occurs. -/
theorem anyneg_apply (r : Fin 8192) :
    val_main_v36 (F := Ideal) l (ix1 r) = bit (∃ c, ¬ RowSpec.same (lbl l) r c) := by
  unfold val_main_v36
  rw [row_fold IntOp.ori _ _ (fun c => bit (¬ RowSpec.same (lbl l) r c)) r (other_apply l r), val_main_c_11_apply, fold_ori]
  exact bit_congr (by simp)

/-- An equal label occurs at a positive distance. -/
theorem anypos_apply (r : Fin 8192) :
    val_main_v38 (F := Ideal) x l (ix1 r)
      = bit (∃ c, RowSpec.same (lbl l) r c ∧ 0 < RowSpec.d2 (pts x) r c) := by
  unfold val_main_v38
  rw [row_fold IntOp.ori _ _ (fun c => bit (RowSpec.same (lbl l) r c ∧ 0 < RowSpec.d2 (pts x) r c)) r (posnz_apply x l r),
    val_main_c_12_apply, fold_ori]
  exact bit_congr (by simp)

/-- The row is valid. -/
theorem valid_apply (r : Fin 8192) :
    val_main_v39 (F := Ideal) x l (ix1 r) = bit (RowSpec.valid (pts x) (lbl l) r) := by
  rw [val_main_v39_apply, val_main_v37_apply, many_apply, anyneg_apply, anypos_apply, andi_bit, andi_bit]
  exact bit_congr (by unfold RowSpec.valid; exact and_assoc)

/-- The hinge of the row where it is valid, 0 elsewhere. -/
theorem perAnchor_apply (r : Fin 8192) :
    val_main_v44 (F := Ideal) x l (ix1 r) = RowSpec.perAnchor (pts x) (lbl l) r := by
  rw [val_main_v44_apply, valid_apply, val_main_v43_apply, val_main_v42_apply, val_main_v40_apply, hp_apply, hn_apply,
    val_main_v41_apply, val_main_cst_13_apply, val_main_call4_v0_apply, val_main_call4_cst_apply, val_main_call5_v1_apply,
    val_main_call5_v0_apply, val_main_cst_14_apply, select_bit]
  simp only [Ideal.maximumf_def, Ideal.subf_def, Ideal.addf_def, Ideal.ofBits_def, Ideal.ofBits_zero_f32]
  unfold RowSpec.perAnchor RowSpec.hinge RowSpec.margin
  by_cases h : RowSpec.valid (pts x) (lbl l) r
  · simp only [if_pos h]
  · simp only [if_neg h]

/-- The row's validity as 1 or 0. -/
theorem validf_apply (r : Fin 8192) :
    val_main_v45 (F := Ideal) x l (ix1 r) = if RowSpec.valid (pts x) (lbl l) r then (1 : EReal) else 0 := by
  rw [val_main_v45_apply, valid_apply, uitofp_bit]

end Cert.ReferenceIdeal.RefValue

end
-- ==== Proof.RefRead4.lean ====
/- The values the reference program computes, operation by operation: the number of valid rows, the sum of their hinges, and the loss —
   the reference's result is the batch-hard triplet loss of the points and labels. -/
import proofs.«162495_j16088947491301_1_alg».proof.Proof.RefRead3

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.OneBit
open scoped BigOperators
open Classical

variable (x : FVec Ideal S8192x256 .f32) (l : IVec S8192 32)

/-- The indices of a vector of 8192 entries are its coordinates. -/
def rowE : Fin 8192 ≃ S8192.Idx where
  toFun := ix1
  invFun j := j 0
  left_inv _ := rfl
  right_inv j := (eq_ix1 j).symm

/-- The f32 word of 1 denotes 1. -/
theorem ofBits_one : Ideal.ofBits .f32 0x3F800000#32 = (1 : EReal) := by
  simp [Ideal.ofBits, Ideal.ieee]
  rw [← EReal.coe_mul, ← EReal.coe_one]
  exact congrArg _ (by norm_num)

/-- The number of valid rows. -/
theorem count_apply (i : S_.Idx) : val_main_v46 (F := Ideal) x l i = RowSpec.count (pts x) (lbl l) := by
  rw [val_main_v46_apply, val_main_cst_15_apply, Ideal.ofBits_def, Ideal.ofBits_zero_f32, zero_add, ← Equiv.sum_comp rowE]
  unfold RowSpec.count
  exact Finset.sum_congr rfl fun r _ => validf_apply x l r

/-- The sum of the valid rows' hinges. -/
theorem total_apply (i : S_.Idx) : val_main_v48 (F := Ideal) x l i = RowSpec.total (pts x) (lbl l) := by
  rw [val_main_v48_apply, val_main_cst_17_apply, Ideal.ofBits_def, Ideal.ofBits_zero_f32, zero_add, ← Equiv.sum_comp rowE]
  unfold RowSpec.total
  exact Finset.sum_congr rfl fun r _ => perAnchor_apply x l r

/-- The reference's result at its one index is the loss. -/
theorem loss_apply (i : S_.Idx) : val_main_v51 (F := Ideal) x l i = RowSpec.loss (pts x) (lbl l) := by
  rw [val_main_v51_apply, val_main_v47_apply, val_main_v50_apply, val_main_v49_apply, count_apply, total_apply,
    val_main_cst_16_apply, val_main_cst_18_apply, val_main_call6_v0_apply, val_main_cst_19_apply, Ideal.cmpf_def, cmp_ogt,
    select_bit]
  simp only [Ideal.ofBits_def, Ideal.ofBits_zero_f32, ofBits_one, Ideal.hostDivf_def, Ideal.maximumf_def]
  unfold RowSpec.loss
  by_cases h : 0 < RowSpec.count (pts x) (lbl l)
  · simp only [if_pos h]
  · simp only [if_neg h]

/-- The reference's result is the loss of the points x(r, k) and the labels l(r). -/
theorem val_main_v51_eq_loss :
    val_main_v51 (F := Ideal) x l = fun _ => RowSpec.loss (fun r k => x (ix2 r k)) (fun r => l (ix1 r)) :=
  funext fun i => loss_apply x l i

end Cert.ReferenceIdeal.RefValue

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Blocks.lean ====
/- Each window's block at a grid point, read off the arrays. A point is (row tile, column tile) = (t / 16, t % 16). The row-tile windows
   (the embeddings' rows, the labels as a column, the two results) sit at block t / 16 along the rows; the column-tile windows (the
   embeddings' rows again, the labels as a row) at block t % 16. Inside a block of 512 rows, row p is row 512·(block) + p of the array.
   The labels' column and row are the label vector reshaped: entry (r, 0), resp. (0, r), is label r. -/
import proofs.«162495_j16088947491301_1_alg».proof.Proof.Entry
import proofs.«162495_j16088947491301_1_alg».proof.Proof.LibKeepdims
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx

variable (m : (ℓ : Loc nD τ sig) → Buf (Elt F) ℓ)

/-- The embeddings reach the region as launched. -/
theorem V_arg0 (c : Dev nD) : V m c main_arg0 = m ((c : Thread nD τ).loc main_arg0) := by
  dsimp only [V, V0]
  simp only [hostOps0, List.flatten_cons, List.flatten_nil, List.append_nil]
  after_results

/-- The labels' column is the label vector reshaped. -/
theorem V_v0 (c : Dev nD) :
    (V m c main_v0 : S8192x1.Idx → BitVec 32) = shapeCast S8192x1 (m ((c : Thread nD τ).loc main_arg1)) shapeCasts_S8192_S8192x1 := by
  dsimp only [V, V0]
  simp only [hostOps0, List.flatten_cons, List.flatten_nil, List.append_nil]
  after_results
  rfl

/-- The labels' row is the label vector reshaped. -/
theorem V_v1 (c : Dev nD) :
    (V m c main_v1 : S1x8192.Idx → BitVec 32) = shapeCast S1x8192 (m ((c : Thread nD τ).loc main_arg1)) shapeCasts_S8192_S1x8192 := by
  dsimp only [V, V0]
  simp only [hostOps0, List.flatten_cons, List.flatten_nil, List.append_nil]
  after_results
  rfl

/-- The windows' block indices over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-- Row `p` of the row-tile block of the embeddings is row `512·(t/16) + p` of the array. -/
theorem iblk0_apply (c : Dev nD) (t : Fin cfg0.N) (p : Fin 512) (k : Fin 256) :
    iblk m c 0 t (ix2 p k) = m ((c : Thread nD τ).loc main_arg0) (ix2 ⟨512 * (t.val / 16) + p.val, (by have := lt_of_lt_of_eq t.isLt (show cfg0.N = 256 from N_0); omega)⟩ k) := by
  show V m c main_arg0 (((cfg0.win 0).blk t).view.emb (ix2 p k)) = _
  rw [V_arg0]
  refine congrArg _ ?_
  obtain ⟨e0, e1, -⟩ := idx_facts t
  funext a; apply Fin.ext
  match a with
  | ⟨0, _⟩ => show win0_0.index t (0 : Fin 2) * 512 + 1 * p.val = 512 * (t.val / 16) + p.val; omega
  | ⟨1, _⟩ => show win0_0.index t (1 : Fin 2) * 256 + 1 * k.val = k.val; omega

/-- Row `q` of the column-tile block of the embeddings is row `512·(t%16) + q` of the array. -/
theorem iblk1_apply (c : Dev nD) (t : Fin cfg0.N) (q : Fin 512) (k : Fin 256) :
    iblk m c 1 t (ix2 q k) = m ((c : Thread nD τ).loc main_arg0) (ix2 ⟨512 * (t.val % 16) + q.val, by omega⟩ k) := by
  show V m c main_arg0 (((cfg0.win 1).blk t).view.emb (ix2 q k)) = _
  rw [V_arg0]
  refine congrArg _ ?_
  obtain ⟨-, -, e0, e1, -⟩ := idx_facts t
  funext a; apply Fin.ext
  match a with
  | ⟨0, _⟩ => show win0_1.index t (0 : Fin 2) * 512 + 1 * q.val = 512 * (t.val % 16) + q.val; omega
  | ⟨1, _⟩ => show win0_1.index t (1 : Fin 2) * 256 + 1 * k.val = k.val; omega

/-- Entry `p` of the row-tile block of the labels' column is label `512·(t/16) + p`. -/
theorem iblk2_apply (c : Dev nD) (t : Fin cfg0.N) (p : Fin 512) :
    iblk m c 2 t (ix2 p (0 : Fin 1)) = m ((c : Thread nD τ).loc main_arg1) (ix1 ⟨512 * (t.val / 16) + p.val, (by have := lt_of_lt_of_eq t.isLt (show cfg0.N = 256 from N_0); omega)⟩) := by
  show V m c main_v0 (((cfg0.win 2).blk t).view.emb (ix2 p (0 : Fin 1))) = _
  rw [V_v0]
  obtain ⟨-, -, -, -, e0, e1, -⟩ := idx_facts t
  have hj : ((cfg0.win 2).blk t).view.emb (ix2 p (0 : Fin 1)) = ix2 (⟨512 * (t.val / 16) + p.val, (by have := lt_of_lt_of_eq t.isLt (show cfg0.N = 256 from N_0); omega)⟩ : Fin 8192) (0 : Fin 1) := by
    funext a; apply Fin.ext
    match a with
    | ⟨0, _⟩ => show win0_2.index t (0 : Fin 2) * 512 + 1 * p.val = 512 * (t.val / 16) + p.val; omega
    | ⟨1, _⟩ => show win0_2.index t (1 : Fin 2) * 1 + 1 * 0 = 0; omega
  rw [hj, Idealize.ShloMosaic.Keepdims.shapeCast_a_a1_apply]

/-- Entry `q` of the column-tile block of the labels' row is label `512·(t%16) + q`. -/
theorem iblk3_apply (c : Dev nD) (t : Fin cfg0.N) (q : Fin 512) :
    iblk m c 3 t (ix2 (0 : Fin 1) q) = m ((c : Thread nD τ).loc main_arg1) (ix1 ⟨512 * (t.val % 16) + q.val, by omega⟩) := by
  show V m c main_v1 (((cfg0.win 3).blk t).view.emb (ix2 (0 : Fin 1) q)) = _
  rw [V_v1]
  obtain ⟨-, -, -, -, -, -, e0, e1, -⟩ := idx_facts t
  have hj : ((cfg0.win 3).blk t).view.emb (ix2 (0 : Fin 1) q) = ix2 (0 : Fin 1) (⟨512 * (t.val % 16) + q.val, by omega⟩ : Fin 8192) := by
    funext a; apply Fin.ext
    match a with
    | ⟨0, _⟩ => show win0_3.index t (0 : Fin 2) * 1 + 1 * 0 = 0; omega
    | ⟨1, _⟩ => show win0_3.index t (1 : Fin 2) * 512 + 1 * q.val = 512 * (t.val % 16) + q.val; omega
  rw [hj]
  refine shapeCast_apply _ _ _ (ix1 ⟨512 * (t.val % 16) + q.val, by omega⟩) ?_
  simp [Shape.rowMajor_val_two, Shape.rowMajor_val_one]

end Cert.KernelIdeal.Blocks

end
-- ==== Proof.KernelArrays.lean ====
/- The two result arrays after the run. Result window w (4: the per-anchor losses, 5: the validity flags) is written back only at the
   last column tile of each row tile, and those sixteen blocks of 512 rows tile the 8192 rows; so row r of the final array is entry
   r % 512 of what the point (r / 512, 15) left in the window's staging buffer. -/
import proofs.«162495_j16088947491301_1_alg».proof.Proof.SoundBody
import proofs.«162495_j16088947491301_1_alg».proof.Proof.Blocks
import Idealize.ShloMosaic.Lib.Pipeline.Value

set_option maxRecDepth 16384

noncomputable section

namespace Cert.KernelIdeal.Cases

open Cert.KernelIdeal.Entry
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem outsAt0_congr (c : Dev nD) (n n' : ℕ) (hn : n < cfg0.N) (hn' : n' < cfg0.N) (e : n = n') : outsAt0 m c n hn = outsAt0 m c n' hn' := by
  subst e; rfl

/-! ## Result window 4 -/

/-- What the array ends holding: row `r` takes entry `r % 512` of what the last column tile of row tile `r / 512` leaves. -/
def G4 (c : Dev nD) : S8192x1.Idx → Elt F .f32 := fun i =>
  (outsAt0 m c (16 * ((i 0).val / 512) + 15) (by have := idx2_lt0 i; have : cfg0.N = 256 := N_0; omega)).o4 (ix2 ⟨(i 0).val % 512, Nat.mod_lt _ (by norm_num)⟩ (0 : Fin 1))

/-- What a last-column-tile point writes back is its block of `G4`. -/
theorem flushed4_eq (c : Dev nD) (t : Fin cfg0.N) (hf : (cfg0.win 4).flush t = true) :
    (dats m 0 c).flushed 4 t = ((cfg0.win 4).blk t).view.read (Elt F) (G4 m c) := by
  have h15 : t.val % 16 = 15 := (flush0_4 t).mp hf
  have hN : t.val < 256 := lt_of_lt_of_eq t.isLt (show cfg0.N = 256 from N_0)
  show (cfg0.win 4).cut (grid0.coords t) ((dats m 0 c).after 4 t) = _
  rw [after0_4]
  obtain ⟨-, -, -, -, -, -, -, -, e40, e41, e50, e51⟩ := Blocks.idx_facts t
  funext j
  show (outsAt0 m c t.val t.isLt).o4 j = G4 m c (((cfg0.win 4).blk t).view.emb j)
  have hj0 : ((((cfg0.win 4).blk t).view.emb j) 0).val = win0_4.index t (0 : Fin 2) * 512 + 1 * (j 0).val := rfl
  have hjlt : (j 0).val < 512 := (j 0).isLt
  unfold G4
  have hn : 16 * (((((cfg0.win 4).blk t).view.emb j) 0).val / 512) + 15 = t.val := by rw [hj0]; omega
  have hp : ((((cfg0.win 4).blk t).view.emb j) 0).val % 512 = (j 0).val := by rw [hj0]; omega
  rw [outsAt0_congr m c _ t.val _ t.isLt hn]
  refine congrArg _ ?_
  funext a; apply Fin.ext
  match a with
  | ⟨0, _⟩ => exact hp.symm
  | ⟨1, _⟩ => show (j 1).val = 0; have h1 : (j 1).val < 1 := (j 1).isLt; omega

theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2_0).slice (win0_4.rect t)).set ↔ _
  rw [View.set_slice_whole, Rect.mem_set_unit]
  exact Iff.rfl

/-- Every row lies in the block of its row tile's last point. -/
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := (i 1).isLt
  have hN : cfg0.N = 256 := N_0
  refine ⟨⟨16 * ((i 0).val / 512) + 15, by omega⟩, (flush0_4 _).mpr (by show (16 * ((i 0).val / 512) + 15) % 16 = 15; omega), ?_⟩
  rw [mem_blk4]
  obtain ⟨-, -, -, -, -, -, -, -, e40, e41, e50, e51⟩ := Blocks.idx_facts (⟨16 * ((i 0).val / 512) + 15, by omega⟩ : Fin cfg0.N)
  intro a
  match a with
  | ⟨0, _⟩ =>
    show win0_4.index _ (0 : Fin 2) * 512 ≤ (i 0).val ∧ (i 0).val < win0_4.index _ (0 : Fin 2) * 512 + 512
    rw [e40]; show (16 * ((i 0).val / 512) + 15) / 16 * 512 ≤ (i 0).val ∧ (i 0).val < (16 * ((i 0).val / 512) + 15) / 16 * 512 + 512; omega
  | ⟨1, _⟩ =>
    show win0_4.index _ (1 : Fin 2) * 1 ≤ (i 1).val ∧ (i 1).val < win0_4.index _ (1 : Fin 2) * 1 + 1
    rw [e41]; omega

/-- The array after the run. -/
theorem final4 (c : Dev nD) : (dats m 0 c).arrAt 4 cfg0.N = G4 m c :=
  (dats m 0 c).arrAt_eq_of_cover 4 (G4 m c) (fun t hf => flushed4_eq m c t hf) (cover4)

/-! ## Result window 5 -/

/-- What the array ends holding: row `r` takes entry `r % 512` of what the last column tile of row tile `r / 512` leaves. -/
def G5 (c : Dev nD) : S8192x1.Idx → Elt F .f32 := fun i =>
  (outsAt0 m c (16 * ((i 0).val / 512) + 15) (by have := idx2_lt0 i; have : cfg0.N = 256 := N_0; omega)).o5 (ix2 ⟨(i 0).val % 512, Nat.mod_lt _ (by norm_num)⟩ (0 : Fin 1))

/-- What a last-column-tile point writes back is its block of `G5`. -/
theorem flushed5_eq (c : Dev nD) (t : Fin cfg0.N) (hf : (cfg0.win 5).flush t = true) :
    (dats m 0 c).flushed 5 t = ((cfg0.win 5).blk t).view.read (Elt F) (G5 m c) := by
  have h15 : t.val % 16 = 15 := (flush0_5 t).mp hf
  have hN : t.val < 256 := lt_of_lt_of_eq t.isLt (show cfg0.N = 256 from N_0)
  show (cfg0.win 5).cut (grid0.coords t) ((dats m 0 c).after 5 t) = _
  rw [after0_5]
  obtain ⟨-, -, -, -, -, -, -, -, e40, e41, e50, e51⟩ := Blocks.idx_facts t
  funext j
  show (outsAt0 m c t.val t.isLt).o5 j = G5 m c (((cfg0.win 5).blk t).view.emb j)
  have hj0 : ((((cfg0.win 5).blk t).view.emb j) 0).val = win0_5.index t (0 : Fin 2) * 512 + 1 * (j 0).val := rfl
  have hjlt : (j 0).val < 512 := (j 0).isLt
  unfold G5
  have hn : 16 * (((((cfg0.win 5).blk t).view.emb j) 0).val / 512) + 15 = t.val := by rw [hj0]; omega
  have hp : ((((cfg0.win 5).blk t).view.emb j) 0).val % 512 = (j 0).val := by rw [hj0]; omega
  rw [outsAt0_congr m c _ t.val _ t.isLt hn]
  refine congrArg _ ?_
  funext a; apply Fin.ext
  match a with
  | ⟨0, _⟩ => exact hp.symm
  | ⟨1, _⟩ => show (j 1).val = 0; have h1 : (j 1).val < 1 := (j 1).isLt; omega

theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v2_1).slice (win0_5.rect t)).set ↔ _
  rw [View.set_slice_whole, Rect.mem_set_unit]
  exact Iff.rfl

/-- Every row lies in the block of its row tile's last point. -/
theorem cover5 (i : S8192x1.Idx) : ∃ t : Fin cfg0.N, (cfg0.win 5).flush t = true ∧ i ∈ ((cfg0.win 5).blk t).view.set := by
  have hi0 : (i 0).val < 8192 := idx2_lt0 i
  have hi1 : (i 1).val < 1 := (i 1).isLt
  have hN : cfg0.N = 256 := N_0
  refine ⟨⟨16 * ((i 0).val / 512) + 15, by omega⟩, (flush0_5 _).mpr (by show (16 * ((i 0).val / 512) + 15) % 16 = 15; omega), ?_⟩
  rw [mem_blk5]
  obtain ⟨-, -, -, -, -, -, -, -, e40, e41, e50, e51⟩ := Blocks.idx_facts (⟨16 * ((i 0).val / 512) + 15, by omega⟩ : Fin cfg0.N)
  intro a
  match a with
  | ⟨0, _⟩ =>
    show win0_5.index _ (0 : Fin 2) * 512 ≤ (i 0).val ∧ (i 0).val < win0_5.index _ (0 : Fin 2) * 512 + 512
    rw [e50]; show (16 * ((i 0).val / 512) + 15) / 16 * 512 ≤ (i 0).val ∧ (i 0).val < (16 * ((i 0).val / 512) + 15) / 16 * 512 + 512; omega
  | ⟨1, _⟩ =>
    show win0_5.index _ (1 : Fin 2) * 1 ≤ (i 1).val ∧ (i 1).val < win0_5.index _ (1 : Fin 2) * 1 + 1
    rw [e51]; omega

/-- The array after the run. -/
theorem final5 (c : Dev nD) : (dats m 0 c).arrAt 5 cfg0.N = G5 m c :=
  (dats m 0 c).arrAt_eq_of_cover 5 (G5 m c) (fun t hf => flushed5_eq m c t hf) (cover5)

end Cert.KernelIdeal.Cases

end
-- ==== Proof.Pieces.lean ====
/-
  What each control case of the body leaves in the five per-row accumulators and in the two result blocks, as the body's
  arithmetic applied to the blocks it read. At the first column tile of a row tile each accumulator is reset (to −∞, +∞,
  0, 0, 0) and then takes the tile in; at a middle and at the last column tile it takes the tile into what the column tile
  before left; at the last column tile the two result blocks are computed from the five accumulators after that update.
  Each store writes the whole buffer, so what a buffer holds at the end is the value of its last store, and a load that
  follows a store reads that store's value.
-/
import proofs.«162495_j16088947491301_1_alg».proof.Proof.Carried
import Idealize.ShloMosaic.Lib.Pipeline.Value

set_option maxRecDepth 16384

noncomputable section

namespace Cert.KernelIdeal.Pieces

open Cert.KernelIdeal.Entry Cert.KernelIdeal.Cases
open Cert.KernelIdeal Cert.KernelIdeal.Gen
open Idealize.ShloMosaic Idealize.ShloMosaic.TcCoe Idealize.ShloMosaic.Tactic
open Idealize.SL Idealize.SL.Sem

variable {F : FTy → Type} [FloatOps F]

/-- The offset of a whole-buffer access is zero on both axes. -/
theorem hz2 : (![0, 0] : Fin 2 → ℕ) = fun _ => 0 := by
  funext a; match a with | ⟨0, _⟩ => rfl | ⟨1, _⟩ => rfl

/-- At the first column tile the greatest same-label distance is reset and then takes the tile in. -/
theorem first_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 x1 : Vec F S512x256 .f32) (x2 : Vec F S512x1 .i32) (x3 : Vec F S1x512 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 = k0_pay19 (k0_pay12 x0 x1) (k0_pay13 x0 x1) (k0_pay14 (F := F) x2 x3) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the first column tile the least other-label distance is reset and then takes the tile in. -/
theorem first_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 x1 : Vec F S512x256 .f32) (x2 : Vec F S512x1 .i32) (x3 : Vec F S1x512 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 = k0_pay20 (k0_pay13 x0 x1) (k0_pay14 (F := F) x2 x3) (constantI S512x512 1 1#1) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the first column tile the same-label count is reset and then takes the tile in. -/
theorem first_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 x1 : Vec F S512x256 .f32) (x2 : Vec F S512x1 .i32) (x3 : Vec F S1x512 .i32) :
    sout0_A_2 c i arg2 harg2 arg3 harg3 arg4 harg4 arg5 harg5 arg6 harg6 arg7 harg7 arg8 harg8 arg9 harg9 arg10 harg10 arg11 harg11 arg12 harg12 hc0 hc1 x0 x1 x2 x3 = k0_pay21 (k0_pay14 (F := F) x2 x3) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the first column tile the other-label flag is reset and then takes the tile in. -/
theorem first_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 x1 : Vec F S512x256 .f32) (x2 : Vec F S512x1 .i32) (x3 : Vec F S1x512 .i32) :
    sout0_A_3 c i arg2 harg2 arg3 harg3 arg4 harg4 arg5 harg5 arg6 harg6 arg7 harg7 arg8 harg8 arg9 harg9 arg10 harg10 arg11 harg11 arg12 harg12 hc0 hc1 x0 x1 x2 x3 = k0_pay1 (k0_pay17 (F := F) (k0_pay14 (F := F) x2 x3) (constantI S512x512 1 1#1)) (k0_pay9 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the first column tile the positive same-label flag is reset and then takes the tile in. -/
theorem first_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 x1 : Vec F S512x256 .f32) (x2 : Vec F S512x1 .i32) (x3 : Vec F S1x512 .i32) :
    sout0_A_4 c i arg2 harg2 arg3 harg3 arg4 harg4 arg5 harg5 arg6 harg6 arg7 harg7 arg8 harg8 arg9 harg9 arg10 harg10 arg11 harg11 arg12 harg12 hc0 hc1 x0 x1 x2 x3 = k0_pay2 (k0_pay18 (F := F) (k0_pay12 x0 x1) (k0_pay14 (F := F) x2 x3)) (k0_pay10 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At a middle column tile the greatest same-label distance takes the tile into what it held. -/
theorem middle_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 x1 : Vec F S512x256 .f32) (x2 : Vec F S512x1 .i32) (x3 : Vec F S1x512 .i32) (xs0 xs1 xs2 xs3 xs4 : Vec F S512x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay19 (k0_pay12 x0 x1) (k0_pay13 x0 x1) (k0_pay14 (F := F) x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At a middle column tile the least other-label distance takes the tile into what it held. -/
theorem middle_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 x1 : Vec F S512x256 .f32) (x2 : Vec F S512x1 .i32) (x3 : Vec F S1x512 .i32) (xs0 xs1 xs2 xs3 xs4 : Vec F S512x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay20 (k0_pay13 x0 x1) (k0_pay14 (F := F) x2 x3) (constantI S512x512 1 1#1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At a middle column tile the same-label count takes the tile into what it held. -/
theorem middle_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 x1 : Vec F S512x256 .f32) (x2 : Vec F S512x1 .i32) (x3 : Vec F S1x512 .i32) (xs0 xs1 xs2 xs3 xs4 : Vec F S512x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay21 (k0_pay14 (F := F) x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At a middle column tile the other-label flag takes the tile into what it held. -/
theorem middle_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 x1 : Vec F S512x256 .f32) (x2 : Vec F S512x1 .i32) (x3 : Vec F S1x512 .i32) (xs0 xs1 xs2 xs3 xs4 : Vec F S512x1 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay1 (k0_pay17 (F := F) (k0_pay14 (F := F) x2 x3) (constantI S512x512 1 1#1)) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At a middle column tile the positive same-label flag takes the tile into what it held. -/
theorem middle_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 x1 : Vec F S512x256 .f32) (x2 : Vec F S512x1 .i32) (x3 : Vec F S1x512 .i32) (xs0 xs1 xs2 xs3 xs4 : Vec F S512x1 .f32) :
    sout0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay2 (k0_pay18 (F := F) (k0_pay12 x0 x1) (k0_pay14 (F := F) x2 x3)) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the greatest same-label distance takes the tile into what it held. -/
theorem last_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay19 (k0_pay12 x0 x1) (k0_pay13 x0 x1) (k0_pay14 (F := F) x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the least other-label distance takes the tile into what it held. -/
theorem last_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay20 (k0_pay13 x0 x1) (k0_pay14 (F := F) x2 x3) (constantI S512x512 1 1#1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the same-label count takes the tile into what it held. -/
theorem last_2 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay21 (k0_pay14 (F := F) x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the other-label flag takes the tile into what it held. -/
theorem last_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay1 (k0_pay17 (F := F) (k0_pay14 (F := F) x2 x3) (constantI S512x512 1 1#1)) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the positive same-label flag takes the tile into what it held. -/
theorem last_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    sout0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay2 (k0_pay18 (F := F) (k0_pay12 x0 x1) (k0_pay14 (F := F) x2 x3)) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the per-anchor loss is read off the five accumulators after the tile is taken in. -/
theorem last_out4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    out0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay4 (k0_pay21 (k0_pay14 (F := F) x2 x3) xs2) (k0_pay1 (k0_pay17 (F := F) (k0_pay14 (F := F) x2 x3) (constantI S512x512 1 1#1)) xs3) (k0_pay2 (k0_pay18 (F := F) (k0_pay12 x0 x1) (k0_pay14 (F := F) x2 x3)) xs4) (k0_pay19 (k0_pay12 x0 x1) (k0_pay13 x0 x1) (k0_pay14 (F := F) x2 x3) xs0) (k0_pay20 (k0_pay13 x0 x1) (k0_pay14 (F := F) x2 x3) (constantI S512x512 1 1#1) xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

/-- At the last column tile the validity flag is read off the count and the two flags after the tile is taken in. -/
theorem last_out5 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 x1 : Vec F S512x256 .f32) (x2 : Vec F S512x1 .i32) (x3 : Vec F S1x512 .i32) (xs0 xs1 xs2 xs3 xs4 : Vec F S512x1 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 = k0_pay5 (k0_pay21 (k0_pay14 (F := F) x2 x3) xs2) (k0_pay1 (k0_pay17 (F := F) (k0_pay14 (F := F) x2 x3) (constantI S512x512 1 1#1)) xs3) (k0_pay2 (k0_pay18 (F := F) (k0_pay12 x0 x1) (k0_pay14 (F := F) x2 x3)) xs4) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg5.read_unread, harg8.read_unread, harg9.read_unread, harg10.read_unread, harg11.read_unread, harg12.read_unread,
    View.ld_unit_zero (S := S512x256) hz2, View.ld_unit_zero (S := S512x1) hz2, View.ld_unit_zero (S := S1x512) hz2]

end Cert.KernelIdeal.Pieces

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibAxisMin.lean ====
/-
  Reductions of a two-axis array along one axis, and total sums of arrays with a single long axis, on the extended
  reals, read at an index.

  * The vector unit's minimum over the FIRST axis of an a×b array from the pattern of +∞, at column c, is the least over
    r of X(r, c); over the SECOND axis, at row p, the least over k of X(p, k) — each as a Finset.inf, whose neutral
    element is +∞.
  * Its sum over the second axis at row p is Σ_k X(p, k).
  * Its sum over both trailing axes of a 1×1×n array is Σ_j Y(0, 0, j); of a 1×n×1 array, Σ_j Y(0, j, 0): the indices
    of such an array are the coordinates of its one long axis (lastEquiv, midEquiv).
-/
import Idealize.ShloMosaic.PureOps.Ideal.Laws
import Idealize.ShloMosaic.Lib.ValueIdx

noncomputable section

open Idealize.ShloMosaic Idealize.ShloMosaic.ValueIdx Finset

namespace Idealize.ShloMosaic.AxisMin

/-- The pattern of +∞ denotes the top element of the extended reals. -/
theorem ofBits_inf : Ideal.ofBits .f32 0x7F800000#32 = (⊤ : EReal) := by
  simp [Ideal.ofBits, Ideal.ieee]

/-! ## Sums over a shape with one long axis -/

/-- The indices of a 1×1×n array are the coordinates of its last axis. -/
def lastEquiv (n : ℕ) : Fin n ≃ (⟨3, ![1, 1, n]⟩ : Shape).Idx where
  toFun j := ix3 (0 : Fin 1) (0 : Fin 1) j
  invFun y := y 2
  left_inv j := rfl
  right_inv y := funext fun a => Fin.ext (by
    match a with
    | ⟨0, _⟩ => have h : (y 0).val < 1 := (y 0).isLt; show 0 = (y 0).val; omega
    | ⟨1, _⟩ => have h : (y 1).val < 1 := (y 1).isLt; show 0 = (y 1).val; omega
    | ⟨2, _⟩ => rfl)

/-- The indices of a 1×n×1 array are the coordinates of its middle axis. -/
def midEquiv (n : ℕ) : Fin n ≃ (⟨3, ![1, n, 1]⟩ : Shape).Idx where
  toFun j := ix3 (0 : Fin 1) j (0 : Fin 1)
  invFun y := y 1
  left_inv j := rfl
  right_inv y := funext fun a => Fin.ext (by
    match a with
    | ⟨0, _⟩ => have h : (y 0).val < 1 := (y 0).isLt; show 0 = (y 0).val; omega
    | ⟨1, _⟩ => rfl
    | ⟨2, _⟩ => have h : (y 2).val < 1 := (y 2).isLt; show 0 = (y 2).val; omega)

/-! ## Reductions -/

/-- Column c with r inserted on the first axis is (r, c). -/
theorem lift_rows {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- Row p with k inserted on the second axis is (p, k). -/
theorem lift_cols {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- The least over the rows, from +∞, at column c. -/
theorem min_rows_apply {a b : ℕ} (X : FVec Ideal ⟨2, ![a, b]⟩ .f32) (h : Shape.Reduces ⟨2, ![a, b]⟩ [0] ⟨1, ![b]⟩)
    (hφ : FKind.Formats .f32) (hacc : (0x7F800000#32 : BitVec 32) = FKind.minimumf.neutral .f32 hφ) (c : Fin b) :
    multiReduction .minimumf [0] ⟨1, ![b]⟩ X 0x7F800000#32 h hφ hacc (ix1 c) = univ.inf fun r : Fin a => X (ix2 r c) := by
  refine ((multiReduction_minimumf_eq_fold X _ h hφ hacc (ix1 c)).trans (h.fold_filter_drop_single _ _ X (ix1 c))).trans ?_
  have e : (X ∘ h.lift (ix1 c)) = fun r : Fin a => X (ix2 r c) := funext fun r => congrArg X (lift_rows h c r)
  rw [e]
  show univ.fold min (Ideal.ofBits .f32 0x7F800000#32) _ = _
  rw [ofBits_inf]
  rfl

/-- The least over the columns, from +∞, at row p. -/
theorem min_cols_apply {a b : ℕ} (X : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (p : Fin a) :
    multiReduction .minimumf [1] ⟨1, ![a]⟩ X 0x7F800000#32 h hφ hacc (ix1 p) = univ.inf fun k : Fin b => X (ix2 p k) := by
  refine ((multiReduction_minimumf_eq_fold X _ h hφ hacc (ix1 p)).trans (h.fold_filter_drop_single _ _ X (ix1 p))).trans ?_
  have e : (X ∘ h.lift (ix1 p)) = fun k : Fin b => X (ix2 p k) := funext fun k => congrArg X (lift_cols h p k)
  rw [e]
  show univ.fold min (Ideal.ofBits .f32 0x7F800000#32) _ = _
  rw [ofBits_inf]
  rfl

/-- The sum over a row's coordinates, at row p. -/
theorem sum_cols_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_cols h p k)

/-- The sum of every entry of a 1×1×n array. -/
theorem sum_last_apply {n : ℕ} (Y : FVec Ideal ⟨3, ![1, 1, n]⟩ .f32) (h : Shape.Reduces ⟨3, ![1, 1, n]⟩ [1, 2] ⟨1, ![1]⟩)
    (hφ : FKind.Formats .f32) (hacc : (0x00000000#32 : BitVec 32) = FKind.add.neutral .f32 hφ) (u : Fin 1) :
    multiReduction .add [1, 2] ⟨1, ![1]⟩ Y 0x00000000#32 h hφ hacc (ix1 u) = ∑ j : Fin n, Y (ix3 (0 : Fin 1) (0 : Fin 1) j) := by
  refine (Ideal.multiReduction_add_total Y 0x00000000#32 h (fun b => by match b with | ⟨0, _⟩ => rfl) hφ hacc (ix1 u)).trans ?_
  exact (Equiv.sum_comp (lastEquiv n) Y).symm

/-- The sum of every entry of a 1×n×1 array. -/
theorem sum_mid_apply {n : ℕ} (Y : FVec Ideal ⟨3, ![1, n, 1]⟩ .f32) (h : Shape.Reduces ⟨3, ![1, n, 1]⟩ [1, 2] ⟨1, ![1]⟩)
    (hφ : FKind.Formats .f32) (hacc : (0x00000000#32 : BitVec 32) = FKind.add.neutral .f32 hφ) (u : Fin 1) :
    multiReduction .add [1, 2] ⟨1, ![1]⟩ Y 0x00000000#32 h hφ hacc (ix1 u) = ∑ j : Fin n, Y (ix3 (0 : Fin 1) j (0 : Fin 1)) := by
  refine (Ideal.multiReduction_add_total Y 0x00000000#32 h (fun b => by match b with | ⟨0, _⟩ => rfl) hφ hacc (ix1 u)).trans ?_
  exact (Equiv.sum_comp (midEquiv n) Y).symm

end Idealize.ShloMosaic.AxisMin

end
-- ==== Proof.TileStep.lean ====
/-
  One 512×512 tile of the pairwise-distance computation, read at an index, on the extended reals.

  For a row block x0 and a column block x1 (512 points with 256 coordinates each) and their labels x2 (a column) and
  x3 (a row):
    sqNorm x p      = Σ_k x(p,k)²                 inner x0 x1 p q = Σ_k x0(p,k)·x1(q,k)
    d2 x0 x1 p q    = max (sqNorm x0 p + sqNorm x1 q − 2·inner x0 x1 p q) 0
    same x2 x3 p q  : row p of the row block and row q of the column block carry the same label.
  The body's values at (p, q): the clamped squared distance is d2, the positivity mask is 0 < d2, the distance is √d2
  where d2 is positive and 0 elsewhere, the label mask is same. Its per-row accumulators at row p, from their old
  values a(p): the greatest same-label positive distance is max a(p) (sup over q of the masked distances, −∞ where
  masked out), the least other-label distance min a(p) (inf over q, +∞ where masked out), the same-label count
  a(p) + Σ_q [same], and the two 0/1 flags are the sup over q of [¬same] and of [same ∧ 0 < d2]. At the last column
  tile an anchor is valid when its count exceeds 1 and both flags are positive; its output is the hinge of the two
  extreme distances where valid, else 0, and the flag itself as 1 or 0.
-/
import proofs.«162495_j16088947491301_1_alg».proof.Proof.Gen.KernelIdeal.Skeleton
import proofs.«162495_j16088947491301_1_alg».proof.Proof.RowSpec
import proofs.«162495_j16088947491301_1_alg».proof.Proof.LibPlainDot
import proofs.«162495_j16088947491301_1_alg».proof.Proof.LibAxisFold
import proofs.«162495_j16088947491301_1_alg».proof.Proof.LibAxisMin
import proofs.«162495_j16088947491301_1_alg».proof.Proof.LibKeepdims
import Idealize.ShloMosaic.Lib.ValueLayout
import Idealize.ShloMosaic.Lib.IdealHost

noncomputable section

open scoped BigOperators

namespace Cert.KernelIdeal.TileStep

open Idealize.ShloMosaic Idealize.ShloMosaic.ValueIdx

/-- The squared norm of row p of a block. -/
def sqNorm (x : Vec Ideal S512x256 .f32) (p : Fin 512) : EReal := ∑ k : Fin 256, x (ix2 p k) * x (ix2 p k)

/-- The inner product of row p of one block with row q of another. -/
def inner (x0 x1 : Vec Ideal S512x256 .f32) (p q : Fin 512) : EReal := ∑ k : Fin 256, x0 (ix2 p k) * x1 (ix2 q k)

/-- The clamped squared distance between row p of the row block and row q of the column block. -/
def d2 (x0 x1 : Vec Ideal S512x256 .f32) (p q : Fin 512) : EReal :=
  RowSpec.d2s (sqNorm x0 p) (sqNorm x1 q) (inner x0 x1 p q)

/-! ## Small facts on one-bit words and on the literal words -/

theorem select_ofBool {α : Type} (P : Prop) [Decidable P] (a b : α) :
    Scalar.select (BitVec.ofBool (decide P)) a b = if P then a else b := by
  by_cases h : P
  · simp [Scalar.select, h]
  · simp [Scalar.select, h]

theorem andi_ofBool (a b : Bool) : IntOp.andi (BitVec.ofBool a) (BitVec.ofBool b) = BitVec.ofBool (a && b) := by
  cases a <;> cases b <;> rfl

theorem xori_ofBool_one (a : Bool) : IntOp.xori (BitVec.ofBool a) 1#1 = BitVec.ofBool (!a) := by
  cases a <;> rfl

/-- A one-bit word widened without sign and read as a number is 1 or 0. -/
theorem sitofp_extui_ofBool (b : Bool) :
    FloatOps.sitofp (F := Ideal) .f32 ((BitVec.ofBool b).setWidth 32) = if b then (1 : EReal) else 0 := by
  cases b
  · show (((0#32 : BitVec 32).toInt : ℝ) : EReal) = 0
    simp
  · show (((1#32 : BitVec 32).toInt : ℝ) : EReal) = 1
    simp

theorem ofBits_neg_inf : Ideal.ofBits .f32 0xFF800000#32 = (⊥ : EReal) := by
  simp [Ideal.ofBits, Ideal.ieee]

/-! ## The tile's distances -/

theorem sqNorm_read (x : Vec Ideal S512x256 .f32) (p : Fin 512) (hφ : FKind.Formats .f32)
    (hacc : (0x00000000#32 : BitVec 32) = FKind.add.neutral .f32 hφ) :
    multiReduction (F := Ideal) .add [1] S512 (mulf (x : FVec Ideal S512x256 .f32) x) 0x00000000#32 Gen.reduces_S512x256_S512 hφ hacc (ix1 p)
      = sqNorm x p :=
  AxisFold.sum_second_apply (mulf (x : FVec Ideal S512x256 .f32) x) Gen.reduces_S512x256_S512 hφ hacc p

theorem dims_plain : dot_S512x256_S256x512_S512x512_1_0_0_1_n_n = DotDims.plain 512 256 512 := rfl

theorem inner_read (x0 x1 : Vec Ideal S512x256 .f32) (p q : Fin 512) :
    matmul (F := Ideal) dot_S512x256_S256x512_S512x512_1_0_0_1_n_n none (truncf .bf16 (x0 : FVec Ideal S512x256 .f32) Gen.bitsLt_bf16_f32)
        (transpose S256x512 [1, 0] (truncf .bf16 (x1 : FVec Ideal S512x256 .f32) Gen.bitsLt_bf16_f32) Gen.transposes_S512x256_p1_0_S256x512)
        (constant (F := Ideal) S512x512 .f32 0x00000000#32) (ix2 p q)
      = inner x0 x1 p q := by
  rw [dims_plain]
  refine (PlainDot.matmul_zero_apply none _ _ p q).trans ?_
  refine Finset.sum_congr rfl fun k _ => ?_
  rw [transpose_ix2_apply]
  rfl

theorem pay11_apply (x0 x1 : Vec Ideal S512x256 .f32) (p q : Fin 512) :
    Gen.k0_pay11 x0 x1 (ix2 p q) = d2 x0 x1 p q := by
  unfold Gen.k0_pay11
  dsimp only
  have e1 := (Keepdims.broadcastTo_a1_ab_apply
      (shapeCast S512x1 (multiReduction (F := Ideal) .add [1] S512 (mulf (x0 : FVec Ideal S512x256 .f32) x0) 0x00000000#32 Gen.reduces_S512x256_S512 (.inl rfl) rfl)
        Gen.shapeCasts_S512_S512x1) Gen.broadcasts_S512x1_S512x512 p q).trans
    ((Keepdims.shapeCast_a_a1_apply _ Gen.shapeCasts_S512_S512x1 p 0).trans (sqNorm_read x0 p (.inl rfl) rfl))
  have e2 := (broadcastTo_1b_ab_apply
      (transpose S1x512 [1, 0]
        (shapeCast S512x1 (multiReduction (F := Ideal) .add [1] S512 (mulf (x1 : FVec Ideal S512x256 .f32) x1) 0x00000000#32 Gen.reduces_S512x256_S512 (.inl rfl) rfl)
          Gen.shapeCasts_S512_S512x1) Gen.transposes_S512x1_p1_0_S1x512) Gen.broadcasts_S1x512_S512x512 p q).trans
    ((transpose_ix2_apply _ Gen.transposes_S512x1_p1_0_S1x512 (0 : Fin 1) q).trans
      ((Keepdims.shapeCast_a_a1_apply _ Gen.shapeCasts_S512_S512x1 q 0).trans (sqNorm_read x1 q (.inl rfl) rfl)))
  have e3 := inner_read x0 x1 p q
  simp only [maximumf_apply, subf_apply, addf_apply, mulf_apply, broadcast_apply]
  rw [e1, e2, e3]
  unfold d2 RowSpec.d2s RowSpec.two
  rw [Ideal.ofBits_def, Ideal.ofBits_def, Ideal.ofBits_zero_f32]

theorem pay12_apply (x0 x1 : Vec Ideal S512x256 .f32) (p q : Fin 512) :
    Gen.k0_pay12 x0 x1 (ix2 p q) = BitVec.ofBool (decide (0 < d2 x0 x1 p q)) := by
  unfold Gen.k0_pay12
  try dsimp only
  rw [cmpf_apply, pay11_apply, broadcast_apply]
  show Ideal.cmp .ogt _ (Ideal.ofBits .f32 0x00000000#32) = _
  rw [Ideal.ofBits_zero_f32]
  rfl

theorem pay13_apply (x0 x1 : Vec Ideal S512x256 .f32) (p q : Fin 512) :
    Gen.k0_pay13 x0 x1 (ix2 p q) = RowSpec.dists (d2 x0 x1 p q) := by
  unfold Gen.k0_pay13
  try dsimp only
  rw [select_apply, pay12_apply, select_ofBool]
  show (if 0 < d2 x0 x1 p q then
      Ideal.sqrt (Scalar.select (Gen.k0_pay12 x0 x1 (ix2 p q)) (Gen.k0_pay11 x0 x1 (ix2 p q)) (Ideal.ofBits .f32 0x3F800000#32))
    else Ideal.ofBits .f32 0x00000000#32) = _
  rw [pay12_apply, pay11_apply, select_ofBool, Ideal.ofBits_zero_f32]
  unfold RowSpec.dists
  by_cases h : 0 < d2 x0 x1 p q
  · rw [if_pos h, if_pos h, if_pos h]
  · rw [if_neg h, if_neg h]

/-- Row p of the row block and row q of the column block carry the same label. -/
def same (x2 : Vec Ideal S512x1 .i32) (x3 : Vec Ideal S1x512 .i32) (p q : Fin 512) : Prop :=
  x2 (ix2 p (0 : Fin 1)) = x3 (ix2 (0 : Fin 1) q)

instance (x2 : Vec Ideal S512x1 .i32) (x3 : Vec Ideal S1x512 .i32) (p q : Fin 512) : Decidable (same x2 x3 p q) := by
  unfold same; infer_instance

theorem pay14_apply (x2 : Vec Ideal S512x1 .i32) (x3 : Vec Ideal S1x512 .i32) (p q : Fin 512) :
    Gen.k0_pay14 (F := Ideal) x2 x3 (ix2 p q) = BitVec.ofBool (decide (same x2 x3 p q)) := by
  unfold Gen.k0_pay14
  try dsimp only
  rw [shapeCast_self, shapeCast_self]
  show IntOp.cmpi .eq (broadcastTo S512x512 x2 Gen.broadcasts_S512x1_S512x512 (ix2 p q))
      (broadcastTo S512x512 x3 Gen.broadcasts_S1x512_S512x512 (ix2 p q)) = _
  rw [Keepdims.broadcastTo_a1_ab_apply, broadcastTo_1b_ab_apply]
  by_cases h : same x2 x3 p q
  · rw [decide_eq_true h]; exact IntOp.cmpi_eq.mpr h
  · rw [decide_eq_false h]; exact eq_zero_of_ne_one (fun h1 => h (IntOp.cmpi_eq.mp h1))

/-! ## Row reductions of a 512×512 tile, read at a row -/

theorem fold_max_bot (f : Fin 512 → EReal) :
    Finset.univ.fold max (Ideal.ofBits .f32 0xFF800000#32) f = Finset.univ.sup f := by
  rw [ofBits_neg_inf]; rfl

theorem rowMax_read (X : FVec Ideal S512x512 .f32) (p : Fin 512) (hφ : FKind.Formats .f32)
    (hacc : (0xFF800000#32 : BitVec 32) = FKind.maximumf.neutral .f32 hφ) :
    shapeCast S512x1 (multiReduction (F := Ideal) .maximumf [1] S512 X 0xFF800000#32 Gen.reduces_S512x512_S512 hφ hacc)
        Gen.shapeCasts_S512_S512x1 (ix2 p (0 : Fin 1))
      = Finset.univ.sup fun q : Fin 512 => X (ix2 p q) :=
  (Keepdims.shapeCast_a_a1_apply _ Gen.shapeCasts_S512_S512x1 p 0).trans
    ((AxisFold.max_second_apply X 0xFF800000#32 Gen.reduces_S512x512_S512 hφ hacc p).trans (fold_max_bot _))

theorem rowMin_read (X : FVec Ideal S512x512 .f32) (p : Fin 512) (hφ : FKind.Formats .f32)
    (hacc : (0x7F800000#32 : BitVec 32) = FKind.minimumf.neutral .f32 hφ) :
    shapeCast S512x1 (multiReduction (F := Ideal) .minimumf [1] S512 X 0x7F800000#32 Gen.reduces_S512x512_S512 hφ hacc)
        Gen.shapeCasts_S512_S512x1 (ix2 p (0 : Fin 1))
      = Finset.univ.inf fun q : Fin 512 => X (ix2 p q) :=
  (Keepdims.shapeCast_a_a1_apply _ Gen.shapeCasts_S512_S512x1 p 0).trans
    (AxisMin.min_cols_apply X Gen.reduces_S512x512_S512 hφ hacc p)

theorem rowSum_read (X : FVec Ideal S512x512 .f32) (p : Fin 512) (hφ : FKind.Formats .f32)
    (hacc : (0x00000000#32 : BitVec 32) = FKind.add.neutral .f32 hφ) :
    shapeCast S512x1 (multiReduction (F := Ideal) .add [1] S512 X 0x00000000#32 Gen.reduces_S512x512_S512 hφ hacc)
        Gen.shapeCasts_S512_S512x1 (ix2 p (0 : Fin 1))
      = ∑ q : Fin 512, X (ix2 p q) :=
  (Keepdims.shapeCast_a_a1_apply _ Gen.shapeCasts_S512_S512x1 p 0).trans
    (AxisFold.sum_second_apply X Gen.reduces_S512x512_S512 hφ hacc p)

/-! ## The accumulator updates, over any masks and distances -/

theorem pay19_read (v25 v37 : IVec S512x512 1) (v30 : FVec Ideal S512x512 .f32) (a : Vec Ideal S512x1 .f32) (p : Fin 512) :
    Gen.k0_pay19 v25 v30 v37 a (ix2 p (0 : Fin 1))
      = max (a (ix2 p (0 : Fin 1)))
          (Finset.univ.sup fun q : Fin 512 =>
            Scalar.select (IntOp.andi (v37 (ix2 p q)) (v25 (ix2 p q))) (v30 (ix2 p q)) (⊥ : EReal)) := by
  unfold Gen.k0_pay19
  try dsimp only
  rw [shapeCast_self, maximumf_apply]
  refine congrArg (max (a (ix2 p (0 : Fin 1)))) ?_
  refine (rowMax_read _ p (.inl rfl) rfl).trans ?_
  refine Finset.sup_congr rfl fun q _ => ?_
  show Scalar.select (IntOp.andi _ _) _ (Ideal.ofBits .f32 0xFF800000#32) = _
  rw [ofBits_neg_inf]

theorem pay20_read (v37 cst : IVec S512x512 1) (v30 : FVec Ideal S512x512 .f32) (a : Vec Ideal S512x1 .f32) (p : Fin 512) :
    Gen.k0_pay20 v30 v37 cst a (ix2 p (0 : Fin 1))
      = min (a (ix2 p (0 : Fin 1)))
          (Finset.univ.inf fun q : Fin 512 =>
            Scalar.select (IntOp.xori (v37 (ix2 p q)) (cst (ix2 p q))) (v30 (ix2 p q)) (⊤ : EReal)) := by
  unfold Gen.k0_pay20
  try dsimp only
  rw [shapeCast_self, minimumf_apply]
  refine congrArg (min (a (ix2 p (0 : Fin 1)))) ?_
  refine (rowMin_read _ p (.inl rfl) rfl).trans ?_
  refine Finset.inf_congr rfl fun q _ => ?_
  show Scalar.select (IntOp.xori _ _) _ (Ideal.ofBits .f32 0x7F800000#32) = _
  rw [AxisMin.ofBits_inf]

theorem pay21_read (v37 : IVec S512x512 1) (a : Vec Ideal S512x1 .f32) (p : Fin 512) :
    Gen.k0_pay21 (F := Ideal) v37 a (ix2 p (0 : Fin 1))
      = a (ix2 p (0 : Fin 1)) + ∑ q : Fin 512, FloatOps.sitofp (F := Ideal) .f32 ((v37 (ix2 p q)).setWidth 32) := by
  unfold Gen.k0_pay21
  try dsimp only
  rw [shapeCast_self, addf_apply]
  refine congrArg (a (ix2 p (0 : Fin 1)) + ·) ?_
  exact rowSum_read _ p (.inl rfl) rfl

theorem pay17_read (v37 cst : IVec S512x512 1) (p : Fin 512) :
    Gen.k0_pay17 (F := Ideal) v37 cst (ix2 p (0 : Fin 1))
      = Finset.univ.sup fun q : Fin 512 =>
          FloatOps.sitofp (F := Ideal) .f32 ((IntOp.xori (v37 (ix2 p q)) (cst (ix2 p q))).setWidth 32) := by
  unfold Gen.k0_pay17
  try dsimp only
  exact rowMax_read _ p (.inl rfl) rfl

theorem pay18_read (v25 v37 : IVec S512x512 1) (p : Fin 512) :
    Gen.k0_pay18 (F := Ideal) v25 v37 (ix2 p (0 : Fin 1))
      = Finset.univ.sup fun q : Fin 512 =>
          FloatOps.sitofp (F := Ideal) .f32 ((IntOp.andi (v37 (ix2 p q)) (v25 (ix2 p q))).setWidth 32) := by
  unfold Gen.k0_pay18
  try dsimp only
  exact rowMax_read _ p (.inl rfl) rfl

theorem pay1_apply (v55 : FVec Ideal S512x1 .f32) (v75 : Vec Ideal S512x1 .f32) (i : S512x1.Idx) :
    Gen.k0_pay1 v55 v75 i = max (v75 i) (v55 i) := by
  unfold Gen.k0_pay1
  try dsimp only
  rw [shapeCast_self, maximumf_apply]

theorem pay2_apply (v59 : FVec Ideal S512x1 .f32) (v80 : Vec Ideal S512x1 .f32) (i : S512x1.Idx) :
    Gen.k0_pay2 v59 v80 i = max (v80 i) (v59 i) := by
  unfold Gen.k0_pay2
  try dsimp only
  rw [shapeCast_self, maximumf_apply]

/-! ## The accumulator updates of a tile, from its two blocks and its labels -/

theorem pay19_apply (x0 x1 : Vec Ideal S512x256 .f32) (x2 : Vec Ideal S512x1 .i32) (x3 : Vec Ideal S1x512 .i32)
    (a : Vec Ideal S512x1 .f32) (p : Fin 512) :
    Gen.k0_pay19 (Gen.k0_pay12 x0 x1) (Gen.k0_pay13 x0 x1) (Gen.k0_pay14 (F := Ideal) x2 x3) a (ix2 p (0 : Fin 1))
      = max (a (ix2 p (0 : Fin 1)))
          (Finset.univ.sup fun q : Fin 512 =>
            if same x2 x3 p q ∧ 0 < d2 x0 x1 p q then RowSpec.dists (d2 x0 x1 p q) else ⊥) := by
  rw [pay19_read]
  refine congrArg (max _) (Finset.sup_congr rfl fun q _ => ?_)
  rw [pay12_apply, pay13_apply, pay14_apply, andi_ofBool, ← Bool.decide_and, select_ofBool]

theorem pay20_apply (x0 x1 : Vec Ideal S512x256 .f32) (x2 : Vec Ideal S512x1 .i32) (x3 : Vec Ideal S1x512 .i32)
    (a : Vec Ideal S512x1 .f32) (p : Fin 512) :
    Gen.k0_pay20 (Gen.k0_pay13 x0 x1) (Gen.k0_pay14 (F := Ideal) x2 x3) (constantI S512x512 1 1#1) a (ix2 p (0 : Fin 1))
      = min (a (ix2 p (0 : Fin 1)))
          (Finset.univ.inf fun q : Fin 512 => if ¬ same x2 x3 p q then RowSpec.dists (d2 x0 x1 p q) else ⊤) := by
  rw [pay20_read]
  refine congrArg (min _) (Finset.inf_congr rfl fun q _ => ?_)
  rw [pay13_apply, pay14_apply, constantI_apply, xori_ofBool_one, ← decide_not, select_ofBool]

theorem pay21_apply (x2 : Vec Ideal S512x1 .i32) (x3 : Vec Ideal S1x512 .i32) (a : Vec Ideal S512x1 .f32) (p : Fin 512) :
    Gen.k0_pay21 (F := Ideal) (Gen.k0_pay14 (F := Ideal) x2 x3) a (ix2 p (0 : Fin 1))
      = a (ix2 p (0 : Fin 1)) + ∑ q : Fin 512, if same x2 x3 p q then (1 : EReal) else 0 := by
  rw [pay21_read]
  refine congrArg (a (ix2 p (0 : Fin 1)) + ·) (Finset.sum_congr rfl fun q _ => ?_)
  rw [pay14_apply, sitofp_extui_ofBool]
  simp only [decide_eq_true_eq]

theorem pay17_apply (x2 : Vec Ideal S512x1 .i32) (x3 : Vec Ideal S1x512 .i32) (p : Fin 512) :
    Gen.k0_pay17 (F := Ideal) (Gen.k0_pay14 (F := Ideal) x2 x3) (constantI S512x512 1 1#1) (ix2 p (0 : Fin 1))
      = Finset.univ.sup fun q : Fin 512 => if ¬ same x2 x3 p q then (1 : EReal) else 0 := by
  rw [pay17_read]
  refine Finset.sup_congr rfl fun q _ => ?_
  rw [pay14_apply, constantI_apply, xori_ofBool_one, ← decide_not, sitofp_extui_ofBool]
  simp only [decide_eq_true_eq]

theorem pay18_apply (x0 x1 : Vec Ideal S512x256 .f32) (x2 : Vec Ideal S512x1 .i32) (x3 : Vec Ideal S1x512 .i32) (p : Fin 512) :
    Gen.k0_pay18 (F := Ideal) (Gen.k0_pay12 x0 x1) (Gen.k0_pay14 (F := Ideal) x2 x3) (ix2 p (0 : Fin 1))
      = Finset.univ.sup fun q : Fin 512 => if same x2 x3 p q ∧ 0 < d2 x0 x1 p q then (1 : EReal) else 0 := by
  rw [pay18_read]
  refine Finset.sup_congr rfl fun q _ => ?_
  rw [pay12_apply, pay14_apply, andi_ofBool, ← Bool.decide_and, sitofp_extui_ofBool]
  simp only [decide_eq_true_eq]

/-! ## The initial accumulators -/

theorem pay6_apply (i : S512x1.Idx) : Gen.k0_pay6 (F := Ideal) i = (⊥ : EReal) := by
  unfold Gen.k0_pay6
  rw [shapeCast_self, broadcast_apply]
  exact ofBits_neg_inf

theorem pay7_apply (i : S512x1.Idx) : Gen.k0_pay7 (F := Ideal) i = (⊤ : EReal) := by
  unfold Gen.k0_pay7
  rw [shapeCast_self, broadcast_apply]
  exact AxisMin.ofBits_inf

theorem pay8_apply (i : S512x1.Idx) : Gen.k0_pay8 (F := Ideal) i = (0 : EReal) := by
  unfold Gen.k0_pay8
  rw [shapeCast_self, broadcast_apply]
  exact Ideal.ofBits_zero_f32

theorem pay9_apply (i : S512x1.Idx) : Gen.k0_pay9 (F := Ideal) i = (0 : EReal) := by
  unfold Gen.k0_pay9
  rw [shapeCast_self, broadcast_apply]
  exact Ideal.ofBits_zero_f32

theorem pay10_apply (i : S512x1.Idx) : Gen.k0_pay10 (F := Ideal) i = (0 : EReal) := by
  unfold Gen.k0_pay10
  rw [shapeCast_self, broadcast_apply]
  exact Ideal.ofBits_zero_f32

/-! ## The outputs at the last column tile -/

/-- An anchor counts: more than one row of its label, some row of another label, some positive same-label distance. -/
def validAt (cnt an ap : EReal) : Prop := (1 < cnt ∧ 0 < an) ∧ 0 < ap

instance (cnt an ap : EReal) : Decidable (validAt cnt an ap) := by unfold validAt; infer_instance

theorem pay3_apply (cnt an ap : Vec Ideal S512x1 .f32) (i : S512x1.Idx) :
    Gen.k0_pay3 cnt an ap i = BitVec.ofBool (decide (validAt (cnt i) (an i) (ap i))) := by
  unfold Gen.k0_pay3
  try dsimp only
  show IntOp.andi (IntOp.andi (Ideal.cmp .ogt (cnt i) (Ideal.ofBits .f32 0x3F800000#32))
      (Ideal.cmp .ogt (an i) (Ideal.ofBits .f32 0x00000000#32))) (Ideal.cmp .ogt (ap i) (Ideal.ofBits .f32 0x00000000#32)) = _
  rw [Ideal.ofBits_zero_f32, Ideal.ofBits_one_f32]
  show IntOp.andi (IntOp.andi (BitVec.ofBool (decide (1 < cnt i))) (BitVec.ofBool (decide (0 < an i))))
      (BitVec.ofBool (decide (0 < ap i))) = _
  rw [andi_ofBool, andi_ofBool, ← Bool.decide_and, ← Bool.decide_and]
  rfl

theorem pay4_apply (cnt an ap hp hn : Vec Ideal S512x1 .f32) (i : S512x1.Idx) :
    Gen.k0_pay4 cnt an ap hp hn i
      = if validAt (cnt i) (an i) (ap i) then RowSpec.hinge (hp i) (hn i) else 0 := by
  unfold Gen.k0_pay4
  try dsimp only
  rw [select_apply, pay3_apply, select_ofBool]
  show (if validAt (cnt i) (an i) (ap i) then
      max (hp i - hn i + Ideal.ofBits .f32 0x3E99999A#32) (Ideal.ofBits .f32 0x00000000#32)
    else Ideal.ofBits .f32 0x00000000#32) = _
  rw [Ideal.ofBits_zero_f32]
  rfl

theorem pay5_apply (cnt an ap : Vec Ideal S512x1 .f32) (i : S512x1.Idx) :
    Gen.k0_pay5 cnt an ap i = if validAt (cnt i) (an i) (ap i) then (1 : EReal) else 0 := by
  unfold Gen.k0_pay5
  try dsimp only
  rw [sitofp_apply, extui_apply, pay3_apply, sitofp_extui_ofBool]
  simp only [decide_eq_true_eq]

/-! ## The five per-tile terms of a row, named -/

section Tile

variable (x0 x1 : Vec Ideal S512x256 .f32) (x2 : Vec Ideal S512x1 .i32) (x3 : Vec Ideal S1x512 .i32) (p : Fin 512)

/-- The greatest distance from row p to a same-label row of the column block at a positive squared distance (−∞ if none). -/
def hpTile : EReal :=
  Finset.univ.sup fun q : Fin 512 => if same x2 x3 p q ∧ 0 < d2 x0 x1 p q then RowSpec.dists (d2 x0 x1 p q) else ⊥

/-- The least distance from row p to an other-label row of the column block (+∞ if none). -/
def hnTile : EReal :=
  Finset.univ.inf fun q : Fin 512 => if ¬ same x2 x3 p q then RowSpec.dists (d2 x0 x1 p q) else ⊤

/-- How many rows of the column block carry the label of row p. -/
def cntTile : EReal := ∑ q : Fin 512, if same x2 x3 p q then (1 : EReal) else 0

/-- 1 if some row of the column block carries another label than row p, else 0. -/
def negTile : EReal := Finset.univ.sup fun q : Fin 512 => if ¬ same x2 x3 p q then (1 : EReal) else 0

/-- 1 if some same-label row of the column block is at a positive squared distance from row p, else 0. -/
def posTile : EReal :=
  Finset.univ.sup fun q : Fin 512 => if same x2 x3 p q ∧ 0 < d2 x0 x1 p q then (1 : EReal) else 0

end Tile

theorem pay19_tile (x0 x1 : Vec Ideal S512x256 .f32) (x2 : Vec Ideal S512x1 .i32) (x3 : Vec Ideal S1x512 .i32)
    (a : Vec Ideal S512x1 .f32) (p : Fin 512) :
    Gen.k0_pay19 (Gen.k0_pay12 x0 x1) (Gen.k0_pay13 x0 x1) (Gen.k0_pay14 (F := Ideal) x2 x3) a (ix2 p (0 : Fin 1))
      = max (a (ix2 p (0 : Fin 1))) (hpTile x0 x1 x2 x3 p) :=
  pay19_apply x0 x1 x2 x3 a p

theorem pay20_tile (x0 x1 : Vec Ideal S512x256 .f32) (x2 : Vec Ideal S512x1 .i32) (x3 : Vec Ideal S1x512 .i32)
    (a : Vec Ideal S512x1 .f32) (p : Fin 512) :
    Gen.k0_pay20 (Gen.k0_pay13 x0 x1) (Gen.k0_pay14 (F := Ideal) x2 x3) (constantI S512x512 1 1#1) a (ix2 p (0 : Fin 1))
      = min (a (ix2 p (0 : Fin 1))) (hnTile x0 x1 x2 x3 p) :=
  pay20_apply x0 x1 x2 x3 a p

theorem pay21_tile (x2 : Vec Ideal S512x1 .i32) (x3 : Vec Ideal S1x512 .i32)
    (a : Vec Ideal S512x1 .f32) (p : Fin 512) :
    Gen.k0_pay21 (F := Ideal) (Gen.k0_pay14 (F := Ideal) x2 x3) a (ix2 p (0 : Fin 1))
      = a (ix2 p (0 : Fin 1)) + cntTile x2 x3 p :=
  pay21_apply x2 x3 a p

theorem pay1_tile (x2 : Vec Ideal S512x1 .i32) (x3 : Vec Ideal S1x512 .i32)
    (a : Vec Ideal S512x1 .f32) (p : Fin 512) :
    Gen.k0_pay1 (Gen.k0_pay17 (F := Ideal) (Gen.k0_pay14 (F := Ideal) x2 x3) (constantI S512x512 1 1#1)) a (ix2 p (0 : Fin 1))
      = max (a (ix2 p (0 : Fin 1))) (negTile x2 x3 p) := by
  rw [pay1_apply, pay17_apply]
  rfl

theorem pay2_tile (x0 x1 : Vec Ideal S512x256 .f32) (x2 : Vec Ideal S512x1 .i32) (x3 : Vec Ideal S1x512 .i32)
    (a : Vec Ideal S512x1 .f32) (p : Fin 512) :
    Gen.k0_pay2 (Gen.k0_pay18 (F := Ideal) (Gen.k0_pay12 x0 x1) (Gen.k0_pay14 (F := Ideal) x2 x3)) a (ix2 p (0 : Fin 1))
      = max (a (ix2 p (0 : Fin 1))) (posTile x0 x1 x2 x3 p) := by
  rw [pay2_apply, pay18_apply]
  rfl

end Cert.KernelIdeal.TileStep

end
-- ==== Proof.RowTile.lean ====
/-
  The five per-row accumulators along a row tile, and the two result blocks at its last column tile.

  Grid point 16·qi + ki is column tile ki of row tile qi. Writing, for the four blocks that a point reads, the tile
  terms of row p (greatest same-label positive distance, least other-label distance, same-label count, other-label
  flag, positive same-label flag), each accumulator after column tile ki is the fold of its tile terms over the column
  tiles 0 … ki of the row tile: a maximum from −∞, a minimum from +∞, a sum from 0, and for the two flags a maximum from
  0. This is an induction along the column tiles: the first resets and takes its tile in, every later one takes its tile
  into what the point before left. At column tile 15 the per-anchor block holds the hinge of the two extreme distances
  where the anchor is valid (count above 1, both flags positive) and 0 elsewhere, and the flag block holds 1 or 0.
-/
import proofs.«162495_j16088947491301_1_alg».proof.Proof.Pieces
import proofs.«162495_j16088947491301_1_alg».proof.Proof.TileStep

set_option maxRecDepth 16384

noncomputable section

open scoped BigOperators

namespace Cert.KernelIdeal.RowTile

open Cert.KernelIdeal.Entry Cert.KernelIdeal.Cases
open Cert.KernelIdeal Cert.KernelIdeal.Gen
open Idealize.ShloMosaic Idealize.ShloMosaic.TcCoe Idealize.ShloMosaic.ValueIdx
open Idealize.SL Idealize.SL.Sem

/-! ## Folds along the sixteen column tiles of a row tile -/

theorem filter_le_zero : (Finset.univ.filter fun j : Fin 16 => j ≤ 0) = {0} := by decide

theorem filter_le_succ (i : Fin 15) :
    (Finset.univ.filter fun j : Fin 16 => j ≤ i.succ) = insert i.succ (Finset.univ.filter fun j : Fin 16 => j ≤ i.castSucc) := by
  ext j
  simp only [Finset.mem_filter, Finset.mem_univ, true_and, Finset.mem_insert, Fin.le_def, Fin.val_succ, Fin.coe_castSucc,
    Fin.ext_iff]
  omega

theorem succ_not_mem (i : Fin 15) : i.succ ∉ Finset.univ.filter fun j : Fin 16 => j ≤ i.castSucc := by
  simp only [Finset.mem_filter, Finset.mem_univ, true_and, Fin.le_def, Fin.val_succ, Fin.coe_castSucc]
  omega

/-- A running maximum from z over the first k + 1 terms. -/
theorem fold_max (z : EReal) (a f : Fin 16 → EReal) (h0 : a 0 = max z (f 0))
    (hs : ∀ i : Fin 15, a i.succ = max (a i.castSucc) (f i.succ)) (k : Fin 16) :
    a k = max z ((Finset.univ.filter fun j : Fin 16 => j ≤ k).sup f) := by
  induction k using Fin.induction with
  | zero => rw [filter_le_zero, Finset.sup_singleton]; exact h0
  | succ i ih =>
    rw [hs i, ih, filter_le_succ, Finset.sup_insert, max_assoc]
    exact congrArg (max z) (max_comm _ _)

/-- A running minimum from z over the first k + 1 terms. -/
theorem fold_min (z : EReal) (a f : Fin 16 → EReal) (h0 : a 0 = min z (f 0))
    (hs : ∀ i : Fin 15, a i.succ = min (a i.castSucc) (f i.succ)) (k : Fin 16) :
    a k = min z ((Finset.univ.filter fun j : Fin 16 => j ≤ k).inf f) := by
  induction k using Fin.induction with
  | zero => rw [filter_le_zero, Finset.inf_singleton]; exact h0
  | succ i ih =>
    rw [hs i, ih, filter_le_succ, Finset.inf_insert, min_assoc]
    exact congrArg (min z) (min_comm _ _)

/-- A running sum from z over the first k + 1 terms. -/
theorem fold_add (z : EReal) (a f : Fin 16 → EReal) (h0 : a 0 = z + f 0)
    (hs : ∀ i : Fin 15, a i.succ = a i.castSucc + f i.succ) (k : Fin 16) :
    a k = z + ∑ j ∈ Finset.univ.filter (fun j : Fin 16 => j ≤ k), f j := by
  induction k using Fin.induction with
  | zero => rw [filter_le_zero, Finset.sum_singleton]; exact h0
  | succ i ih =>
    rw [hs i, ih, filter_le_succ, Finset.sum_insert (succ_not_mem i), add_assoc]
    exact congrArg (z + ·) (add_comm _ _)

variable (m : (ℓ : Loc nD τ sig) → Buf (Elt Ideal) ℓ) (c : Dev nD)

/-! ## The tile terms at a grid point, from the four input blocks the point reads -/

/-- The tile's greatest same-label positive distance of row p at grid point t. -/
def hpAt (t : Fin cfg0.N) (p : Fin 512) : EReal := TileStep.hpTile (iblk m c 0 t) (iblk m c 1 t) (iblk m c 2 t) (iblk m c 3 t) p

/-- The tile's least other-label distance of row p at grid point t. -/
def hnAt (t : Fin cfg0.N) (p : Fin 512) : EReal := TileStep.hnTile (iblk m c 0 t) (iblk m c 1 t) (iblk m c 2 t) (iblk m c 3 t) p

/-- The tile's same-label count of row p at grid point t. -/
def cntAt (t : Fin cfg0.N) (p : Fin 512) : EReal := TileStep.cntTile (iblk m c 2 t) (iblk m c 3 t) p

/-- The tile's other-label flag of row p at grid point t. -/
def negAt (t : Fin cfg0.N) (p : Fin 512) : EReal := TileStep.negTile (iblk m c 2 t) (iblk m c 3 t) p

/-- The tile's positive same-label flag of row p at grid point t. -/
def posAt (t : Fin cfg0.N) (p : Fin 512) : EReal := TileStep.posTile (iblk m c 0 t) (iblk m c 1 t) (iblk m c 2 t) (iblk m c 3 t) p

/-! ## One step: what an accumulator holds after a point, from what the point before left -/

/-- At the first column tile of a row tile the greatest same-label positive distance starts from its reset value. -/
theorem s0_first (t : Fin cfg0.N) (h0 : t.val % 16 = 0) (p : Fin 512) :
    (outsAt0 m c t.val t.isLt).s0 (ix2 p (0 : Fin 1)) = max (⊥ : EReal) (hpAt m c t p) := by
  have h1 : ¬t.val % 16 = 15 := by omega
  rw [outsAt0_A m c t h0 h1]
  dsimp only
  refine (congrFun (Pieces.first_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) (ix2 p (0 : Fin 1))).trans ?_
  refine (TileStep.pay19_tile (iblk m c 0 t) (iblk m c 1 t) (iblk m c 2 t) (iblk m c 3 t) _ p).trans ?_
  rw [TileStep.pay6_apply]
  rfl

/-- At a later column tile the greatest same-label positive distance takes the tile into what the point before left. -/
theorem s0_next (t : Fin cfg0.N) (h0 : ¬t.val % 16 = 0) (p : Fin 512) :
    (outsAt0 m c t.val t.isLt).s0 (ix2 p (0 : Fin 1))
      = max ((outsAt0 m c (t.val - 1) (Nat.lt_of_le_of_lt (Nat.sub_le _ _) t.isLt)).s0 (ix2 p (0 : Fin 1))) (hpAt m c t p) := by
  by_cases h1 : t.val % 16 = 15
  · rw [outsAt0_C m c t h0 h1]
    dsimp only
    refine (congrFun (Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay19_tile (iblk m c 0 t) (iblk m c 1 t) (iblk m c 2 t) (iblk m c 3 t) _ p
  · rw [outsAt0_B m c t h0 h1]
    dsimp only
    refine (congrFun (Pieces.middle_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay19_tile (iblk m c 0 t) (iblk m c 1 t) (iblk m c 2 t) (iblk m c 3 t) _ p

/-- At the first column tile of a row tile the least other-label distance starts from its reset value. -/
theorem s1_first (t : Fin cfg0.N) (h0 : t.val % 16 = 0) (p : Fin 512) :
    (outsAt0 m c t.val t.isLt).s1 (ix2 p (0 : Fin 1)) = min (⊤ : EReal) (hnAt m c t p) := by
  have h1 : ¬t.val % 16 = 15 := by omega
  rw [outsAt0_A m c t h0 h1]
  dsimp only
  refine (congrFun (Pieces.first_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) (ix2 p (0 : Fin 1))).trans ?_
  refine (TileStep.pay20_tile (iblk m c 0 t) (iblk m c 1 t) (iblk m c 2 t) (iblk m c 3 t) _ p).trans ?_
  rw [TileStep.pay7_apply]
  rfl

/-- At a later column tile the least other-label distance takes the tile into what the point before left. -/
theorem s1_next (t : Fin cfg0.N) (h0 : ¬t.val % 16 = 0) (p : Fin 512) :
    (outsAt0 m c t.val t.isLt).s1 (ix2 p (0 : Fin 1))
      = min ((outsAt0 m c (t.val - 1) (Nat.lt_of_le_of_lt (Nat.sub_le _ _) t.isLt)).s1 (ix2 p (0 : Fin 1))) (hnAt m c t p) := by
  by_cases h1 : t.val % 16 = 15
  · rw [outsAt0_C m c t h0 h1]
    dsimp only
    refine (congrFun (Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay20_tile (iblk m c 0 t) (iblk m c 1 t) (iblk m c 2 t) (iblk m c 3 t) _ p
  · rw [outsAt0_B m c t h0 h1]
    dsimp only
    refine (congrFun (Pieces.middle_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay20_tile (iblk m c 0 t) (iblk m c 1 t) (iblk m c 2 t) (iblk m c 3 t) _ p

/-- At the first column tile of a row tile the same-label count starts from its reset value. -/
theorem s2_first (t : Fin cfg0.N) (h0 : t.val % 16 = 0) (p : Fin 512) :
    (outsAt0 m c t.val t.isLt).s2 (ix2 p (0 : Fin 1)) = (0 : EReal) + cntAt m c t p := by
  have h1 : ¬t.val % 16 = 15 := by omega
  rw [outsAt0_A m c t h0 h1]
  dsimp only
  refine (congrFun (Pieces.first_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) (ix2 p (0 : Fin 1))).trans ?_
  refine (TileStep.pay21_tile (iblk m c 2 t) (iblk m c 3 t) _ p).trans ?_
  rw [TileStep.pay8_apply]
  rfl

/-- At a later column tile the same-label count takes the tile into what the point before left. -/
theorem s2_next (t : Fin cfg0.N) (h0 : ¬t.val % 16 = 0) (p : Fin 512) :
    (outsAt0 m c t.val t.isLt).s2 (ix2 p (0 : Fin 1))
      = ((outsAt0 m c (t.val - 1) (Nat.lt_of_le_of_lt (Nat.sub_le _ _) t.isLt)).s2 (ix2 p (0 : Fin 1))) + cntAt m c t p := by
  by_cases h1 : t.val % 16 = 15
  · rw [outsAt0_C m c t h0 h1]
    dsimp only
    refine (congrFun (Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay21_tile (iblk m c 2 t) (iblk m c 3 t) _ p
  · rw [outsAt0_B m c t h0 h1]
    dsimp only
    refine (congrFun (Pieces.middle_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay21_tile (iblk m c 2 t) (iblk m c 3 t) _ p

/-- At the first column tile of a row tile the other-label flag starts from its reset value. -/
theorem s3_first (t : Fin cfg0.N) (h0 : t.val % 16 = 0) (p : Fin 512) :
    (outsAt0 m c t.val t.isLt).s3 (ix2 p (0 : Fin 1)) = max (0 : EReal) (negAt m c t p) := by
  have h1 : ¬t.val % 16 = 15 := by omega
  rw [outsAt0_A m c t h0 h1]
  dsimp only
  refine (congrFun (Pieces.first_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) (ix2 p (0 : Fin 1))).trans ?_
  refine (TileStep.pay1_tile (iblk m c 2 t) (iblk m c 3 t) _ p).trans ?_
  rw [TileStep.pay9_apply]
  rfl

/-- At a later column tile the other-label flag takes the tile into what the point before left. -/
theorem s3_next (t : Fin cfg0.N) (h0 : ¬t.val % 16 = 0) (p : Fin 512) :
    (outsAt0 m c t.val t.isLt).s3 (ix2 p (0 : Fin 1))
      = max ((outsAt0 m c (t.val - 1) (Nat.lt_of_le_of_lt (Nat.sub_le _ _) t.isLt)).s3 (ix2 p (0 : Fin 1))) (negAt m c t p) := by
  by_cases h1 : t.val % 16 = 15
  · rw [outsAt0_C m c t h0 h1]
    dsimp only
    refine (congrFun (Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay1_tile (iblk m c 2 t) (iblk m c 3 t) _ p
  · rw [outsAt0_B m c t h0 h1]
    dsimp only
    refine (congrFun (Pieces.middle_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay1_tile (iblk m c 2 t) (iblk m c 3 t) _ p

/-- At the first column tile of a row tile the positive same-label flag starts from its reset value. -/
theorem s4_first (t : Fin cfg0.N) (h0 : t.val % 16 = 0) (p : Fin 512) :
    (outsAt0 m c t.val t.isLt).s4 (ix2 p (0 : Fin 1)) = max (0 : EReal) (posAt m c t p) := by
  have h1 : ¬t.val % 16 = 15 := by omega
  rw [outsAt0_A m c t h0 h1]
  dsimp only
  refine (congrFun (Pieces.first_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) (ix2 p (0 : Fin 1))).trans ?_
  refine (TileStep.pay2_tile (iblk m c 0 t) (iblk m c 1 t) (iblk m c 2 t) (iblk m c 3 t) _ p).trans ?_
  rw [TileStep.pay10_apply]
  rfl

/-- At a later column tile the positive same-label flag takes the tile into what the point before left. -/
theorem s4_next (t : Fin cfg0.N) (h0 : ¬t.val % 16 = 0) (p : Fin 512) :
    (outsAt0 m c t.val t.isLt).s4 (ix2 p (0 : Fin 1))
      = max ((outsAt0 m c (t.val - 1) (Nat.lt_of_le_of_lt (Nat.sub_le _ _) t.isLt)).s4 (ix2 p (0 : Fin 1))) (posAt m c t p) := by
  by_cases h1 : t.val % 16 = 15
  · rw [outsAt0_C m c t h0 h1]
    dsimp only
    refine (congrFun (Pieces.last_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay2_tile (iblk m c 0 t) (iblk m c 1 t) (iblk m c 2 t) (iblk m c 3 t) _ p
  · rw [outsAt0_B m c t h0 h1]
    dsimp only
    refine (congrFun (Pieces.middle_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (ix2 p (0 : Fin 1))).trans ?_
    exact TileStep.pay2_tile (iblk m c 0 t) (iblk m c 1 t) (iblk m c 2 t) (iblk m c 3 t) _ p

/-! ## The grid point of row tile qi and column tile ki -/

theorem pt_lt (qi ki : Fin 16) : 16 * qi.val + ki.val < cfg0.N := by
  have h : cfg0.N = 256 := Gen.N_0
  have := qi.isLt
  have := ki.isLt
  omega

/-- The grid point of row tile qi and column tile ki: the column tile is the inner axis. -/
def pt (qi ki : Fin 16) : Fin cfg0.N := ⟨16 * qi.val + ki.val, pt_lt qi ki⟩

theorem pt_val (qi ki : Fin 16) : (pt qi ki).val = 16 * qi.val + ki.val := rfl

theorem pt_mod (qi ki : Fin 16) : (pt qi ki).val % 16 = ki.val := by
  rw [pt_val]
  have := ki.isLt
  omega

theorem pt_pred (qi : Fin 16) (i : Fin 15) : (pt qi i.succ).val - 1 = (pt qi i.castSucc).val := by
  rw [pt_val, pt_val, Fin.val_succ, Fin.coe_castSucc]
  omega

theorem outsAt0_congr {n n' : ℕ} (h : n = n') (hn : n < cfg0.N) (hn' : n' < cfg0.N) :
    outsAt0 m c n hn = outsAt0 m c n' hn' := by
  subst h; rfl

/-! ## The accumulators after column tile ki of row tile qi -/

/-- The greatest same-label positive distance over the first ki + 1 column tiles. -/
theorem s0_eq (qi ki : Fin 16) (p : Fin 512) :
    (outsAt0 m c (pt qi ki).val (pt qi ki).isLt).s0 (ix2 p (0 : Fin 1))
      = (Finset.univ.filter fun j : Fin 16 => j ≤ ki).sup fun j => hpAt m c (pt qi j) p := by
  refine (fold_max ⊥ (fun k => (outsAt0 m c (pt qi k).val (pt qi k).isLt).s0 (ix2 p (0 : Fin 1)))
    (fun j => hpAt m c (pt qi j) p) (s0_first m c (pt qi 0) (by rw [pt_mod]; rfl) p) (fun i => ?_) ki).trans (max_bot_left _)
  refine (s0_next m c (pt qi i.succ) (by rw [pt_mod, Fin.val_succ]; omega) p).trans ?_
  rw [outsAt0_congr m c (pt_pred qi i) _ (pt qi i.castSucc).isLt]

/-- The least other-label distance over the first ki + 1 column tiles. -/
theorem s1_eq (qi ki : Fin 16) (p : Fin 512) :
    (outsAt0 m c (pt qi ki).val (pt qi ki).isLt).s1 (ix2 p (0 : Fin 1))
      = (Finset.univ.filter fun j : Fin 16 => j ≤ ki).inf fun j => hnAt m c (pt qi j) p := by
  refine (fold_min ⊤ (fun k => (outsAt0 m c (pt qi k).val (pt qi k).isLt).s1 (ix2 p (0 : Fin 1)))
    (fun j => hnAt m c (pt qi j) p) (s1_first m c (pt qi 0) (by rw [pt_mod]; rfl) p) (fun i => ?_) ki).trans (min_top_left _)
  refine (s1_next m c (pt qi i.succ) (by rw [pt_mod, Fin.val_succ]; omega) p).trans ?_
  rw [outsAt0_congr m c (pt_pred qi i) _ (pt qi i.castSucc).isLt]

/-- The same-label count over the first ki + 1 column tiles. -/
theorem s2_eq (qi ki : Fin 16) (p : Fin 512) :
    (outsAt0 m c (pt qi ki).val (pt qi ki).isLt).s2 (ix2 p (0 : Fin 1))
      = ∑ j ∈ (Finset.univ.filter fun j : Fin 16 => j ≤ ki), cntAt m c (pt qi j) p := by
  refine (fold_add 0 (fun k => (outsAt0 m c (pt qi k).val (pt qi k).isLt).s2 (ix2 p (0 : Fin 1)))
    (fun j => cntAt m c (pt qi j) p) (s2_first m c (pt qi 0) (by rw [pt_mod]; rfl) p) (fun i => ?_) ki).trans (zero_add _)
  refine (s2_next m c (pt qi i.succ) (by rw [pt_mod, Fin.val_succ]; omega) p).trans ?_
  rw [outsAt0_congr m c (pt_pred qi i) _ (pt qi i.castSucc).isLt]

/-- The other-label flag over the first ki + 1 column tiles (it starts from 0). -/
theorem s3_eq (qi ki : Fin 16) (p : Fin 512) :
    (outsAt0 m c (pt qi ki).val (pt qi ki).isLt).s3 (ix2 p (0 : Fin 1))
      = max 0 ((Finset.univ.filter fun j : Fin 16 => j ≤ ki).sup fun j => negAt m c (pt qi j) p) := by
  refine fold_max 0 (fun k => (outsAt0 m c (pt qi k).val (pt qi k).isLt).s3 (ix2 p (0 : Fin 1)))
    (fun j => negAt m c (pt qi j) p) (s3_first m c (pt qi 0) (by rw [pt_mod]; rfl) p) (fun i => ?_) ki
  refine (s3_next m c (pt qi i.succ) (by rw [pt_mod, Fin.val_succ]; omega) p).trans ?_
  rw [outsAt0_congr m c (pt_pred qi i) _ (pt qi i.castSucc).isLt]

/-- The positive same-label flag over the first ki + 1 column tiles (it starts from 0). -/
theorem s4_eq (qi ki : Fin 16) (p : Fin 512) :
    (outsAt0 m c (pt qi ki).val (pt qi ki).isLt).s4 (ix2 p (0 : Fin 1))
      = max 0 ((Finset.univ.filter fun j : Fin 16 => j ≤ ki).sup fun j => posAt m c (pt qi j) p) := by
  refine fold_max 0 (fun k => (outsAt0 m c (pt qi k).val (pt qi k).isLt).s4 (ix2 p (0 : Fin 1)))
    (fun j => posAt m c (pt qi j) p) (s4_first m c (pt qi 0) (by rw [pt_mod]; rfl) p) (fun i => ?_) ki
  refine (s4_next m c (pt qi i.succ) (by rw [pt_mod, Fin.val_succ]; omega) p).trans ?_
  rw [outsAt0_congr m c (pt_pred qi i) _ (pt qi i.castSucc).isLt]

/-! ## The two result blocks at the last column tile -/

/-- At the last column tile the per-anchor block is the body's output arithmetic on the five accumulators the point leaves. -/
theorem o4_struct (t : Fin cfg0.N) (h0 : ¬t.val % 16 = 0) (h1 : t.val % 16 = 15) :
    (outsAt0 m c t.val t.isLt).o4 = k0_pay4 (outsAt0 m c t.val t.isLt).s2 (outsAt0 m c t.val t.isLt).s3 (outsAt0 m c t.val t.isLt).s4 (outsAt0 m c t.val t.isLt).s0 (outsAt0 m c t.val t.isLt).s1 := by
  rw [outsAt0_C m c t h0 h1]
  dsimp only
  rw [Pieces.last_out4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4,
    Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4]

/-- At the last column tile the flag block is the body's flag arithmetic on the count and the two flags the point leaves. -/
theorem o5_struct (t : Fin cfg0.N) (h0 : ¬t.val % 16 = 0) (h1 : t.val % 16 = 15) :
    (outsAt0 m c t.val t.isLt).o5 = k0_pay5 (outsAt0 m c t.val t.isLt).s2 (outsAt0 m c t.val t.isLt).s3 (outsAt0 m c t.val t.isLt).s4 := by
  rw [outsAt0_C m c t h0 h1]
  dsimp only
  rw [Pieces.last_out5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, Pieces.last_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4]

/-- At the last column tile the per-anchor loss is the hinge of the two extreme distances where the anchor is valid. -/
theorem o4_last (t : Fin cfg0.N) (h1 : t.val % 16 = 15) (p : Fin 512) :
    (outsAt0 m c t.val t.isLt).o4 (ix2 p (0 : Fin 1))
      = if TileStep.validAt ((outsAt0 m c t.val t.isLt).s2 (ix2 p (0 : Fin 1))) ((outsAt0 m c t.val t.isLt).s3 (ix2 p (0 : Fin 1))) ((outsAt0 m c t.val t.isLt).s4 (ix2 p (0 : Fin 1)))
        then RowSpec.hinge ((outsAt0 m c t.val t.isLt).s0 (ix2 p (0 : Fin 1))) ((outsAt0 m c t.val t.isLt).s1 (ix2 p (0 : Fin 1))) else 0 :=
  (congrFun (o4_struct m c t (by omega) h1) (ix2 p (0 : Fin 1))).trans
    (TileStep.pay4_apply (outsAt0 m c t.val t.isLt).s2 (outsAt0 m c t.val t.isLt).s3 (outsAt0 m c t.val t.isLt).s4 (outsAt0 m c t.val t.isLt).s0 (outsAt0 m c t.val t.isLt).s1 (ix2 p (0 : Fin 1)))

/-- At the last column tile the validity flag is 1 where the anchor is valid, else 0. -/
theorem o5_last (t : Fin cfg0.N) (h1 : t.val % 16 = 15) (p : Fin 512) :
    (outsAt0 m c t.val t.isLt).o5 (ix2 p (0 : Fin 1))
      = if TileStep.validAt ((outsAt0 m c t.val t.isLt).s2 (ix2 p (0 : Fin 1))) ((outsAt0 m c t.val t.isLt).s3 (ix2 p (0 : Fin 1))) ((outsAt0 m c t.val t.isLt).s4 (ix2 p (0 : Fin 1))) then (1 : EReal) else 0 :=
  (congrFun (o5_struct m c t (by omega) h1) (ix2 p (0 : Fin 1))).trans
    (TileStep.pay5_apply (outsAt0 m c t.val t.isLt).s2 (outsAt0 m c t.val t.isLt).s3 (outsAt0 m c t.val t.isLt).s4 (ix2 p (0 : Fin 1)))

/-- The per-anchor loss of row p of row tile qi, from the sixteen column tiles. -/
theorem o4_eq (qi : Fin 16) (p : Fin 512) :
    (outsAt0 m c (pt qi 15).val (pt qi 15).isLt).o4 (ix2 p (0 : Fin 1))
      = if TileStep.validAt (∑ j ∈ (Finset.univ.filter fun j : Fin 16 => j ≤ (15 : Fin 16)), cntAt m c (pt qi j) p)
            (max 0 ((Finset.univ.filter fun j : Fin 16 => j ≤ (15 : Fin 16)).sup fun j => negAt m c (pt qi j) p))
            (max 0 ((Finset.univ.filter fun j : Fin 16 => j ≤ (15 : Fin 16)).sup fun j => posAt m c (pt qi j) p))
        then RowSpec.hinge ((Finset.univ.filter fun j : Fin 16 => j ≤ (15 : Fin 16)).sup fun j => hpAt m c (pt qi j) p)
            ((Finset.univ.filter fun j : Fin 16 => j ≤ (15 : Fin 16)).inf fun j => hnAt m c (pt qi j) p)
        else 0 := by
  rw [o4_last m c (pt qi 15) (by rw [pt_mod]; rfl) p, s0_eq, s1_eq, s2_eq, s3_eq, s4_eq]

/-- The validity flag of row p of row tile qi, from the sixteen column tiles. -/
theorem o5_eq (qi : Fin 16) (p : Fin 512) :
    (outsAt0 m c (pt qi 15).val (pt qi 15).isLt).o5 (ix2 p (0 : Fin 1))
      = if TileStep.validAt (∑ j ∈ (Finset.univ.filter fun j : Fin 16 => j ≤ (15 : Fin 16)), cntAt m c (pt qi j) p)
            (max 0 ((Finset.univ.filter fun j : Fin 16 => j ≤ (15 : Fin 16)).sup fun j => negAt m c (pt qi j) p))
            (max 0 ((Finset.univ.filter fun j : Fin 16 => j ≤ (15 : Fin 16)).sup fun j => posAt m c (pt qi j) p))
        then (1 : EReal) else 0 := by
  rw [o5_last m c (pt qi 15) (by rw [pt_mod]; rfl) p, s2_eq, s3_eq, s4_eq]

/-- Every column tile is among the first sixteen. -/
theorem filter_le_last : (Finset.univ.filter fun j : Fin 16 => j ≤ (15 : Fin 16)) = Finset.univ := by decide

end Cert.KernelIdeal.RowTile

end
-- ==== Proof.TileRow.lean ====
/-
  From sixteen column tiles of 512 to the whole row, on the extended reals.

  The columns 0 … 8191 are the pairs (tile j, position q) through c = 512·j + q. A greatest value, a least value and a sum
  over all columns are the greatest, least and sum over the tiles of those over the positions of each tile. A sum of
  0/1 values exceeds 1 exactly when more than one member holds; a greatest 0/1 value, raised to at least 0, is positive
  exactly when some member holds. With these the whole-row quantities of the batch-hard triplet loss are their tiled forms.
-/
import Mathlib
import proofs.«162495_j16088947491301_1_alg».proof.Proof.RowSpec

noncomputable section

namespace Cert.RowSpec

open scoped BigOperators
open Classical

/-- The column at position q of tile j. -/
def col (j : Fin 16) (q : Fin 512) : Fin 8192 := ⟨512 * j.val + q.val, by have := j.isLt; have := q.isLt; omega⟩

theorem col_val (j : Fin 16) (q : Fin 512) : (col j q).val = 512 * j.val + q.val := rfl

/-- The columns are the pairs (tile, position). -/
def colE : Fin 16 × Fin 512 ≃ Fin 8192 where
  toFun p := col p.1 p.2
  invFun c := (⟨c.val / 512, by have := c.isLt; omega⟩, ⟨c.val % 512, Nat.mod_lt _ (by decide)⟩)
  left_inv p := by
    obtain ⟨j, q⟩ := p
    have hq := q.isLt
    refine Prod.ext (Fin.ext ?_) (Fin.ext ?_)
    · show (512 * j.val + q.val) / 512 = j.val
      omega
    · show (512 * j.val + q.val) % 512 = q.val
      omega
  right_inv c := Fin.ext (by
    show 512 * (c.val / 512) + c.val % 512 = c.val
    omega)

theorem colE_apply (j : Fin 16) (q : Fin 512) : colE (j, q) = col j q := rfl

/-! ## The greatest, the least, the sum over the tiles -/

theorem sup_tiles (f : Fin 8192 → EReal) :
    Finset.univ.sup f = Finset.univ.sup fun j : Fin 16 => Finset.univ.sup fun q : Fin 512 => f (col j q) := by
  rw [← Finset.map_univ_equiv colE, Finset.sup_map, ← Finset.univ_product_univ, Finset.sup_product_left]
  rfl

theorem inf_tiles (f : Fin 8192 → EReal) :
    Finset.univ.inf f = Finset.univ.inf fun j : Fin 16 => Finset.univ.inf fun q : Fin 512 => f (col j q) := by
  rw [← Finset.map_univ_equiv colE, Finset.inf_map, ← Finset.univ_product_univ, Finset.inf_product_left]
  rfl

theorem sum_tiles (f : Fin 8192 → EReal) : ∑ c, f c = ∑ j : Fin 16, ∑ q : Fin 512, f (col j q) := by
  rw [← Equiv.sum_comp colE f, Fintype.sum_prod_type]
  rfl

/-! ## 0/1 values -/

variable {ι : Type} [Fintype ι]

/-- A sum of real values, as an extended real. -/
theorem coe_sum (s : Finset ι) (g : ι → ℝ) : ∑ c ∈ s, ((g c : ℝ) : EReal) = ((∑ c ∈ s, g c : ℝ) : EReal) := by
  induction s using Finset.induction_on with
  | empty => simp
  | insert a s ha ih => rw [Finset.sum_insert ha, Finset.sum_insert ha, ih, EReal.coe_add]

/-- The sum of the 0/1 values of a family is the number of its members that hold. -/
theorem sum_indicator (P : ι → Prop) [DecidablePred P] :
    ∑ c, (if P c then (1 : EReal) else 0) = (((Finset.univ.filter P).card : ℝ) : EReal) := by
  have e : (fun c => if P c then (1 : EReal) else 0) = fun c => (((if P c then (1 : ℝ) else 0 : ℝ)) : EReal) :=
    funext fun c => by split_ifs <;> simp
  rw [e, coe_sum, Finset.sum_boole]

/-- The sum of the 0/1 values exceeds 1 exactly when more than one member holds. -/
theorem one_lt_sum_indicator (P : ι → Prop) [DecidablePred P] :
    (1 : EReal) < ∑ c, (if P c then (1 : EReal) else 0) ↔ 1 < (Finset.univ.filter P).card := by
  rw [sum_indicator, ← EReal.coe_one, EReal.coe_lt_coe_iff, Nat.one_lt_cast]

/-- The greatest 0/1 value, raised to at least 0, is positive exactly when some member holds. -/
theorem pos_sup_indicator (P : ι → Prop) [DecidablePred P] :
    0 < max 0 (Finset.univ.sup fun c => if P c then (1 : EReal) else 0) ↔ ∃ c, P c := by
  constructor
  · intro h
    rcases lt_max_iff.mp h with h0 | hs
    · exact absurd h0 (lt_irrefl _)
    · obtain ⟨c, _, hc⟩ := Finset.lt_sup_iff.mp hs
      refine ⟨c, ?_⟩
      by_contra hn
      rw [if_neg hn] at hc
      exact lt_irrefl _ hc
  · rintro ⟨c, hc⟩
    refine lt_max_of_lt_right (lt_of_lt_of_le ?_ (Finset.le_sup (f := fun c => if P c then (1 : EReal) else 0) (Finset.mem_univ c)))
    rw [if_pos hc]
    exact zero_lt_one

/-! ## The distance is positive exactly where the clamped squared distance is -/

theorem sqrt_pos {e : EReal} (h : 0 < e) : 0 < Idealize.ShloMosaic.Ideal.sqrt e := by
  induction e using EReal.rec with
  | bot => exact absurd h (not_lt.mpr bot_le)
  | top => exact h
  | coe r =>
    have hr : 0 < r := EReal.coe_pos.mp h
    rw [Idealize.ShloMosaic.Ideal.sqrt_coe, if_neg (not_lt.mpr hr.le)]
    exact EReal.coe_pos.mpr (Real.sqrt_pos.mpr hr)

theorem dists_pos_iff (e : EReal) : 0 < dists e ↔ 0 < e := by
  unfold dists
  by_cases h : 0 < e
  · rw [if_pos h]; exact ⟨fun _ => h, fun _ => sqrt_pos h⟩
  · rw [if_neg h]; exact ⟨fun h0 => absurd h0 (lt_irrefl _), fun h1 => absurd h1 h⟩

/-! ## The row quantities in tiled form -/

variable (X : Fin 8192 → Fin 256 → EReal) (L : Fin 8192 → BitVec 32)

theorem hp_tiles (r : Fin 8192) :
    hp X L r = Finset.univ.sup fun j : Fin 16 => Finset.univ.sup fun q : Fin 512 => hpTerm X L r (col j q) :=
  sup_tiles _

theorem hn_tiles (r : Fin 8192) :
    hn X L r = Finset.univ.inf fun j : Fin 16 => Finset.univ.inf fun q : Fin 512 => hnTerm X L r (col j q) :=
  inf_tiles _

theorem valid_tiles (r : Fin 8192) :
    valid X L r ↔
      ((1 : EReal) < ∑ j : Fin 16, ∑ q : Fin 512, (if same L r (col j q) then (1 : EReal) else 0)
        ∧ 0 < max 0 (Finset.univ.sup fun j : Fin 16 => Finset.univ.sup fun q : Fin 512 =>
            if ¬ same L r (col j q) then (1 : EReal) else 0))
      ∧ 0 < max 0 (Finset.univ.sup fun j : Fin 16 => Finset.univ.sup fun q : Fin 512 =>
            if same L r (col j q) ∧ 0 < d2 X r (col j q) then (1 : EReal) else 0) := by
  rw [← sum_tiles (fun c => if same L r c then (1 : EReal) else 0),
    ← sup_tiles (fun c => if ¬ same L r c then (1 : EReal) else 0),
    ← sup_tiles (fun c => if same L r c ∧ 0 < d2 X r c then (1 : EReal) else 0),
    one_lt_sum_indicator, pos_sup_indicator, pos_sup_indicator, and_assoc]
  rfl

end Cert.RowSpec

end
-- ==== Proof.TileOfRow.lean ====
/- A tile's quantities as the whole arrays' quantities. At grid point t (row tile t / 16, column tile t % 16), row p of the
   row-tile block is row 512·(t/16) + p of the embeddings and row q of the column-tile block is row 512·(t%16) + q, the
   column of tile t % 16 at position q; likewise for the labels. So the squared norms, inner products, clamped squared
   distances and label comparisons of the tile are those of the arrays at that row and column, and the tile's five
   per-row terms are the greatest / least / sum over the positions of the tile of the row's entries. -/
import proofs.«162495_j16088947491301_1_alg».proof.Proof.Blocks
import proofs.«162495_j16088947491301_1_alg».proof.Proof.TileStep
import proofs.«162495_j16088947491301_1_alg».proof.Proof.TileRow

set_option maxRecDepth 16384

noncomputable section

namespace Cert.KernelIdeal.TileOfRow

open Cert.KernelIdeal.Entry
open Cert.KernelIdeal Cert.KernelIdeal.Gen
open Idealize.ShloMosaic Idealize.ShloMosaic.TcCoe
open Idealize.SL Idealize.SL.Sem
open Idealize.ShloMosaic.ValueIdx
open Cert.RowSpec (col)
open scoped BigOperators
open Classical

variable (m : (ℓ : Loc nD τ sig) → Buf (Elt Ideal) ℓ) (c : Dev nD)

/-- The points as a family of coordinate functions. -/
abbrev pts : Fin 8192 → Fin 256 → EReal := fun r k => m ((c : Thread nD τ).loc main_arg0) (ix2 r k)

/-- The labels as a function of the point. -/
abbrev lbl : Fin 8192 → BitVec 32 := fun r => m ((c : Thread nD τ).loc main_arg1) (ix1 r)

/-- Row p of the row tile of grid point t. -/
abbrev rowOf (t : Fin cfg0.N) (p : Fin 512) : Fin 8192 :=
  ⟨512 * (t.val / 16) + p.val, (by have := lt_of_lt_of_eq t.isLt (show cfg0.N = 256 from N_0); omega)⟩

/-- The column tile of grid point t. -/
abbrev tileOf (t : Fin cfg0.N) : Fin 16 := ⟨t.val % 16, Nat.mod_lt _ (by decide)⟩

variable (t : Fin cfg0.N) (p q : Fin 512)

theorem sqNorm_row :
    TileStep.sqNorm (iblk m c 0 t) p = RowSpec.sq (pts m c) (rowOf t p) := by
  unfold TileStep.sqNorm RowSpec.sq
  exact Finset.sum_congr rfl fun k _ => by rw [Blocks.iblk0_apply]

theorem sqNorm_col :
    TileStep.sqNorm (iblk m c 1 t) q = RowSpec.sq (pts m c) (col (tileOf t) q) := by
  unfold TileStep.sqNorm RowSpec.sq
  exact Finset.sum_congr rfl fun k _ => by rw [Blocks.iblk1_apply]; rfl

theorem inner_row_col :
    TileStep.inner (iblk m c 0 t) (iblk m c 1 t) p q = RowSpec.dot (pts m c) (rowOf t p) (col (tileOf t) q) := by
  unfold TileStep.inner RowSpec.dot
  exact Finset.sum_congr rfl fun k _ => by rw [Blocks.iblk0_apply, Blocks.iblk1_apply]; rfl

theorem d2_row_col :
    TileStep.d2 (iblk m c 0 t) (iblk m c 1 t) p q = RowSpec.d2 (pts m c) (rowOf t p) (col (tileOf t) q) := by
  unfold TileStep.d2 RowSpec.d2
  rw [sqNorm_row, sqNorm_col, inner_row_col]

theorem same_row_col :
    TileStep.same (iblk m c 2 t) (iblk m c 3 t) p q ↔ RowSpec.same (lbl m c) (rowOf t p) (col (tileOf t) q) := by
  unfold TileStep.same RowSpec.same
  rw [Blocks.iblk2_apply, Blocks.iblk3_apply]
  exact Iff.rfl

/-! ## The five per-tile terms of a row -/

theorem hpTile_row :
    TileStep.hpTile (iblk m c 0 t) (iblk m c 1 t) (iblk m c 2 t) (iblk m c 3 t) p
      = Finset.univ.sup fun q : Fin 512 => RowSpec.hpTerm (pts m c) (lbl m c) (rowOf t p) (col (tileOf t) q) := by
  unfold TileStep.hpTile
  refine Finset.sup_congr rfl fun q _ => ?_
  have hs := same_row_col m c t p q
  unfold RowSpec.hpTerm RowSpec.dist
  rw [d2_row_col]
  by_cases h : RowSpec.same (lbl m c) (rowOf t p) (col (tileOf t) q) ∧ 0 < RowSpec.d2 (pts m c) (rowOf t p) (col (tileOf t) q)
  · rw [if_pos h, if_pos ⟨hs.mpr h.1, h.2⟩]
  · rw [if_neg h, if_neg fun h' => h ⟨hs.mp h'.1, h'.2⟩]

theorem hnTile_row :
    TileStep.hnTile (iblk m c 0 t) (iblk m c 1 t) (iblk m c 2 t) (iblk m c 3 t) p
      = Finset.univ.inf fun q : Fin 512 => RowSpec.hnTerm (pts m c) (lbl m c) (rowOf t p) (col (tileOf t) q) := by
  unfold TileStep.hnTile
  refine Finset.inf_congr rfl fun q _ => ?_
  have hs := same_row_col m c t p q
  unfold RowSpec.hnTerm RowSpec.dist
  rw [d2_row_col]
  by_cases h : ¬ RowSpec.same (lbl m c) (rowOf t p) (col (tileOf t) q)
  · rw [if_pos h, if_pos fun h' => h (hs.mp h')]
  · rw [if_neg h, if_neg fun h' => h fun h'' => h' (hs.mpr h'')]

theorem cntTile_row :
    TileStep.cntTile (iblk m c 2 t) (iblk m c 3 t) p
      = ∑ q : Fin 512, if RowSpec.same (lbl m c) (rowOf t p) (col (tileOf t) q) then (1 : EReal) else 0 := by
  unfold TileStep.cntTile
  refine Finset.sum_congr rfl fun q _ => ?_
  have hs := same_row_col m c t p q
  by_cases h : RowSpec.same (lbl m c) (rowOf t p) (col (tileOf t) q)
  · rw [if_pos h, if_pos (hs.mpr h)]
  · rw [if_neg h, if_neg fun h' => h (hs.mp h')]

theorem negTile_row :
    TileStep.negTile (iblk m c 2 t) (iblk m c 3 t) p
      = Finset.univ.sup fun q : Fin 512 =>
          if ¬ RowSpec.same (lbl m c) (rowOf t p) (col (tileOf t) q) then (1 : EReal) else 0 := by
  unfold TileStep.negTile
  refine Finset.sup_congr rfl fun q _ => ?_
  have hs := same_row_col m c t p q
  by_cases h : ¬ RowSpec.same (lbl m c) (rowOf t p) (col (tileOf t) q)
  · rw [if_pos h, if_pos fun h' => h (hs.mp h')]
  · rw [if_neg h, if_neg fun h' => h fun h'' => h' (hs.mpr h'')]

theorem posTile_row :
    TileStep.posTile (iblk m c 0 t) (iblk m c 1 t) (iblk m c 2 t) (iblk m c 3 t) p
      = Finset.univ.sup fun q : Fin 512 =>
          if RowSpec.same (lbl m c) (rowOf t p) (col (tileOf t) q)
              ∧ 0 < RowSpec.d2 (pts m c) (rowOf t p) (col (tileOf t) q) then (1 : EReal) else 0 := by
  unfold TileStep.posTile
  refine Finset.sup_congr rfl fun q _ => ?_
  have hs := same_row_col m c t p q
  rw [d2_row_col]
  by_cases h : RowSpec.same (lbl m c) (rowOf t p) (col (tileOf t) q) ∧ 0 < RowSpec.d2 (pts m c) (rowOf t p) (col (tileOf t) q)
  · rw [if_pos h, if_pos ⟨hs.mpr h.1, h.2⟩]
  · rw [if_neg h, if_neg fun h' => h ⟨hs.mp h'.1, h'.2⟩]

end Cert.KernelIdeal.TileOfRow

end
-- ==== Proof.TailLoss.lean ====
/- The host tail of the kernel at the extended reals: the sum of the per-anchor losses over the number of valid anchors.

   After the region the host sums the two result columns, compares the count with zero, takes the larger of the count
   and one, divides, and selects: where the count is positive the quotient, else zero. -/
import proofs.«162495_j16088947491301_1_alg».proof.Proof.SharedLaunch
import proofs.«162495_j16088947491301_1_alg».proof.Proof.RowSpec
import Idealize.ShloMosaic.PureOps.Ideal.Laws
import Idealize.ShloMosaic.Lib.ValueIdx
import Idealize.ShloMosaic.Lib.IdealHost

noncomputable section

namespace Cert.KernelIdeal.TailLoss

open Cert.KernelIdeal Cert.KernelIdeal.Gen
open Idealize.ShloMosaic Idealize.ShloMosaic.ValueIdx
open scoped BigOperators

/-- The sum over the indices of a column of 8192 rows is the sum over the rows. -/
theorem sum_col (f : Fin 8192 → EReal) : (∑ i : S8192x1.Idx, f (i 0)) = ∑ r : Fin 8192, f r := by
  rw [sum_idx2]
  exact Finset.sum_congr rfl fun a _ => by rw [Fin.sum_univ_one]

/-- The host tail of the two result columns: where the count is positive, the total over the larger of the count and
    one, else zero. -/
theorem tailResult_eq (pa vd : Fin 8192 → EReal) :
    SharedLaunch.tailResult (F := Ideal) (fun i => pa (i 0)) (fun i => vd (i 0))
      = fun _ => (if 0 < ∑ r, vd r then Ideal.div (∑ r, pa r) (max (∑ r, vd r) 1) else 0) := by
  funext j
  unfold SharedLaunch.tailResult
  rw [select_apply, cmpf_apply, hostDivf_apply, maximumf_apply, hostReduceAdd_apply, hostReduceAdd_apply]
  have hsum : ∀ f : Fin 8192 → EReal,
      Ideal.hostReduceAdd reducesTo_S8192x1_S_d0_1 (fun i => f (i 0)) (constant (F := Ideal) S_ .f32 0x00000000#32 (Shape.Idx.first h_S_)) j
        = ∑ r, f r := fun f =>
    (Ideal.hostReduceAdd_total _ (fun b => b.elim0) _ _ j).trans (by
      rw [constant_apply, Ideal.ofBits_zero_f32, zero_add]; exact sum_col f)
  rw [hsum vd, hsum pa]
  simp only [constant_apply, Ideal.ofBits_zero_f32, Ideal.ofBits_one_f32, Ideal.cmpf_def, Ideal.cmp, Scalar.select, id_eq]
  by_cases h : 0 < ∑ r, vd r <;> simp [h]

open Classical in
/-- At the per-anchor losses and the validity indicators of a labelled family it is the batch-hard triplet loss. -/
theorem tailResult_loss (X : Fin 8192 → Fin 256 → EReal) (L : Fin 8192 → BitVec 32) :
    SharedLaunch.tailResult (F := Ideal) (fun i => Cert.RowSpec.perAnchor X L (i 0))
        (fun i => if Cert.RowSpec.valid X L (i 0) then (1 : EReal) else 0)
      = fun _ => Cert.RowSpec.loss X L := by
  rw [tailResult_eq (Cert.RowSpec.perAnchor X L) (fun r => if Cert.RowSpec.valid X L r then (1 : EReal) else 0)]
  rfl

end Cert.KernelIdeal.TailLoss

end
-- ==== Proof.KernelLoss.lean ====
/-
  The kernel's result is the batch-hard triplet loss of the embeddings and the labels.

  Row r = 512·qi + p of the two result arrays is entry p of what the last column tile of row tile qi leaves. There the
  five accumulators are the folds of the tile terms over the sixteen column tiles; a tile term of row p at column tile j
  is the greatest / least / sum over the positions q of that tile of the row's entries at column 512·j + q; and the
  greatest, least and sum over the tiles and their positions are those over all 8192 columns. So the per-anchor array
  holds the per-anchor loss of every row and the flag array its validity as 1 or 0, and the host's tail of the two — the
  sum of the losses over the larger of the count of valid rows and one, where that count is positive, else 0 — is the loss.
-/
import proofs.«162495_j16088947491301_1_alg».proof.Proof.KernelArrays
import proofs.«162495_j16088947491301_1_alg».proof.Proof.RowTile
import proofs.«162495_j16088947491301_1_alg».proof.Proof.TileOfRow
import proofs.«162495_j16088947491301_1_alg».proof.Proof.TailLoss

set_option maxRecDepth 16384

noncomputable section

open scoped BigOperators

namespace Cert.KernelIdeal.KernelLoss

open Cert.KernelIdeal.Entry
open Cert.KernelIdeal Cert.KernelIdeal.Gen
open Idealize.ShloMosaic Idealize.ShloMosaic.TcCoe Idealize.ShloMosaic.ValueIdx
open Idealize.SL Idealize.SL.Sem
open Cert.RowSpec (col)
open Classical

variable (m : (ℓ : Loc nD τ sig) → Buf (Elt Ideal) ℓ) (c : Dev nD)

/-- Row p of row tile qi. -/
def row (qi : Fin 16) (p : Fin 512) : Fin 8192 :=
  ⟨512 * qi.val + p.val, by have := qi.isLt; have := p.isLt; omega⟩

theorem rowOf_pt (qi j : Fin 16) (p : Fin 512) : TileOfRow.rowOf (RowTile.pt qi j) p = row qi p :=
  Fin.ext (by
    show 512 * ((16 * qi.val + j.val) / 16) + p.val = 512 * qi.val + p.val
    have := j.isLt
    omega)

theorem tileOf_pt (qi j : Fin 16) : TileOfRow.tileOf (RowTile.pt qi j) = j :=
  Fin.ext (by
    show (16 * qi.val + j.val) % 16 = j.val
    have := j.isLt
    omega)

/-! ## The tile terms of a grid point are the row's entries over the positions of the point's column tile -/

theorem hpAt_row (qi j : Fin 16) (p : Fin 512) :
    RowTile.hpAt m c (RowTile.pt qi j) p
      = Finset.univ.sup fun q : Fin 512 => RowSpec.hpTerm (TileOfRow.pts m c) (TileOfRow.lbl m c) (row qi p) (col j q) := by
  unfold RowTile.hpAt
  rw [TileOfRow.hpTile_row, rowOf_pt, tileOf_pt]

theorem hnAt_row (qi j : Fin 16) (p : Fin 512) :
    RowTile.hnAt m c (RowTile.pt qi j) p
      = Finset.univ.inf fun q : Fin 512 => RowSpec.hnTerm (TileOfRow.pts m c) (TileOfRow.lbl m c) (row qi p) (col j q) := by
  unfold RowTile.hnAt
  rw [TileOfRow.hnTile_row, rowOf_pt, tileOf_pt]

theorem cntAt_row (qi j : Fin 16) (p : Fin 512) :
    RowTile.cntAt m c (RowTile.pt qi j) p
      = ∑ q : Fin 512, if RowSpec.same (TileOfRow.lbl m c) (row qi p) (col j q) then (1 : EReal) else 0 := by
  unfold RowTile.cntAt
  rw [TileOfRow.cntTile_row, rowOf_pt, tileOf_pt]

theorem negAt_row (qi j : Fin 16) (p : Fin 512) :
    RowTile.negAt m c (RowTile.pt qi j) p
      = Finset.univ.sup fun q : Fin 512 =>
          if ¬ RowSpec.same (TileOfRow.lbl m c) (row qi p) (col j q) then (1 : EReal) else 0 := by
  unfold RowTile.negAt
  rw [TileOfRow.negTile_row, rowOf_pt, tileOf_pt]

theorem posAt_row (qi j : Fin 16) (p : Fin 512) :
    RowTile.posAt m c (RowTile.pt qi j) p
      = Finset.univ.sup fun q : Fin 512 =>
          if RowSpec.same (TileOfRow.lbl m c) (row qi p) (col j q)
              ∧ 0 < RowSpec.d2 (TileOfRow.pts m c) (row qi p) (col j q) then (1 : EReal) else 0 := by
  unfold RowTile.posAt
  rw [TileOfRow.posTile_row, rowOf_pt, tileOf_pt]

/-! ## The two result arrays, row by row -/

/-- The validity of row p of row tile qi from the tiled count and flags. -/
theorem valid_row (qi : Fin 16) (p : Fin 512) :
    TileStep.validAt (∑ j : Fin 16, RowTile.cntAt m c (RowTile.pt qi j) p)
        (max 0 (Finset.univ.sup fun j : Fin 16 => RowTile.negAt m c (RowTile.pt qi j) p))
        (max 0 (Finset.univ.sup fun j : Fin 16 => RowTile.posAt m c (RowTile.pt qi j) p))
      ↔ RowSpec.valid (TileOfRow.pts m c) (TileOfRow.lbl m c) (row qi p) := by
  simp only [cntAt_row, negAt_row, posAt_row]
  exact (RowSpec.valid_tiles (TileOfRow.pts m c) (TileOfRow.lbl m c) (row qi p)).symm

theorem o4_row (qi : Fin 16) (p : Fin 512) :
    (Cases.outsAt0 m c (RowTile.pt qi 15).val (RowTile.pt qi 15).isLt).o4 (ix2 p (0 : Fin 1))
      = RowSpec.perAnchor (TileOfRow.pts m c) (TileOfRow.lbl m c) (row qi p) := by
  rw [RowTile.o4_eq, RowTile.filter_le_last]
  unfold RowSpec.perAnchor
  refine if_congr (valid_row m c qi p) ?_ rfl
  rw [RowSpec.hp_tiles, RowSpec.hn_tiles]
  simp only [hpAt_row, hnAt_row]

theorem o5_row (qi : Fin 16) (p : Fin 512) :
    (Cases.outsAt0 m c (RowTile.pt qi 15).val (RowTile.pt qi 15).isLt).o5 (ix2 p (0 : Fin 1))
      = if RowSpec.valid (TileOfRow.pts m c) (TileOfRow.lbl m c) (row qi p) then (1 : EReal) else 0 := by
  rw [RowTile.o5_eq, RowTile.filter_le_last]
  exact if_congr (valid_row m c qi p) rfl rfl

/-- The row tile and the row within it of a row of the arrays. -/
theorem row_split (i : S8192x1.Idx) :
    row ⟨(i 0).val / 512, by have := idx2_lt0 i; omega⟩ ⟨(i 0).val % 512, Nat.mod_lt _ (by norm_num)⟩ = i 0 :=
  Fin.ext (by
    show 512 * ((i 0).val / 512) + (i 0).val % 512 = (i 0).val
    omega)

/-- The per-anchor array after the run is the per-anchor loss of every row. -/
theorem G4_row (i : S8192x1.Idx) :
    Cases.G4 m c i = RowSpec.perAnchor (TileOfRow.pts m c) (TileOfRow.lbl m c) (i 0) := by
  have hi := idx2_lt0 i
  have e : 16 * ((i 0).val / 512) + 15 = (RowTile.pt ⟨(i 0).val / 512, by omega⟩ 15).val := rfl
  have h1 : Cases.G4 m c i
      = (Cases.outsAt0 m c (RowTile.pt ⟨(i 0).val / 512, by omega⟩ 15).val
          (RowTile.pt ⟨(i 0).val / 512, by omega⟩ 15).isLt).o4 (ix2 ⟨(i 0).val % 512, Nat.mod_lt _ (by norm_num)⟩ (0 : Fin 1)) :=
    congrArg (fun a : Cases.Acc Ideal => a.o4 (ix2 ⟨(i 0).val % 512, Nat.mod_lt _ (by norm_num)⟩ (0 : Fin 1)))
      (Cases.outsAt0_congr m c _ _ _ _ e)
  exact h1.trans ((o4_row m c _ _).trans (congrArg (RowSpec.perAnchor (TileOfRow.pts m c) (TileOfRow.lbl m c)) (row_split i)))

/-- The flag array after the run is the validity of every row, as 1 or 0. -/
theorem G5_row (i : S8192x1.Idx) :
    Cases.G5 m c i = if RowSpec.valid (TileOfRow.pts m c) (TileOfRow.lbl m c) (i 0) then (1 : EReal) else 0 := by
  have hi := idx2_lt0 i
  have e : 16 * ((i 0).val / 512) + 15 = (RowTile.pt ⟨(i 0).val / 512, by omega⟩ 15).val := rfl
  have h1 : Cases.G5 m c i
      = (Cases.outsAt0 m c (RowTile.pt ⟨(i 0).val / 512, by omega⟩ 15).val
          (RowTile.pt ⟨(i 0).val / 512, by omega⟩ 15).isLt).o5 (ix2 ⟨(i 0).val % 512, Nat.mod_lt _ (by norm_num)⟩ (0 : Fin 1)) :=
    congrArg (fun a : Cases.Acc Ideal => a.o5 (ix2 ⟨(i 0).val % 512, Nat.mod_lt _ (by norm_num)⟩ (0 : Fin 1)))
      (Cases.outsAt0_congr m c _ _ _ _ e)
  exact h1.trans ((o5_row m c _ _).trans (congrArg (fun r => if RowSpec.valid (TileOfRow.pts m c) (TileOfRow.lbl m c) r then (1 : EReal) else 0) (row_split i)))

/-! ## The kernel's result -/

/-- The host tail of the two result arrays after the run is the batch-hard triplet loss of the embeddings and labels. -/
theorem kernel_loss :
    SharedLaunch.tailResult (F := Ideal) ((Cases.dats m 0 c).arrAt 4 cfg0.N) ((Cases.dats m 0 c).arrAt 5 cfg0.N)
      = fun _ => RowSpec.loss (TileOfRow.pts m c) (TileOfRow.lbl m c) := by
  rw [Cases.final4, Cases.final5]
  have e4 : Cases.G4 m c = fun i : S8192x1.Idx => RowSpec.perAnchor (TileOfRow.pts m c) (TileOfRow.lbl m c) (i 0) :=
    funext (G4_row m c)
  have e5 : Cases.G5 m c
      = fun i : S8192x1.Idx => if RowSpec.valid (TileOfRow.pts m c) (TileOfRow.lbl m c) (i 0) then (1 : EReal) else 0 :=
    funext (G5_row m c)
  rw [e4, e5]
  exact TailLoss.tailResult_loss (TileOfRow.pts m c) (TileOfRow.lbl m c)

end Cert.KernelIdeal.KernelLoss

end
-- ==== Proof.Algebraic.lean ====
/- The kernel and the reference compute one function at the extended reals: the batch-hard triplet loss of the points
   and labels they are given.

   The kernel's result is the host tail of the two columns its pipeline leaves, which is the loss of the rows read off
   the launch memory; the reference's result is the same loss of the rows read off its own memory, and the two memories
   agree on the arguments. -/
import proofs.«162495_j16088947491301_1_alg».proof.Defs
import proofs.«162495_j16088947491301_1_alg».proof.Proof.SharedLaunch
import proofs.«162495_j16088947491301_1_alg».proof.Proof.SoundBody
import proofs.«162495_j16088947491301_1_alg».proof.Proof.RowSpec
import proofs.«162495_j16088947491301_1_alg».proof.Proof.RunP
import proofs.«162495_j16088947491301_1_alg».proof.Proof.ReadP
import proofs.«162495_j16088947491301_1_alg».proof.Proof.RefRead4
import proofs.«162495_j16088947491301_1_alg».proof.Proof.Frames
import proofs.«162495_j16088947491301_1_alg».proof.Proof.KernelLoss
import proofs.«162495_j16088947491301_1_alg».proof.Proof.Gen.Pre_finite_inputs
import Idealize.ShloMosaic.Lib.ValueIdx

noncomputable section

namespace Cert.Proof.Algebraic

open Idealize.ShloMosaic Idealize.ShloMosaic.TcCoe Idealize.SL.Sem Idealize.ShloMosaic.ValueIdx

/-- From memories that agree on the embeddings and the labels, the idealized kernel and the idealized reference both run,
    both end with the batch-hard triplet loss of those embeddings and labels, and leave their arguments unchanged. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c _ => Cert.RowSpec.loss
      (fun r k => m ((c.tc : Thread Cert.KernelIdeal.nD Cert.KernelIdeal.τ).loc Cert.KernelIdeal.main_arg0) (ix2 r k))
      (fun r => m ((c.tc : Thread Cert.KernelIdeal.nD Cert.KernelIdeal.τ).loc Cert.KernelIdeal.main_arg1) (ix1 r)), ?_, ?_⟩
  · refine (θ_run Cert.KernelIdeal.defs _ _).mono (fun _ h c => ⟨(h c).2.2.trans (Cert.KernelIdeal.KernelLoss.kernel_loss m c), ?_, (h c).2.1⟩)
      (Cert.KernelIdeal.SharedLaunch.run_shared (F := Ideal) m ρ (Cert.KernelIdeal.Cases.dats m) (Cert.KernelIdeal.Cases.A_eq m)
        (Cert.KernelIdeal.Cases.q_eq m) (fun _ _ => rfl) (Cert.KernelIdeal.Cases.body_obligation m) (Cert.KernelIdeal.Cases.hin m)
        (Cert.KernelIdeal.Cases.hout m))
    exact ((h c).1 0).trans ((((Cert.KernelIdeal.Cases.dats (F := Ideal) m 0 c).arrAt_in 0 rfl _).trans
      ((Cert.KernelIdeal.Cases.A_eq m c 0).trans (Cert.Proof.Frames.V_arg0_ideal m c))))
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v51_eq, Cert.ReferenceIdeal.RefValue.val_main_v51_eq_loss, (hagree c).1, (hagree c).2]
    rfl

end Cert.Proof.Algebraic

end
-- ==== Proof.lean ====
/- Both programs compute the batch-hard triplet loss of the embeddings and the labels: per anchor row the greatest
   distance to a row with its label at a positive squared distance, the least distance to a row with another label, the
   hinge of their difference where the anchor is valid, and the mean of the hinges over the valid anchors.

   The kernel folds the per-row maxima, minima, counts and flags over sixteen column tiles and the reference over whole
   rows. Maximum, minimum and addition are associative and commutative, so the folds agree; and the square root of a
   positive extended real is positive, so the two positivity masks agree. The frames hold because the pipeline leaves an
   input array as it found it and no host line writes an argument. -/
import proofs.«162495_j16088947491301_1_alg».proof.Defs
import proofs.«162495_j16088947491301_1_alg».proof.Proof.Gen.Kernel
import proofs.«162495_j16088947491301_1_alg».proof.Proof.Gen.KernelIdeal
import proofs.«162495_j16088947491301_1_alg».proof.Proof.Gen.ReferenceIdeal
import proofs.«162495_j16088947491301_1_alg».proof.Proof.Gen.Pre_finite_inputs
import proofs.«162495_j16088947491301_1_alg».proof.Proof.Frames
import proofs.«162495_j16088947491301_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_Kernel, Frames.frame_KernelIdeal, Frames.frame_ReferenceIdeal, trivial, Algebraic.algebraic⟩

end Cert.Proof

end
